-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S192x1024 : Shape := ⟨2, ![192, 1024]⟩
abbrev S192 : Shape := ⟨1, ![192]⟩
abbrev S1024x64 : Shape := ⟨2, ![1024, 64]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S192x1024 : S_.BroadcastsInDim S192x1024 (![] : Fin 0 → Fin S192x1024.rank)
  reducesTo_S192x1024_S_d0_1 : S192x1024.ReducesTo [0, 1] S_
  bcast_S_S192 : S_.BroadcastsInDim S192 (![] : Fin 0 → Fin S192.rank)
  reducesTo_S192_S_d0 : S192.ReducesTo [0] S_
  bcast_S_S1024x64 : S_.BroadcastsInDim S1024x64 (![] : Fin 0 → Fin S1024x64.rank)
  reducesTo_S1024x64_S_d0_1 : S1024x64.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S192x1024 .f32) (main_arg2 : FVec F S192 .f32) (main_arg3 : FVec F S1024x64 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S192x1024 .f32 := Host.absf main_arg1
  let main_cst_0 : FVec F S_ .f32 := constant S_ .f32 0x7F800000#32
  let main_v5 : FVec F S192x1024 .f32 := broadcastInDim S192x1024 ![] bcast_S_S192x1024 main_cst_0
  let main_v6 : IVec S192x1024 1 := cmpf .olt main_v4 main_v5
  let main_c_1 : IVec S_ 1 := constantI S_ 1 1#1
  let main_v7 : IVec S_ 1 := (fun x v => Host.reduce IntOp.andi x v reducesTo_S192x1024_S_d0_1 h_S_) main_v6 main_c_1
  let main_v8 : IVec S_ 1 := andi main_v3 main_v7
  let main_v9 : FVec F S192 .f32 := Host.absf main_arg2
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_v13 main_v16
-- ==== Kernel.lean ====
abbrev S4x2048x1024 : Shape := ⟨3, ![4, 2048, 1024]⟩
abbrev S192x1024 : Shape := ⟨2, ![192, 1024]⟩
abbrev S192 : Shape := ⟨1, ![192]⟩
abbrev S1024x64 : Shape := ⟨2, ![1024, 64]⟩
abbrev S1024 : Shape := ⟨1, ![1024]⟩
abbrev S64x1024 : Shape := ⟨2, ![64, 1024]⟩
abbrev S64 : Shape := ⟨1, ![64]⟩
abbrev S4x16x4x2048 : Shape := ⟨4, ![4, 16, 4, 2048]⟩
abbrev S1x512x1024 : Shape := ⟨3, ![1, 512, 1024]⟩
abbrev S1x16x4x512 : Shape := ⟨4, ![1, 16, 4, 512]⟩
abbrev S512x1024 : Shape := ⟨2, ![512, 1024]⟩
abbrev S512x64 : Shape := ⟨2, ![512, 64]⟩
abbrev S1x64 : Shape := ⟨2, ![1, 64]⟩
abbrev S512x4 : Shape := ⟨2, ![512, 4]⟩
abbrev S4x512 : Shape := ⟨2, ![4, 512]⟩
abbrev S1x1x4x512 : Shape := ⟨4, ![1, 1, 4, 512]⟩
abbrev S16x4x1024 : Shape := ⟨3, ![16, 4, 1024]⟩
abbrev S1x1x4x2048 : Shape := ⟨4, ![1, 1, 4, 2048]⟩
abbrev S1x4x1024 : Shape := ⟨3, ![1, 4, 1024]⟩
abbrev S4x2048 : Shape := ⟨2, ![4, 2048]⟩
abbrev S512x2048 : Shape := ⟨2, ![512, 2048]⟩
abbrev S512 : Shape := ⟨1, ![512]⟩
abbrev S512x1 : Shape := ⟨2, ![512, 1]⟩
abbrev S4x1024 : Shape := ⟨2, ![4, 1024]⟩
abbrev S1x1024 : Shape := ⟨2, ![1, 1024]⟩

abbrev nBuf : Space → Nat
  | .hbm => 24
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S192x1024, .f32⟩
  | .hbm, ⟨2, _⟩ => ⟨S192, .f32⟩
  | .hbm, ⟨3, _⟩ => ⟨S1024x64, .f32⟩
  | .hbm, ⟨4, _⟩ => ⟨S1024, .f32⟩
  | .hbm, ⟨5, _⟩ => ⟨S64x1024, .f32⟩
  | .hbm, ⟨6, _⟩ => ⟨S1024x64, .f32⟩
  | .hbm, ⟨7, _⟩ => ⟨S1024x64, .bf16⟩
  | .hbm, ⟨8, _⟩ => ⟨S64x1024, .f32⟩
  | .hbm, ⟨9, _⟩ => ⟨S1024x64, .f32⟩
  | .hbm, ⟨10, _⟩ => ⟨S1024x64, .bf16⟩
  | .hbm, ⟨11, _⟩ => ⟨S64x1024, .f32⟩
  | .hbm, ⟨12, _⟩ => ⟨S1024x64, .f32⟩
  | .hbm, ⟨13, _⟩ => ⟨S1024x64, .bf16⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S4x16x4x2048, .f32⟩
  | .hbm, ⟨18, _⟩ => ⟨S4x16x4x2048, .f32⟩
  | .hbm, ⟨19, _⟩ => ⟨S4x16x4x2048, .f32⟩
  | .hbm, ⟨20, _⟩ => ⟨S64x1024, .f32⟩
  | .hbm, ⟨21, _⟩ => ⟨S64x1024, .bf16⟩
  | .hbm, ⟨22, _⟩ => ⟨S16x4x1024, .bf16⟩
  | .hbm, ⟨23, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x64, .bf16⟩
  | .local _ .vmem, ⟨3, _⟩ => ⟨S1024x64, .bf16⟩
  | .local _ .vmem, ⟨4, _⟩ => ⟨S1024x64, .bf16⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S1x16x4x512, .f32⟩
  | .local _ .vmem, ⟨9, _⟩ => ⟨S1x16x4x512, .f32⟩
  | .local _ .vmem, ⟨10, _⟩ => ⟨S1x16x4x512, .f32⟩
  | .local _ .vmem, ⟨11, _⟩ => ⟨S1x16x4x512, .f32⟩
  | .local _ .vmem, ⟨12, _⟩ => ⟨S1x16x4x512, .f32⟩
  | .local _ .vmem, ⟨13, _⟩ => ⟨S1x16x4x512, .f32⟩
  | .local _ .vmem, ⟨14, _⟩ => ⟨S1x1x4x512, .f32⟩
  | .local _ .vmem, ⟨15, _⟩ => ⟨S1x1x4x512, .f32⟩
  | .local _ .vmem, ⟨16, _⟩ => ⟨S1x1x4x2048, .f32⟩
  | .local _ .vmem, ⟨17, _⟩ => ⟨S1x1x4x2048, .f32⟩
  | .local _ .vmem, ⟨18, _⟩ => ⟨S1x1x4x2048, .f32⟩
  | .local _ .vmem, ⟨19, _⟩ => ⟨S1x1x4x2048, .f32⟩
  | .local _ .vmem, ⟨20, _⟩ => ⟨S1x4x1024, .bf16⟩
  | .local _ .vmem, ⟨21, _⟩ => ⟨S1x4x1024, .bf16⟩
  | .local _ .vmem, ⟨22, _⟩ => ⟨S1024, .f32⟩
  | .local _ .vmem, ⟨23, _⟩ => ⟨S1x512x1024, .f32⟩
  | .local _ .vmem, ⟨24, _⟩ => ⟨S1x512x1024, .f32⟩
  | .local _ .vmem, ⟨25, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem5_1 : DmaSem sig := 24

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x4x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x4x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![4, 4, 16], ![false, false, false]⟩

def k1_cond2 (i : grid1.Coords) : BitVec 1 :=
  let arg2 : BitVec 32 := BitVec.ofNat 32 (i 2).val
  let c15_i32 : BitVec 32 := 15#32
  let v35 : BitVec 1 := Scalar.cmpi .eq arg2 c15_i32
  let v36 : BitVec 32 := Scalar.extui v35
  let c0_i32_24 : BitVec 32 := 0#32
  let v37 : BitVec 1 := Scalar.cmpi .ne v36 c0_i32_24
  v37

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x4x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x4x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x4x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x4x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  slices_S192x1024_S64x1024_0_0 : S192x1024.Slices ![0, 0] S64x1024
  transposes_S64x1024_S1024x64_1_0 : S64x1024.Transposes [1, 0] S1024x64
  bitsLt_bf16_f32 : FTy.bits .bf16 < FTy.bits .f32
  slices_S192x1024_S64x1024_64_0 : S192x1024.Slices ![64, 0] S64x1024
  slices_S192x1024_S64x1024_128_0 : S192x1024.Slices ![128, 0] S64x1024
  slices_S192_S64_0 : S192.Slices ![0] S64
  slices_S192_S64_64 : S192.Slices ![64] S64
  slices_S192_S64_128 : S192.Slices ![128] S64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S512x64 : S1x64.Broadcasts S512x64
  slices_S512x64_o0_0_S512x4 : S512x64.Slices ![0, 0] S512x4
  transposes_S512x4_p1_0_S4x512 : S512x4.Transposes [1, 0] S4x512
  inb_S1x16x4x512_S1x1x4x512_0_0_0_0 : ∀ a, (![0, 0, 0, 0] : Fin 4 → Nat) a + S1x1x4x512.size a ≤ S1x16x4x512.size a
  h_S1x1x4x512 : 0 < S1x1x4x512.numel
  shapeCasts_S1x1x4x512_S4x512 : S1x1x4x512.ShapeCasts S4x512
  shapeCasts_S4x512_S1x1x4x512 : S4x512.ShapeCasts S1x1x4x512
  slices_S512x64_o0_4_S512x4 : S512x64.Slices ![0, 4] S512x4
  inb_S1x16x4x512_S1x1x4x512_0_1_0_0 : ∀ a, (![0, 1, 0, 0] : Fin 4 → Nat) a + S1x1x4x512.size a ≤ S1x16x4x512.size a
  slices_S512x64_o0_8_S512x4 : S512x64.Slices ![0, 8] S512x4
  inb_S1x16x4x512_S1x1x4x512_0_2_0_0 : ∀ a, (![0, 2, 0, 0] : Fin 4 → Nat) a + S1x1x4x512.size a ≤ S1x16x4x512.size a
  slices_S512x64_o0_12_S512x4 : S512x64.Slices ![0, 12] S512x4
  inb_S1x16x4x512_S1x1x4x512_0_3_0_0 : ∀ a, (![0, 3, 0, 0] : Fin 4 → Nat) a + S1x1x4x512.size a ≤ S1x16x4x512.size a
  slices_S512x64_o0_16_S512x4 : S512x64.Slices ![0, 16] S512x4
  inb_S1x16x4x512_S1x1x4x512_0_4_0_0 : ∀ a, (![0, 4, 0, 0] : Fin 4 → Nat) a + S1x1x4x512.size a ≤ S1x16x4x512.size a
  slices_S512x64_o0_20_S512x4 : S512x64.Slices ![0, 20] S512x4
  inb_S1x16x4x512_S1x1x4x512_0_5_0_0 : ∀ a, (![0, 5, 0, 0] : Fin 4 → Nat) a + S1x1x4x512.size a ≤ S1x16x4x512.size a
  slices_S512x64_o0_24_S512x4 : S512x64.Slices ![0, 24] S512x4
  inb_S1x16x4x512_S1x1x4x512_0_6_0_0 : ∀ a, (![0, 6, 0, 0] : Fin 4 → Nat) a + S1x1x4x512.size a ≤ S1x16x4x512.size a
  slices_S512x64_o0_28_S512x4 : S512x64.Slices ![0, 28] S512x4
  inb_S1x16x4x512_S1x1x4x512_0_7_0_0 : ∀ a, (![0, 7, 0, 0] : Fin 4 → Nat) a + S1x1x4x512.size a ≤ S1x16x4x512.size a
  slices_S512x64_o0_32_S512x4 : S512x64.Slices ![0, 32] S512x4
  inb_S1x16x4x512_S1x1x4x512_0_8_0_0 : ∀ a, (![0, 8, 0, 0] : Fin 4 → Nat) a + S1x1x4x512.size a ≤ S1x16x4x512.size a
  slices_S512x64_o0_36_S512x4 : S512x64.Slices ![0, 36] S512x4
  inb_S1x16x4x512_S1x1x4x512_0_9_0_0 : ∀ a, (![0, 9, 0, 0] : Fin 4 → Nat) a + S1x1x4x512.size a ≤ S1x16x4x512.size a
  slices_S512x64_o0_40_S512x4 : S512x64.Slices ![0, 40] S512x4
  inb_S1x16x4x512_S1x1x4x512_0_10_0_0 : ∀ a, (![0, 10, 0, 0] : Fin 4 → Nat) a + S1x1x4x512.size a ≤ S1x16x4x512.size a
  slices_S512x64_o0_44_S512x4 : S512x64.Slices ![0, 44] S512x4
  inb_S1x16x4x512_S1x1x4x512_0_11_0_0 : ∀ a, (![0, 11, 0, 0] : Fin 4 → Nat) a + S1x1x4x512.size a ≤ S1x16x4x512.size a
  slices_S512x64_o0_48_S512x4 : S512x64.Slices ![0, 48] S512x4
  inb_S1x16x4x512_S1x1x4x512_0_12_0_0 : ∀ a, (![0, 12, 0, 0] : Fin 4 → Nat) a + S1x1x4x512.size a ≤ S1x16x4x512.size a
  slices_S512x64_o0_52_S512x4 : S512x64.Slices ![0, 52] S512x4
  inb_S1x16x4x512_S1x1x4x512_0_13_0_0 : ∀ a, (![0, 13, 0, 0] : Fin 4 → Nat) a + S1x1x4x512.size a ≤ S1x16x4x512.size a
  slices_S512x64_o0_56_S512x4 : S512x64.Slices ![0, 56] S512x4
  inb_S1x16x4x512_S1x1x4x512_0_14_0_0 : ∀ a, (![0, 14, 0, 0] : Fin 4 → Nat) a + S1x1x4x512.size a ≤ S1x16x4x512.size a
  slices_S512x64_o0_60_S512x4 : S512x64.Slices ![0, 60] S512x4
  inb_S1x16x4x512_S1x1x4x512_0_15_0_0 : ∀ a, (![0, 15, 0, 0] : Fin 4 → Nat) a + S1x1x4x512.size a ≤ S1x16x4x512.size a
  transposes_S1024x64_S64x1024_1_0 : S1024x64.Transposes [1, 0] S64x1024
  shapeCasts_S64x1024_S16x4x1024 : S64x1024.ShapeCasts S16x4x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1x4x512_S1x1x4x512_0_0_0_0 : ∀ a, (![0, 0, 0, 0] : Fin 4 → Nat) a + S1x1x4x512.size a ≤ S1x1x4x512.size a
  inb_S1x1x4x2048_S1x1x4x2048_0_0_0_0 : ∀ a, (![0, 0, 0, 0] : Fin 4 → Nat) a + S1x1x4x2048.size a ≤ S1x1x4x2048.size a
  h_S1x1x4x2048 : 0 < S1x1x4x2048.numel
  shapeCasts_S1x1x4x2048_S4x2048 : S1x1x4x2048.ShapeCasts S4x2048
  reduces_S512x2048_S512 : S512x2048.Reduces [1] S512
  shapeCasts_S512_S512x1 : S512.ShapeCasts S512x1
  broadcasts_S512x1_S512x2048 : S512x1.Broadcasts S512x2048
  broadcasts_S512x1_S512x4 : S512x1.Broadcasts S512x4
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S1024x64_S512x64_1_0_0_1_n_n_wf : DotDims.WF S512x1024 S1024x64 S512x64 [1] [0] [0] [1] [] []
  dot_S4x512_S4x2048_S512x2048_0_0_1_1_n_n_wf : DotDims.WF S4x512 S4x2048 S512x2048 [0] [0] [1] [1] [] []
  dot_S512x2048_S4x2048_S512x4_1_1_0_0_n_n_wf : DotDims.WF S512x2048 S4x2048 S512x4 [1] [1] [0] [0] [] []
  dot_S512x4_S4x1024_S512x1024_1_0_0_1_n_n_wf : DotDims.WF S512x4 S4x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .bf16 = 32 ∨ (Rect.block (s := S1024x64) S1024x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .bf16 = 32 ∨ (Rect.block (s := S1024x64) S1024x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .bf16 = 32 ∨ (Rect.block (s := S1024x64) S1024x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x4x512.size a ≤ S4x16x4x2048.size a
  hwx0_7 : ∀ i : grid0.Coords, EltTy.bits .f32 = 32 ∨ (Rect.block (s := S4x16x4x2048) S1x16x4x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x4x512.size a ≤ S4x16x4x2048.size a
  hwx0_8 : ∀ i : grid0.Coords, EltTy.bits .f32 = 32 ∨ (Rect.block (s := S4x16x4x2048) S1x16x4x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x4x512.size a ≤ S4x16x4x2048.size a
  hwx0_9 : ∀ i : grid0.Coords, EltTy.bits .f32 = 32 ∨ (Rect.block (s := S4x16x4x2048) S1x16x4x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x4x512.size a ≤ S4x16x4x2048.size a
  hwx1_0 : ∀ i : grid1.Coords, EltTy.bits .f32 = 32 ∨ (Rect.block (s := S4x16x4x2048) S1x1x4x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4x2048.size a ≤ S4x16x4x2048.size a
  hwx1_1 : ∀ i : grid1.Coords, EltTy.bits .f32 = 32 ∨ (Rect.block (s := S4x16x4x2048) S1x1x4x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4x2048.size a ≤ S4x16x4x2048.size a
  hwx1_2 : ∀ i : grid1.Coords, EltTy.bits .f32 = 32 ∨ (Rect.block (s := S4x16x4x2048) S1x1x4x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4x1024.size a ≤ S16x4x1024.size a
  hwx1_3 : ∀ i : grid1.Coords, EltTy.bits .bf16 = 32 ∨ (Rect.block (s := S16x4x1024) S1x4x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S4x512_S4x2048_S512x2048_0_0_1_1_n_n : DotDims S4x512 S4x2048 S512x2048 where
  lhsContracting := [0]
  rhsContracting := [0]
  lhsNonContracting := [1]
  rhsNonContracting := [1]
  lhsBatch := []
  rhsBatch := []
  wf := dot_S4x512_S4x2048_S512x2048_0_0_1_1_n_n_wf
def dot_S512x2048_S4x2048_S512x4_1_1_0_0_n_n : DotDims S512x2048 S4x2048 S512x4 where
  lhsContracting := [1]
  rhsContracting := [1]
  lhsNonContracting := [0]
  rhsNonContracting := [0]
  lhsBatch := []
  rhsBatch := []
  wf := dot_S512x2048_S4x2048_S512x4_1_1_0_0_n_n_wf
def dot_S512x4_S4x1024_S512x1024_1_0_0_1_n_n : DotDims S512x4 S4x1024 S512x1024 where
  lhsContracting := [1]
  rhsContracting := [0]
  lhsNonContracting := [0]
  rhsNonContracting := [1]
  lhsBatch := []
  rhsBatch := []
  wf := dot_S512x4_S4x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S1x16x4x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S1x16x4x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_2) S1x16x4x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v12_0) S1x1x4x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S1x1x4x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_2) S1x1x4x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x4x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S192x1024 : Shape := ⟨2, ![192, 1024]⟩
abbrev S192 : Shape := ⟨1, ![192]⟩
abbrev S1024x64 : Shape := ⟨2, ![1024, 64]⟩
abbrev S1024 : Shape := ⟨1, ![1024]⟩
abbrev S4x2048x192 : Shape := ⟨3, ![4, 2048, 192]⟩
abbrev S1x1x192 : Shape := ⟨3, ![1, 1, 192]⟩
abbrev S4x2048x64 : Shape := ⟨3, ![4, 2048, 64]⟩
abbrev S4x2048x16x4 : Shape := ⟨4, ![4, 2048, 16, 4]⟩
abbrev S4x16x2048x4 : Shape := ⟨4, ![4, 16, 2048, 4]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S192x1024, .f32⟩
  | .hbm, ⟨2, _⟩ => ⟨S192, .f32⟩
  | .hbm, ⟨3, _⟩ => ⟨S1024x64, .f32⟩
  | .hbm, ⟨4, _⟩ => ⟨S1024, .f32⟩
  | .hbm, ⟨5, _⟩ => ⟨S4x2048x192, .f32⟩
  | .hbm, ⟨6, _⟩ => ⟨S1x1x192, .f32⟩
  | .hbm, ⟨7, _⟩ => ⟨S4x2048x192, .f32⟩
  | .hbm, ⟨8, _⟩ => ⟨S4x2048x192, .f32⟩
  | .hbm, ⟨9, _⟩ => ⟨S4x2048x64, .f32⟩
  | .hbm, ⟨10, _⟩ => ⟨S4x2048x64, .f32⟩
  | .hbm, ⟨11, _⟩ => ⟨S4x2048x64, .f32⟩
  | .hbm, ⟨12, _⟩ => ⟨S4x2048x16x4, .f32⟩
  | .hbm, ⟨13, _⟩ => ⟨S4x16x2048x4, .f32⟩
  | .hbm, ⟨14, _⟩ => ⟨S4x2048x16x4, .f32⟩
  | .hbm, ⟨15, _⟩ => ⟨S4x16x2048x4, .f32⟩
  | .hbm, ⟨16, _⟩ => ⟨S4x2048x16x4, .f32⟩
  | .hbm, ⟨17, _⟩ => ⟨S4x16x2048x4, .f32⟩
  | .hbm, ⟨18, _⟩ => ⟨S4x16x2048x2048, .f32⟩
  | .hbm, ⟨19, _⟩ => ⟨S_, .f32⟩
  | .hbm, ⟨20, _⟩ => ⟨S4x16x2048x2048, .f32⟩
  | .hbm, ⟨21, _⟩ => ⟨S4x16x2048x2048, .f32⟩
  | .hbm, ⟨22, _⟩ => ⟨S_, .f32⟩
  | .hbm, ⟨23, _⟩ => ⟨S4x16x2048, .f32⟩
  | .hbm, ⟨24, _⟩ => ⟨S_, .f32⟩
  | .hbm, ⟨25, _⟩ => ⟨S4x16x2048, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S4x16x2048x1, .f32⟩
  | .hbm, ⟨34, _⟩ => ⟨S4x16x2048x2048, .f32⟩
  | .hbm, ⟨35, _⟩ => ⟨S4x16x2048x2048, .f32⟩
  | .hbm, ⟨36, _⟩ => ⟨S4x16x2048x4, .f32⟩
  | .hbm, ⟨37, _⟩ => ⟨S4x2048x16x4, .f32⟩
  | .hbm, ⟨38, _⟩ => ⟨S4x2048x64, .f32⟩
  | .hbm, ⟨39, _⟩ => ⟨S4x2048x1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S192_S1x1x192_2 : S192.BroadcastsInDim S1x1x192 (![2] : Fin 1 → Fin S1x1x192.rank)
  bcast_S1x1x192_S4x2048x192_0_1_2 : S1x1x192.BroadcastsInDim S4x2048x192 (![0, 1, 2] : Fin 3 → Fin S4x2048x192.rank)
  slices_S4x2048x192_S4x2048x64_0_0_0 : S4x2048x192.Slices ![0, 0, 0] S4x2048x64
  slices_S4x2048x192_S4x2048x64_0_0_64 : S4x2048x192.Slices ![0, 0, 64] S4x2048x64
  slices_S4x2048x192_S4x2048x64_0_0_128 : S4x2048x192.Slices ![0, 0, 128] S4x2048x64
  shapeCasts_S4x2048x64_S4x2048x16x4 : S4x2048x64.ShapeCasts S4x2048x16x4
  transposes_S4x2048x16x4_S4x16x2048x4_0_2_1_3 : S4x2048x16x4.Transposes [0, 2, 1, 3] S4x16x2048x4
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x4_S4x2048x16x4_0_2_1_3 : S4x16x2048x4.Transposes [0, 2, 1, 3] S4x2048x16x4
  shapeCasts_S4x2048x16x4_S4x2048x64 : S4x2048x16x4.ShapeCasts S4x2048x64
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S192x1024_S4x2048x192_2_1_01_0_n_n_wf : DotDims.WF S4x2048x1024 S192x1024 S4x2048x192 [2] [1] [0, 1] [0] [] []
  dot_S4x16x2048x4_S4x16x2048x4_S4x16x2048x2048_3_3_2_2_01_01_wf : DotDims.WF S4x16x2048x4 S4x16x2048x4 S4x16x2048x2048 [3] [3] [2] [2] [0, 1] [0, 1]
  dot_S4x16x2048x2048_S4x16x2048x4_S4x16x2048x4_3_2_2_3_01_01_wf : DotDims.WF S4x16x2048x2048 S4x16x2048x4 S4x16x2048x4 [3] [2] [2] [3] [0, 1] [0, 1]
  dot_S4x2048x64_S1024x64_S4x2048x1024_2_1_01_0_n_n_wf : DotDims.WF S4x2048x64 S1024x64 S4x2048x1024 [2] [1] [0, 1] [0] [] []

variable [Facts₀]

def dot_S4x2048x1024_S192x1024_S4x2048x192_2_1_01_0_n_n : DotDims S4x2048x1024 S192x1024 S4x2048x192 where
  lhsContracting := [2]
  rhsContracting := [1]
  lhsNonContracting := [0, 1]
  rhsNonContracting := [0]
  lhsBatch := []
  rhsBatch := []
  wf := dot_S4x2048x1024_S192x1024_S4x2048x192_2_1_01_0_n_n_wf
def dot_S4x16x2048x4_S4x16x2048x4_S4x16x2048x2048_3_3_2_2_01_01 : DotDims S4x16x2048x4 S4x16x2048x4 S4x16x2048x2048 where
  lhsContracting := [3]
  rhsContracting := [3]
  lhsNonContracting := [2]
  rhsNonContracting := [2]
  lhsBatch := [0, 1]
  rhsBatch := [0, 1]
  wf := dot_S4x16x2048x4_S4x16x2048x4_S4x16x2048x2048_3_3_2_2_01_01_wf
def dot_S4x16x2048x2048_S4x16x2048x4_S4x16x2048x4_3_2_2_3_01_01 : DotDims S4x16x2048x2048 S4x16x2048x4 S4x16x2048x4 where
  lhsContracting := [3]
  rhsContracting := [2]
  lhsNonContracting := [2]
  rhsNonContracting := [3]
  lhsBatch := [0, 1]
  rhsBatch := [0, 1]
  wf := dot_S4x16x2048x2048_S4x16x2048x4_S4x16x2048x4_3_2_2_3_01_01_wf
def dot_S4x2048x64_S1024x64_S4x2048x1024_2_1_01_0_n_n : DotDims S4x2048x64 S1024x64 S4x2048x1024 where
  lhsContracting := [2]
  rhsContracting := [1]
  lhsNonContracting := [0, 1]
  rhsNonContracting := [0]
  lhsBatch := []
  rhsBatch := []
  wf := dot_S4x2048x64_S1024x64_S4x2048x1024_2_1_01_0_n_n_wf

class Facts : Prop extends Facts₀ where

variable [Facts]
-- ==== Proof.K.R0Run.lean ====
import proofs.«117134_j33835752358170_2_alg».proof.Proof.Gen.Kernel.Launch
import proofs.«117134_j33835752358170_2_alg».proof.Proof.Gen.Kernel.Skeleton
import proofs.«117134_j33835752358170_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The projection kernel's body on whole staging memrefs: the seven inputs at given contents (the row block of x,
    the three transposed weight blocks, the three bias blocks), the three outputs at anything. It runs to the
    continuation with the inputs as they were and each output's buffer holding its sixteen stores — one `[1,1,4,512]`
    slab per head, at offset `[0, h, 0, 0]` — written over what it held; the three lists of stored pieces (last store
    first) are found by the run itself. -/
noncomputable def kernelRun0 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) :
    Σ' (L7 : List (View.Piece (Elt F) S1x16x4x512 .f32)) (L8 : List (View.Piece (Elt F) S1x16x4x512 .f32)), { L9 : List (View.Piece (Elt F) S1x16x4x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__qkv_proj_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__qkv_proj_kernel_eq_skeleton]; unfold cc0__qkv_proj_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

end Cert.Kernel.Fr

end
-- ==== Proof.K.Region0.lean ====
import proofs.«117134_j33835752358170_2_alg».proof.Proof.K.R0Run
import Idealize.ShloMosaic.Lib.Pipeline.RegionsLoop

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered: the parameter this region's half is stated at
variable (V : (c : Dev nD) → (b : Ref sig .tc) → Buf (Elt F) ((c : Thread nD τ).loc b))

/-! # The projection call (pipeline 0), at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    window's block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    window's block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    window's block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    window's block index has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    window's block index has not moved), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    window's block index has not moved), for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs at a point -/

/-- One staging buffer of each output window, through which its contents are stated (the choice does not matter). -/
abbrev VO0_7 : View sig .tc .vmem S1x16x4x512 .f32 := (Memref.whole cc0_stg7_0 : Memref sig .tc .vmem S1x16x4x512 .f32).view
abbrev VO0_8 : View sig .tc .vmem S1x16x4x512 .f32 := (Memref.whole cc0_stg8_0 : Memref sig .tc .vmem S1x16x4x512 .f32).view
abbrev VO0_9 : View sig .tc .vmem S1x16x4x512 .f32 := (Memref.whole cc0_stg9_0 : Memref sig .tc .vmem S1x16x4x512 .f32).view
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev ms0_8 (t : Fin cfg0.N) := win0_8.stage (cfg0.slots t 8)
abbrev hs0_8 (t : Fin cfg0.N) : (ms0_8 t).IsWhole := hstage0_8 ((cfg0.slots t 8).cast nbuf0_8)
abbrev ms0_9 (t : Fin cfg0.N) := win0_9.stage (cfg0.slots t 9)
abbrev hs0_9 (t : Fin cfg0.N) : (ms0_9 t).IsWhole := hstage0_9 ((cfg0.slots t 9).cast nbuf0_9)

/-! ## What the body leaves in each output window's buffer -/

/-- The body's sixteen stores into output 7 tile its `[1,16,4,512]` block (one `[1,1,4,512]` slab per head), so they cover it. -/
theorem cover0_7 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) (y : S1x16x4x512.Idx) :
    ∃ pc ∈ (kernelRun0 c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun0 c i arg2 harg2 arg3 harg3 arg4 harg4 arg5 harg5 arg6 harg6 arg7 harg7 arg8 harg8 arg9 harg9 arg10 harg10 arg11 harg11 x0 x1 x2 x3 x4 x5 x6).1 S1x1x4x512.size (by sl_kernel_rfl) y

/-- What the body leaves in output 7's staging buffer: its stored pieces read back. -/
def out0_7 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) : Vec F S1x16x4x512 .f32 :=
  VO0_7.read (Elt F) (VO0_7.writes (Elt F) VO0_7.junk (kernelRun0 c i arg2 harg2 arg3 harg3 arg4 harg4 arg5 harg5 arg6 harg6 arg7 harg7 arg8 harg8 arg9 harg9 arg10 harg10 arg11 harg11 x0 x1 x2 x3 x4 x5 x6).1)

/-- The body's sixteen stores into output 8 tile its `[1,16,4,512]` block (one `[1,1,4,512]` slab per head), so they cover it. -/
theorem cover0_8 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) (y : S1x16x4x512.Idx) :
    ∃ pc ∈ (kernelRun0 c i arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledL (kernelRun0 c i arg2 harg2 arg3 harg3 arg4 harg4 arg5 harg5 arg6 harg6 arg7 harg7 arg8 harg8 arg9 harg9 arg10 harg10 arg11 harg11 x0 x1 x2 x3 x4 x5 x6).2.1 S1x1x4x512.size (by sl_kernel_rfl) y

/-- What the body leaves in output 8's staging buffer: its stored pieces read back. -/
def out0_8 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) : Vec F S1x16x4x512 .f32 :=
  VO0_8.read (Elt F) (VO0_8.writes (Elt F) VO0_8.junk (kernelRun0 c i arg2 harg2 arg3 harg3 arg4 harg4 arg5 harg5 arg6 harg6 arg7 harg7 arg8 harg8 arg9 harg9 arg10 harg10 arg11 harg11 x0 x1 x2 x3 x4 x5 x6).2.1)

/-- The body's sixteen stores into output 9 tile its `[1,16,4,512]` block (one `[1,1,4,512]` slab per head), so they cover it. -/
theorem cover0_9 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) (y : S1x16x4x512.Idx) :
    ∃ pc ∈ (kernelRun0 c i arg2 harg2 arg3 harg3 arg4 harg4 arg5 harg5 arg6 harg6 arg7 harg7 arg8 harg8 arg9 harg9 arg10 harg10 arg11 harg11 x0 x1 x2 x3 x4 x5 x6).2.2.1, y ∈ pc.1.set :=
  View.cover_of_tiledL (kernelRun0 c i arg2 harg2 arg3 harg3 arg4 harg4 arg5 harg5 arg6 harg6 arg7 harg7 arg8 harg8 arg9 harg9 arg10 harg10 arg11 harg11 x0 x1 x2 x3 x4 x5 x6).2.2.1 S1x1x4x512.size (by sl_kernel_rfl) y

/-- What the body leaves in output 9's staging buffer: its stored pieces read back. -/
def out0_9 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) : Vec F S1x16x4x512 .f32 :=
  VO0_9.read (Elt F) (VO0_9.writes (Elt F) VO0_9.junk (kernelRun0 c i arg2 harg2 arg3 harg3 arg4 harg4 arg5 harg5 arg6 harg6 arg7 harg7 arg8 harg8 arg9 harg9 arg10 harg10 arg11 harg11 x0 x1 x2 x3 x4 x5 x6).2.2.1)

/-! ## The pipeline's proof data -/

/-- The proof data of the projection pipeline on core `c`: the arrays as the region finds them; after the body at point
    `t` each input's buffer at its block and each output's at what the body's stores leave of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t)
    | ⟨8, _⟩ => out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t)
    | ⟨9, _⟩ => out0_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's run applies; each output's buffer ends
    at its stored pieces read back, which cover it; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  unfold out0_7 out0_8 out0_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0 c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_7 c _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_8 c _ _ _ _ _ _ _ _ _ _ _ _ _ _ _ _ _ _ _ _ _ _ _ _ _ _ _ _)
  unfold owns; iexists _; isplitr
  swap; · iexact H9
  ipureintro; exact View.read_writes_of_cover _ _ _ _ _ (cover0_9 c _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.K.R1Runs.lean ====
/- Region 1 (the second kernel call, a pipeline over a 4 x 4 x 16 grid with a [512,1024] accumulator carried from
   point to point along the last axis): what the per-case runs of its body are stated over. The windows' blocks read
   off the region-entry contents, the inputs' staging buffers holding those blocks, the two branch conditions in closed
   form over the grid, where the output window is idle, the staging and scratch memrefs, and the region invariant with
   the accumulator split out. -/
import proofs.«117134_j33835752358170_2_alg».proof.Proof.Gen.Kernel.Launch
import proofs.«117134_j33835752358170_2_alg».proof.Proof.Gen.Kernel.Skeleton
import proofs.«117134_j33835752358170_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- rectangles of large extents (membership is checked coordinate by coordinate along the long axes)
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the block the buffer still holds is this point's; the window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, so the block the buffer still holds is this point's; the window is uncut
    and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, so the block the buffer still holds is this point's; the window is uncut
    and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, so the block the buffer still holds is this point's; the window is uncut
    and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, so the block the buffer still holds is this point's; the window is uncut
    and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (it zeroes the accumulator), from the grid coordinates: the last
    coordinate is 0. -/
abbrev cond1_0 (i : grid1.Coords) : Prop := (Scalar.cmpi .ne (Scalar.extui (Scalar.cmpi .eq (BitVec.ofNat 32 (i 2).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second conditional (it stores the output block), from the grid coordinates: the last
    coordinate is 15. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A (first conditional taken, second not) output 5 is idle: the case stores nothing into it. -/
theorem idleAt1_5_A : ∀ t : Fin cfg1.N, cond1_0 (grid1.coords t) → ¬cond1_1 (grid1.coords t) → cfg1.idle 5 (grid1.coords t) = true := by decide +kernel
/-- At the points of case A output 5's block is not written back. -/
theorem noFlush1_5_A : ∀ t : Fin cfg1.N, cond1_0 (grid1.coords t) → ¬cond1_1 (grid1.coords t) → (cfg1.win 5).flush t = false := by decide +kernel
/-- At the points of case B (neither conditional taken) output 5 is idle: the case stores nothing into it. -/
theorem idleAt1_5_B : ∀ t : Fin cfg1.N, ¬cond1_0 (grid1.coords t) → ¬cond1_1 (grid1.coords t) → cfg1.idle 5 (grid1.coords t) = true := by decide +kernel
/-- At the points of case B output 5's block is not written back. -/
theorem noFlush1_5_B : ∀ t : Fin cfg1.N, ¬cond1_0 (grid1.coords t) → ¬cond1_1 (grid1.coords t) → (cfg1.win 5).flush t = false := by decide +kernel
/-- At the points of case C (second conditional taken, first not) output 5 is live: the case stores into it. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of output window 5, through which its contents are stated (a read of covering writes does not
    depend on the view). -/
abbrev VO1_5 : View sig .tc .vmem S1x512x1024 .f32 := (Memref.whole cc1_stg5_0 : Memref sig .tc .vmem S1x512x1024 .f32).view
/-- Each window's current staging memref at point `t`, as the pipeline passes it to the body, and its wholeness. -/
abbrev ms1_0 (t : Fin cfg1.N) : Memref sig .tc .vmem S1x1x4x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x4x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x4x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S512x1024 .f32 := Memref.whole cc1_scratch0
/-- The accumulator the kernel carries between points, as a view: what it holds is stated through it. -/
abbrev VS1_0 : View sig .tc .vmem S512x1024 .f32 := scM1_0.view

/-! ## The region invariant with the accumulator split out -/

/-- The core's scoped buffers that are neither a staging buffer of this region nor its accumulator (the other
    region's staging buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f))

/-- The class's region invariant is: those other scoped buffers, the accumulator owned as a memref at some contents,
    and the generator register at some state. -/
theorem PhiA1_eq (c : Dev nD) :
    (Pipeline.ΦA spec1 c : sProp 𝕄)
      = iprop(iprop(rest1 (F := F) c ∗ (∃ d, owns (c : Thread nD τ) scM1_0 fullShare d)) ∗ (∃ r, prngReg c r)) := by
  unfold Pipeline.ΦA rest1; rw [scopedRest1_eq]; simp only [scM1_0, owns_whole]
  congr 1
  refine BI.equiv_iff.mp ⟨?_, ?_⟩
  · show (_ : sProp 𝕄) ⊢ _
    iintro ⟨H0, H1, H2, H3, H4, H5, H6, H7, H8, H9, H10, H11, H12, H13, HS⟩
    isplitr [HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact HS
  · show (_ : sProp 𝕄) ⊢ _
    iintro ⟨⟨H0, H1, H2, H3, H4, H5, H6, H7, H8, H9, H10, H11, H12, H13⟩, HS⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HS

end Cert.Kernel.Fr

end
-- ==== Proof.K.R1RunA.lean ====
/- Region 1's body run in case A of its two conditionals on the last grid coordinate. -/
import proofs.«117134_j33835752358170_2_alg».proof.Proof.K.R1Runs

-- rectangles of large extents (membership is checked coordinate by coordinate along the long axes)
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in the output's staging memref and in the accumulator, as pieces (last store first),
    in case A (the last grid coordinate is 0: the accumulator is zeroed first; the output block is not stored), with the proof that on whole memrefs — the five inputs' at their contents `x0`…`x4`, the output's at contents `xi5` (handed back untouched: the case stores nothing into it), the accumulator
    at anything (the case overwrites it before reading it) — the body runs to the continuation holding the inputs' as they were, the output's as it was and the
    accumulator with its pieces written. -/
noncomputable def kernelRun1_A (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) :
    Σ' (L5 : List (View.Piece (Elt F) S1x512x1024 .f32)), { LS0 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.K.R1RunB.lean ====
/- Region 1's body run in case B of its two conditionals on the last grid coordinate. -/
import proofs.«117134_j33835752358170_2_alg».proof.Proof.K.R1RunA

-- rectangles of large extents (membership is checked coordinate by coordinate along the long axes)
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in the output's staging memref and in the accumulator, as pieces (last store first),
    in case B (the last grid coordinate is neither 0 nor 15: the accumulator is only added to; the output block is not stored), with the proof that on whole memrefs — the five inputs' at their contents `x0`…`x4`, the output's at contents `xi5` (handed back untouched: the case stores nothing into it), the accumulator
    at the contents `xs0` the point before left — the body runs to the continuation holding the inputs' as they were, the output's as it was and the
    accumulator with its pieces written. -/
noncomputable def kernelRun1_B (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) :
    Σ' (L5 : List (View.Piece (Elt F) S1x512x1024 .f32)), { LS0 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.K.R1RunC.lean ====
/- Region 1's body run in case C of its two conditionals on the last grid coordinate. -/
import proofs.«117134_j33835752358170_2_alg».proof.Proof.K.R1RunB

-- rectangles of large extents (membership is checked coordinate by coordinate along the long axes)
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in the output's staging memref and in the accumulator, as pieces (last store first),
    in case C (the last grid coordinate is 15: the accumulator is added to, then the output block is stored from it), with the proof that on whole memrefs — the five inputs' at their contents `x0`…`x4`, the output's at anything, the accumulator
    at the contents `xs0` the point before left — the body runs to the continuation holding the inputs' as they were, the output's buffer with its pieces written and the
    accumulator with its pieces written. -/
noncomputable def kernelRun1_C (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) :
    Σ' (L5 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Fr

end
-- ==== Proof.K.Region1.lean ====
/- Region 1 (the second kernel call): what the output's staging buffer and the carried accumulator hold after each
   grid point, the region's proof data over the region-entry contents `V`, and the body obligation at every point.
   The 256 points fall into three cases by the last grid coordinate k (0: the accumulator is zeroed, then added to;
   1..14: added to; 15: added to, then the output block is stored from it); the invariant between points is the other
   scoped buffers at anything, the accumulator at what the point before left, and the generator register at some state. -/
import proofs.«117134_j33835752358170_2_alg».proof.Proof.K.R1RunC

-- rectangles of large extents (membership is checked coordinate by coordinate along the long axes)
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Case A stores nothing into output 5 (the window is idle at its points and not written back there): no
    pieces — a placeholder (junk read back) that nothing consults, since at these points the window is neither written
    back nor read at the next point. -/
def out1_A_5 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) : Vec F S1x512x1024 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's pieces for the accumulator cover it: two stores of the whole [512,1024] buffer. -/
theorem scover1_A_0 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) (y : S512x1024.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S512x1024.size (by sl_kernel_rfl) y

/-- What case A leaves in the accumulator: its pieces read back over junk. -/
def sout1_A_0 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) : Vec F S512x1024 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- Case B stores nothing into output 5 (the window is idle at its points and not written back there): no
    pieces — a placeholder (junk read back) that nothing consults, since at these points the window is neither written
    back nor read at the next point. -/
def out1_B_5 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) : Vec F S1x512x1024 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's pieces for the accumulator cover it: one store of the whole [512,1024] buffer. -/
theorem scover1_B_0 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) (y : S512x1024.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S512x1024.size (by sl_kernel_rfl) y

/-- What case B leaves in the accumulator: its pieces read back over junk. -/
def sout1_B_0 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) : Vec F S512x1024 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's pieces for output 5 tile its block (one store of the whole [1,512,1024] block), so they cover it. -/
theorem cover1_C_5 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) (y : S1x512x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x512x1024.size (by sl_kernel_rfl) y

/-- What case C leaves in output 5's staging buffer: its pieces read back over junk. -/
def out1_C_5 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) : Vec F S1x512x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's pieces for the accumulator cover it: one store of the whole [512,1024] buffer. -/
theorem scover1_C_0 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) (y : S512x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S512x1024.size (by sl_kernel_rfl) y

/-- What case C leaves in the accumulator: its pieces read back over junk. -/
def sout1_C_0 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) : Vec F S512x1024 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output and the accumulator hold after each point -/

/-- THE ACCUMULATION. What the output's staging buffer and the accumulator hold after the body at position `n` (a pair:
    the output, then the accumulator): the case the closed forms select at `n`, run at the point's memrefs and input
    blocks, the accumulator entering at what this leaves at `n - 1`. The two conditions never hold together (0 ≠ 15 mod 16). -/
def outsAt1 (c : Dev nD) : (n : ℕ) → n < cfg1.N → Vec F S1x512x1024 .f32 × Vec F S512x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 16 = 0) (h1 : ¬t.val % 16 = 15) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging
    buffer of the region at anything, the generator register at some state); afterwards the same with the accumulator at
    what the point before left in it. -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(rest1 (F := F) c ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(rest1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of region 1's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; so that
    case's run applies. The invariant hands the body the accumulator at what the point before left (at anything at the
    first point) beside the other scoped buffers and the generator register, and takes the accumulator back at this
    point's contents (its pieces cover it); where the output window is idle its buffer goes back as it came; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point is the class's region invariant, as an equation. -/
theorem Phi1_zero_eq (c : Dev nD) : (dat1 V c).Φ 0 = Pipeline.ΦA spec1 c := by
  rw [show (dat1 V c).Φ 0 = PhiS1 V c 0 (Nat.zero_le _) from rfl, PhiS1_zero V c 0 _ rfl]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

/-- info: 'Cert.Kernel.Fr.body_obligation1' depends on axioms: [propext, Classical.choice, Quot.sound] -/
#guard_msgs in #print axioms body_obligation1

end Cert.Kernel.Fr

end
-- ==== Proof.K.Run.lean ====
import proofs.«117134_j33835752358170_2_alg».proof.Proof.K.Region0
import proofs.«117134_j33835752358170_2_alg».proof.Proof.K.Region1
import proofs.«117134_j33835752358170_2_alg».proof.Proof.Gen.Kernel.Regions
import Idealize.ShloMosaic.Lib.Pipeline.RegionsLoop

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Gen (adm)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's four items from the launch to the return

## The buffer contents at each item boundary, a fold through @main -/

/-- Core `c`'s buffers at launch. -/
abbrev B0 : Dev nD → Valuation τ sig (Elt F) := fun c b => m (c, b)
/-- After the first host stretch (the weight and bias slices, transposed): the projection call's entry. -/
abbrev B1 : Dev nD → Valuation τ sig (Elt F) := fun c => StableHlo.after hostOps0 (B0 m c)
/-- The same read at the TensorCore's references. -/
abbrev E1 : (c : Dev nD) → (b : Ref sig .tc) → Buf (Elt F) ((c : Thread nD τ).loc b) := fun c b => B1 m c b
/-- At the projection call's exit: its arrays at what the pipeline leaves (the inputs as entered, each output's
    write-backs folded), every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second host stretch (the output weights transposed and split by head): the attention call's entry. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At the attention call's exit. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-! ### The arguments end as launched -/

/-- `main_arg0` reaches the end as launched: no host operation writes it, and a region reads it through an input window or not at all. -/
theorem B4_main_arg0 (c : Dev nD) : B4 m c (Proc.devRef .tc main_arg0) = m ((c : Thread nD τ).loc main_arg0) :=
  calc B4 m c (Proc.devRef .tc main_arg0)
    _ = B3 m c (Proc.devRef .tc main_arg0) := B4_of_ne m c main_arg0 (by decide)
    _ = B2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m c (Proc.devRef .tc main_arg0) := (B2_arr m c 0).trans (((dat0 (E1 m) c).arrAt_in 0 rfl _).trans (A_eq0 (E1 m) c 0))
    _ = B0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it, and a region reads it through an input window or not at all. -/
theorem B4_main_arg1 (c : Dev nD) : B4 m c (Proc.devRef .tc main_arg1) = m ((c : Thread nD τ).loc main_arg1) :=
  calc B4 m c (Proc.devRef .tc main_arg1)
    _ = B3 m c (Proc.devRef .tc main_arg1) := B4_of_ne m c main_arg1 (by decide)
    _ = B2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m c (Proc.devRef .tc main_arg1) := B2_of_ne m c main_arg1 (by decide)
    _ = B0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it, and a region reads it through an input window or not at all. -/
theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m c (Proc.devRef .tc main_arg2) := B2_of_ne m c main_arg2 (by decide)
    _ = B0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it, and a region reads it through an input window or not at all. -/
theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m c (Proc.devRef .tc main_arg3) := B2_of_ne m c main_arg3 (by decide)
    _ = B0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` reaches the end as launched: no host operation writes it, and a region reads it through an input window or not at all. -/
theorem B4_main_arg4 (c : Dev nD) : B4 m c (Proc.devRef .tc main_arg4) = m ((c : Thread nD τ).loc main_arg4) :=
  calc B4 m c (Proc.devRef .tc main_arg4)
    _ = B3 m c (Proc.devRef .tc main_arg4) := (B4_arr m c 4).trans (((dat1 (E3 m) c).arrAt_in 4 rfl _).trans (A_eq1 (E3 m) c 4))
    _ = B2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m c (Proc.devRef .tc main_arg4) := B2_of_ne m c main_arg4 (by decide)
    _ = B0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- Every pipeline's proof data, each at its region's entry contents — a literal `match`. -/
def pd : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as an item over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (B4 m c) ∗ ∃ r, prngReg c r)

/-! ## The regions as items -/

-- `iapply` of a library lemma stated over the pinned configuration unifies only when unification may unfold plain
-- definitions in a metavariable's type
set_option backward.isDefEq.respectTransparency.types false in
/-- Pipeline 0 over the thread state: entered from every unscoped buffer at the boundary contents before it, left at
    those after it. Its arrays are split out of the unscoped buffers and put back at the exit contents; the generator
    register goes into the pipeline's invariant and comes back; nothing is owed; the kernel has no semaphore of its own. -/
def reg0 : Pipeline.RegionSeg (pcfgs (F := F)) adm (pd m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pd m) launch0.win launch0.arr_whole c
      ((pd m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (E1 m c) (E2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Pipeline 1 over the thread state: entered from every unscoped buffer at the boundary contents before it, left at
    those after it. Its arrays are split out of the unscoped buffers and put back at the exit contents; the generator
    register goes into the pipeline's invariant and comes back; nothing is owed; the kernel has no semaphore of its own. -/
def reg1 : Pipeline.RegionSeg (pcfgs (F := F)) adm (pd m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pd m) launch1.win launch1.arr_whole c
      ((pd m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from Phi1_zero_eq (E3 m) c]; unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (E3 m c) (E4 m c) ((pd m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's four items in order: a host item per stretch from its boundary's contents, a region per call. -/
abbrev items : List (Pipeline.Seg (pcfgs (F := F)) adm (pd m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
/-- @main is the run of the items. -/
theorem main_run (c : Dev nD) : main (F := F) c = Pipeline.Seg.run (items m) := (main_chain c).trans (by chain_rfl)

-- the kit's implicit arguments are found by unifying its conclusion with this one, which takes unfolding plain
-- definitions in a metavariable's type
set_option backward.isDefEq.respectTransparency.types false in
/-- From any memory with zero counters every weakly fair execution of @main on the TensorCores terminates, nothing
    faulting, and every final state holds each unscoped buffer at the last boundary's contents `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pd m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c)⟩) (run_all m ρ)

/-- The run with the result named: the result buffer ends at what the attention pipeline's write-backs leave in its
    output array, and the arguments end as launched. -/
theorem run_named : θ_run defs (onTc (τ := τ) (main (F := F))) ⟨m, fun _ => 0, ρ⟩ (fun r => ∀ c : Dev nD,
      r.2.mem ((c.tc : Thread nD τ).loc main_v16) = (dat1 (E3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v16 (by decide))).trans (B4_arr m c 5),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c)⟩) (run_all m ρ)

end Cert.Kernel.Fr

end
-- ==== Proof.KI.R0Run.lean ====
import proofs.«117134_j33835752358170_2_alg».proof.Proof.Gen.KernelIdeal.Launch
import proofs.«117134_j33835752358170_2_alg».proof.Proof.Gen.KernelIdeal.Skeleton
import proofs.«117134_j33835752358170_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The projection kernel's body on whole staging memrefs: the seven inputs at given contents (the row block of x,
    the three transposed weight blocks, the three bias blocks), the three outputs at anything. It runs to the
    continuation with the inputs as they were and each output's buffer holding its sixteen stores — one `[1,1,4,512]`
    slab per head, at offset `[0, h, 0, 0]` — written over what it held; the three lists of stored pieces (last store
    first) are found by the run itself. -/
noncomputable def kernelRun0 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) :
    Σ' (L7 : List (View.Piece (Elt F) S1x16x4x512 .f32)) (L8 : List (View.Piece (Elt F) S1x16x4x512 .f32)), { L9 : List (View.Piece (Elt F) S1x16x4x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__qkv_proj_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__qkv_proj_kernel_eq_skeleton]; unfold cc0__qkv_proj_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

end Cert.KernelIdeal.Fr

end
-- ==== Proof.KI.Region0.lean ====
import proofs.«117134_j33835752358170_2_alg».proof.Proof.KI.R0Run
import Idealize.ShloMosaic.Lib.Pipeline.RegionsLoop

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the TensorCore's buffer contents when the region is entered: the parameter this region's half is stated at
variable (V : (c : Dev nD) → (b : Ref sig .tc) → Buf (Elt F) ((c : Thread nD τ).loc b))

/-! # The projection call (pipeline 0), at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    window's block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    window's block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    window's block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    window's block index has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    window's block index has not moved), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    window's block index has not moved), for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs at a point -/

/-- One staging buffer of each output window, through which its contents are stated (the choice does not matter). -/
abbrev VO0_7 : View sig .tc .vmem S1x16x4x512 .f32 := (Memref.whole cc0_stg7_0 : Memref sig .tc .vmem S1x16x4x512 .f32).view
abbrev VO0_8 : View sig .tc .vmem S1x16x4x512 .f32 := (Memref.whole cc0_stg8_0 : Memref sig .tc .vmem S1x16x4x512 .f32).view
abbrev VO0_9 : View sig .tc .vmem S1x16x4x512 .f32 := (Memref.whole cc0_stg9_0 : Memref sig .tc .vmem S1x16x4x512 .f32).view
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev ms0_8 (t : Fin cfg0.N) := win0_8.stage (cfg0.slots t 8)
abbrev hs0_8 (t : Fin cfg0.N) : (ms0_8 t).IsWhole := hstage0_8 ((cfg0.slots t 8).cast nbuf0_8)
abbrev ms0_9 (t : Fin cfg0.N) := win0_9.stage (cfg0.slots t 9)
abbrev hs0_9 (t : Fin cfg0.N) : (ms0_9 t).IsWhole := hstage0_9 ((cfg0.slots t 9).cast nbuf0_9)

/-! ## What the body leaves in each output window's buffer -/

/-- The body's sixteen stores into output 7 tile its `[1,16,4,512]` block (one `[1,1,4,512]` slab per head), so they cover it. -/
theorem cover0_7 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) (y : S1x16x4x512.Idx) :
    ∃ pc ∈ (kernelRun0 c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun0 c i arg2 harg2 arg3 harg3 arg4 harg4 arg5 harg5 arg6 harg6 arg7 harg7 arg8 harg8 arg9 harg9 arg10 harg10 arg11 harg11 x0 x1 x2 x3 x4 x5 x6).1 S1x1x4x512.size (by sl_kernel_rfl) y

/-- What the body leaves in output 7's staging buffer: its stored pieces read back. -/
def out0_7 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) : Vec F S1x16x4x512 .f32 :=
  VO0_7.read (Elt F) (VO0_7.writes (Elt F) VO0_7.junk (kernelRun0 c i arg2 harg2 arg3 harg3 arg4 harg4 arg5 harg5 arg6 harg6 arg7 harg7 arg8 harg8 arg9 harg9 arg10 harg10 arg11 harg11 x0 x1 x2 x3 x4 x5 x6).1)

/-- The body's sixteen stores into output 8 tile its `[1,16,4,512]` block (one `[1,1,4,512]` slab per head), so they cover it. -/
theorem cover0_8 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) (y : S1x16x4x512.Idx) :
    ∃ pc ∈ (kernelRun0 c i arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledL (kernelRun0 c i arg2 harg2 arg3 harg3 arg4 harg4 arg5 harg5 arg6 harg6 arg7 harg7 arg8 harg8 arg9 harg9 arg10 harg10 arg11 harg11 x0 x1 x2 x3 x4 x5 x6).2.1 S1x1x4x512.size (by sl_kernel_rfl) y

/-- What the body leaves in output 8's staging buffer: its stored pieces read back. -/
def out0_8 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) : Vec F S1x16x4x512 .f32 :=
  VO0_8.read (Elt F) (VO0_8.writes (Elt F) VO0_8.junk (kernelRun0 c i arg2 harg2 arg3 harg3 arg4 harg4 arg5 harg5 arg6 harg6 arg7 harg7 arg8 harg8 arg9 harg9 arg10 harg10 arg11 harg11 x0 x1 x2 x3 x4 x5 x6).2.1)

/-- The body's sixteen stores into output 9 tile its `[1,16,4,512]` block (one `[1,1,4,512]` slab per head), so they cover it. -/
theorem cover0_9 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) (y : S1x16x4x512.Idx) :
    ∃ pc ∈ (kernelRun0 c i arg2 harg2 arg3 harg3 arg4 harg4 arg5 harg5 arg6 harg6 arg7 harg7 arg8 harg8 arg9 harg9 arg10 harg10 arg11 harg11 x0 x1 x2 x3 x4 x5 x6).2.2.1, y ∈ pc.1.set :=
  View.cover_of_tiledL (kernelRun0 c i arg2 harg2 arg3 harg3 arg4 harg4 arg5 harg5 arg6 harg6 arg7 harg7 arg8 harg8 arg9 harg9 arg10 harg10 arg11 harg11 x0 x1 x2 x3 x4 x5 x6).2.2.1 S1x1x4x512.size (by sl_kernel_rfl) y

/-- What the body leaves in output 9's staging buffer: its stored pieces read back. -/
def out0_9 (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec F S1x512x1024 .f32) (x1 : Vec F S1024x64 .bf16) (x2 : Vec F S1024x64 .bf16) (x3 : Vec F S1024x64 .bf16) (x4 : Vec F S64 .f32) (x5 : Vec F S64 .f32) (x6 : Vec F S64 .f32) : Vec F S1x16x4x512 .f32 :=
  VO0_9.read (Elt F) (VO0_9.writes (Elt F) VO0_9.junk (kernelRun0 c i arg2 harg2 arg3 harg3 arg4 harg4 arg5 harg5 arg6 harg6 arg7 harg7 arg8 harg8 arg9 harg9 arg10 harg10 arg11 harg11 x0 x1 x2 x3 x4 x5 x6).2.2.1)

/-! ## The pipeline's proof data -/

/-- The proof data of the projection pipeline on core `c`: the arrays as the region finds them; after the body at point
    `t` each input's buffer at its block and each output's at what the body's stores leave of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t)
    | ⟨8, _⟩ => out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t)
    | ⟨9, _⟩ => out0_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's run applies; each output's buffer ends
    at its stored pieces read back, which cover it; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  unfold out0_7 out0_8 out0_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0 c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_7 c _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_8 c _ _ _ _ _ _ _ _ _ _ _ _ _ _ _ _ _ _ _ _ _ _ _ _ _ _ _ _)
  unfold owns; iexists _; isplitr
  swap; · iexact H9
  ipureintro; exact View.read_writes_of_cover _ _ _ _ _ (cover0_9 c _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.R1Runs.lean ====
/- Region 1 (the second kernel call, a pipeline over a 4 x 4 x 16 grid with a [512,1024] accumulator carried from
   point to point along the last axis): what the per-case runs of its body are stated over. The windows' blocks read
   off the region-entry contents, the inputs' staging buffers holding those blocks, the two branch conditions in closed
   form over the grid, where the output window is idle, the staging and scratch memrefs, and the region invariant with
   the accumulator split out. -/
import proofs.«117134_j33835752358170_2_alg».proof.Proof.Gen.KernelIdeal.Launch
import proofs.«117134_j33835752358170_2_alg».proof.Proof.Gen.KernelIdeal.Skeleton
import proofs.«117134_j33835752358170_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- rectangles of large extents (membership is checked coordinate by coordinate along the long axes)
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the block the buffer still holds is this point's; the window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, so the block the buffer still holds is this point's; the window is uncut
    and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, so the block the buffer still holds is this point's; the window is uncut
    and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, so the block the buffer still holds is this point's; the window is uncut
    and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, so the block the buffer still holds is this point's; the window is uncut
    and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (it zeroes the accumulator), from the grid coordinates: the last
    coordinate is 0. -/
abbrev cond1_0 (i : grid1.Coords) : Prop := (Scalar.cmpi .ne (Scalar.extui (Scalar.cmpi .eq (BitVec.ofNat 32 (i 2).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second conditional (it stores the output block), from the grid coordinates: the last
    coordinate is 15. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A (first conditional taken, second not) output 5 is idle: the case stores nothing into it. -/
theorem idleAt1_5_A : ∀ t : Fin cfg1.N, cond1_0 (grid1.coords t) → ¬cond1_1 (grid1.coords t) → cfg1.idle 5 (grid1.coords t) = true := by decide +kernel
/-- At the points of case A output 5's block is not written back. -/
theorem noFlush1_5_A : ∀ t : Fin cfg1.N, cond1_0 (grid1.coords t) → ¬cond1_1 (grid1.coords t) → (cfg1.win 5).flush t = false := by decide +kernel
/-- At the points of case B (neither conditional taken) output 5 is idle: the case stores nothing into it. -/
theorem idleAt1_5_B : ∀ t : Fin cfg1.N, ¬cond1_0 (grid1.coords t) → ¬cond1_1 (grid1.coords t) → cfg1.idle 5 (grid1.coords t) = true := by decide +kernel
/-- At the points of case B output 5's block is not written back. -/
theorem noFlush1_5_B : ∀ t : Fin cfg1.N, ¬cond1_0 (grid1.coords t) → ¬cond1_1 (grid1.coords t) → (cfg1.win 5).flush t = false := by decide +kernel
/-- At the points of case C (second conditional taken, first not) output 5 is live: the case stores into it. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of output window 5, through which its contents are stated (a read of covering writes does not
    depend on the view). -/
abbrev VO1_5 : View sig .tc .vmem S1x512x1024 .f32 := (Memref.whole cc1_stg5_0 : Memref sig .tc .vmem S1x512x1024 .f32).view
/-- Each window's current staging memref at point `t`, as the pipeline passes it to the body, and its wholeness. -/
abbrev ms1_0 (t : Fin cfg1.N) : Memref sig .tc .vmem S1x1x4x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x4x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x4x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S512x1024 .f32 := Memref.whole cc1_scratch0
/-- The accumulator the kernel carries between points, as a view: what it holds is stated through it. -/
abbrev VS1_0 : View sig .tc .vmem S512x1024 .f32 := scM1_0.view

/-! ## The region invariant with the accumulator split out -/

/-- The core's scoped buffers that are neither a staging buffer of this region nor its accumulator (the other
    region's staging buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f))

/-- The class's region invariant is: those other scoped buffers, the accumulator owned as a memref at some contents,
    and the generator register at some state. -/
theorem PhiA1_eq (c : Dev nD) :
    (Pipeline.ΦA spec1 c : sProp 𝕄)
      = iprop(iprop(rest1 (F := F) c ∗ (∃ d, owns (c : Thread nD τ) scM1_0 fullShare d)) ∗ (∃ r, prngReg c r)) := by
  unfold Pipeline.ΦA rest1; rw [scopedRest1_eq]; simp only [scM1_0, owns_whole]
  congr 1
  refine BI.equiv_iff.mp ⟨?_, ?_⟩
  · show (_ : sProp 𝕄) ⊢ _
    iintro ⟨H0, H1, H2, H3, H4, H5, H6, H7, H8, H9, H10, H11, H12, H13, HS⟩
    isplitr [HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact HS
  · show (_ : sProp 𝕄) ⊢ _
    iintro ⟨⟨H0, H1, H2, H3, H4, H5, H6, H7, H8, H9, H10, H11, H12, H13⟩, HS⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HS

end Cert.KernelIdeal.Fr

end
-- ==== Proof.KI.R1RunA.lean ====
/- Region 1's body run in case A of its two conditionals on the last grid coordinate. -/
import proofs.«117134_j33835752358170_2_alg».proof.Proof.KI.R1Runs

-- rectangles of large extents (membership is checked coordinate by coordinate along the long axes)
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in the output's staging memref and in the accumulator, as pieces (last store first),
    in case A (the last grid coordinate is 0: the accumulator is zeroed first; the output block is not stored), with the proof that on whole memrefs — the five inputs' at their contents `x0`…`x4`, the output's at contents `xi5` (handed back untouched: the case stores nothing into it), the accumulator
    at anything (the case overwrites it before reading it) — the body runs to the continuation holding the inputs' as they were, the output's as it was and the
    accumulator with its pieces written. -/
noncomputable def kernelRun1_A (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) :
    Σ' (L5 : List (View.Piece (Elt F) S1x512x1024 .f32)), { LS0 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.R1RunB.lean ====
/- Region 1's body run in case B of its two conditionals on the last grid coordinate. -/
import proofs.«117134_j33835752358170_2_alg».proof.Proof.KI.R1RunA

-- rectangles of large extents (membership is checked coordinate by coordinate along the long axes)
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in the output's staging memref and in the accumulator, as pieces (last store first),
    in case B (the last grid coordinate is neither 0 nor 15: the accumulator is only added to; the output block is not stored), with the proof that on whole memrefs — the five inputs' at their contents `x0`…`x4`, the output's at contents `xi5` (handed back untouched: the case stores nothing into it), the accumulator
    at the contents `xs0` the point before left — the body runs to the continuation holding the inputs' as they were, the output's as it was and the
    accumulator with its pieces written. -/
noncomputable def kernelRun1_B (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) :
    Σ' (L5 : List (View.Piece (Elt F) S1x512x1024 .f32)), { LS0 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.R1RunC.lean ====
/- Region 1's body run in case C of its two conditionals on the last grid coordinate. -/
import proofs.«117134_j33835752358170_2_alg».proof.Proof.KI.R1RunB

-- rectangles of large extents (membership is checked coordinate by coordinate along the long axes)
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in the output's staging memref and in the accumulator, as pieces (last store first),
    in case C (the last grid coordinate is 15: the accumulator is added to, then the output block is stored from it), with the proof that on whole memrefs — the five inputs' at their contents `x0`…`x4`, the output's at anything, the accumulator
    at the contents `xs0` the point before left — the body runs to the continuation holding the inputs' as they were, the output's buffer with its pieces written and the
    accumulator with its pieces written. -/
noncomputable def kernelRun1_C (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) :
    Σ' (L5 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Fr

end
-- ==== Proof.KI.Region1.lean ====
/- Region 1 (the second kernel call): what the output's staging buffer and the carried accumulator hold after each
   grid point, the region's proof data over the region-entry contents `V`, and the body obligation at every point.
   The 256 points fall into three cases by the last grid coordinate k (0: the accumulator is zeroed, then added to;
   1..14: added to; 15: added to, then the output block is stored from it); the invariant between points is the other
   scoped buffers at anything, the accumulator at what the point before left, and the generator register at some state. -/
import proofs.«117134_j33835752358170_2_alg».proof.Proof.KI.R1RunC

-- rectangles of large extents (membership is checked coordinate by coordinate along the long axes)
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Case A stores nothing into output 5 (the window is idle at its points and not written back there): no
    pieces — a placeholder (junk read back) that nothing consults, since at these points the window is neither written
    back nor read at the next point. -/
def out1_A_5 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) : Vec F S1x512x1024 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's pieces for the accumulator cover it: two stores of the whole [512,1024] buffer. -/
theorem scover1_A_0 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) (y : S512x1024.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S512x1024.size (by sl_kernel_rfl) y

/-- What case A leaves in the accumulator: its pieces read back over junk. -/
def sout1_A_0 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) : Vec F S512x1024 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- Case B stores nothing into output 5 (the window is idle at its points and not written back there): no
    pieces — a placeholder (junk read back) that nothing consults, since at these points the window is neither written
    back nor read at the next point. -/
def out1_B_5 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) : Vec F S1x512x1024 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's pieces for the accumulator cover it: one store of the whole [512,1024] buffer. -/
theorem scover1_B_0 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) (y : S512x1024.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S512x1024.size (by sl_kernel_rfl) y

/-- What case B leaves in the accumulator: its pieces read back over junk. -/
def sout1_B_0 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) : Vec F S512x1024 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's pieces for output 5 tile its block (one store of the whole [1,512,1024] block), so they cover it. -/
theorem cover1_C_5 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) (y : S1x512x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x512x1024.size (by sl_kernel_rfl) y

/-- What case C leaves in output 5's staging buffer: its pieces read back over junk. -/
def out1_C_5 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) : Vec F S1x512x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's pieces for the accumulator cover it: one store of the whole [512,1024] buffer. -/
theorem scover1_C_0 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) (y : S512x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S512x1024.size (by sl_kernel_rfl) y

/-- What case C leaves in the accumulator: its pieces read back over junk. -/
def sout1_C_0 (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) : Vec F S512x1024 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output and the accumulator hold after each point -/

/-- THE ACCUMULATION. What the output's staging buffer and the accumulator hold after the body at position `n` (a pair:
    the output, then the accumulator): the case the closed forms select at `n`, run at the point's memrefs and input
    blocks, the accumulator entering at what this leaves at `n - 1`. The two conditions never hold together (0 ≠ 15 mod 16). -/
def outsAt1 (c : Dev nD) : (n : ℕ) → n < cfg1.N → Vec F S1x512x1024 .f32 × Vec F S512x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 16 = 0) (h1 : ¬t.val % 16 = 15) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging
    buffer of the region at anything, the generator register at some state); afterwards the same with the accumulator at
    what the point before left in it. -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(rest1 (F := F) c ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(rest1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of region 1's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; so that
    case's run applies. The invariant hands the body the accumulator at what the point before left (at anything at the
    first point) beside the other scoped buffers and the generator register, and takes the accumulator back at this
    point's contents (its pieces cover it); where the output window is idle its buffer goes back as it came; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point is the class's region invariant, as an equation. -/
theorem Phi1_zero_eq (c : Dev nD) : (dat1 V c).Φ 0 = Pipeline.ΦA spec1 c := by
  rw [show (dat1 V c).Φ 0 = PhiS1 V c 0 (Nat.zero_le _) from rfl, PhiS1_zero V c 0 _ rfl]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

/-- info: 'Cert.KernelIdeal.Fr.body_obligation1' depends on axioms: [propext, Classical.choice, Quot.sound] -/
#guard_msgs in #print axioms body_obligation1

end Cert.KernelIdeal.Fr

end
-- ==== Proof.KI.Run.lean ====
import proofs.«117134_j33835752358170_2_alg».proof.Proof.KI.Region0
import proofs.«117134_j33835752358170_2_alg».proof.Proof.KI.Region1
import proofs.«117134_j33835752358170_2_alg».proof.Proof.Gen.KernelIdeal.Regions
import Idealize.ShloMosaic.Lib.Pipeline.RegionsLoop

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Gen (adm)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's four items from the launch to the return

## The buffer contents at each item boundary, a fold through @main -/

/-- Core `c`'s buffers at launch. -/
abbrev B0 : Dev nD → Valuation τ sig (Elt F) := fun c b => m (c, b)
/-- After the first host stretch (the weight and bias slices, transposed): the projection call's entry. -/
abbrev B1 : Dev nD → Valuation τ sig (Elt F) := fun c => StableHlo.after hostOps0 (B0 m c)
/-- The same read at the TensorCore's references. -/
abbrev E1 : (c : Dev nD) → (b : Ref sig .tc) → Buf (Elt F) ((c : Thread nD τ).loc b) := fun c b => B1 m c b
/-- At the projection call's exit: its arrays at what the pipeline leaves (the inputs as entered, each output's
    write-backs folded), every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second host stretch (the output weights transposed and split by head): the attention call's entry. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At the attention call's exit. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-! ### The arguments end as launched -/

/-- `main_arg0` reaches the end as launched: no host operation writes it, and a region reads it through an input window or not at all. -/
theorem B4_main_arg0 (c : Dev nD) : B4 m c (Proc.devRef .tc main_arg0) = m ((c : Thread nD τ).loc main_arg0) :=
  calc B4 m c (Proc.devRef .tc main_arg0)
    _ = B3 m c (Proc.devRef .tc main_arg0) := B4_of_ne m c main_arg0 (by decide)
    _ = B2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m c (Proc.devRef .tc main_arg0) := (B2_arr m c 0).trans (((dat0 (E1 m) c).arrAt_in 0 rfl _).trans (A_eq0 (E1 m) c 0))
    _ = B0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it, and a region reads it through an input window or not at all. -/
theorem B4_main_arg1 (c : Dev nD) : B4 m c (Proc.devRef .tc main_arg1) = m ((c : Thread nD τ).loc main_arg1) :=
  calc B4 m c (Proc.devRef .tc main_arg1)
    _ = B3 m c (Proc.devRef .tc main_arg1) := B4_of_ne m c main_arg1 (by decide)
    _ = B2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m c (Proc.devRef .tc main_arg1) := B2_of_ne m c main_arg1 (by decide)
    _ = B0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it, and a region reads it through an input window or not at all. -/
theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_of_ne m c main_arg2 (by decide)
    _ = B2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m c (Proc.devRef .tc main_arg2) := B2_of_ne m c main_arg2 (by decide)
    _ = B0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it, and a region reads it through an input window or not at all. -/
theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m c (Proc.devRef .tc main_arg3) := B2_of_ne m c main_arg3 (by decide)
    _ = B0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` reaches the end as launched: no host operation writes it, and a region reads it through an input window or not at all. -/
theorem B4_main_arg4 (c : Dev nD) : B4 m c (Proc.devRef .tc main_arg4) = m ((c : Thread nD τ).loc main_arg4) :=
  calc B4 m c (Proc.devRef .tc main_arg4)
    _ = B3 m c (Proc.devRef .tc main_arg4) := (B4_arr m c 4).trans (((dat1 (E3 m) c).arrAt_in 4 rfl _).trans (A_eq1 (E3 m) c 4))
    _ = B2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m c (Proc.devRef .tc main_arg4) := B2_of_ne m c main_arg4 (by decide)
    _ = B0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- Every pipeline's proof data, each at its region's entry contents — a literal `match`. -/
def pd : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as an item over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (B4 m c) ∗ ∃ r, prngReg c r)

/-! ## The regions as items -/

-- `iapply` of a library lemma stated over the pinned configuration unifies only when unification may unfold plain
-- definitions in a metavariable's type
set_option backward.isDefEq.respectTransparency.types false in
/-- Pipeline 0 over the thread state: entered from every unscoped buffer at the boundary contents before it, left at
    those after it. Its arrays are split out of the unscoped buffers and put back at the exit contents; the generator
    register goes into the pipeline's invariant and comes back; nothing is owed; the kernel has no semaphore of its own. -/
def reg0 : Pipeline.RegionSeg (pcfgs (F := F)) adm (pd m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pd m) launch0.win launch0.arr_whole c
      ((pd m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (E1 m c) (E2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Pipeline 1 over the thread state: entered from every unscoped buffer at the boundary contents before it, left at
    those after it. Its arrays are split out of the unscoped buffers and put back at the exit contents; the generator
    register goes into the pipeline's invariant and comes back; nothing is owed; the kernel has no semaphore of its own. -/
def reg1 : Pipeline.RegionSeg (pcfgs (F := F)) adm (pd m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pd m) launch1.win launch1.arr_whole c
      ((pd m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from Phi1_zero_eq (E3 m) c]; unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (E3 m c) (E4 m c) ((pd m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's four items in order: a host item per stretch from its boundary's contents, a region per call. -/
abbrev items : List (Pipeline.Seg (pcfgs (F := F)) adm (pd m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
/-- @main is the run of the items. -/
theorem main_run (c : Dev nD) : main (F := F) c = Pipeline.Seg.run (items m) := (main_chain c).trans (by chain_rfl)

-- the kit's implicit arguments are found by unifying its conclusion with this one, which takes unfolding plain
-- definitions in a metavariable's type
set_option backward.isDefEq.respectTransparency.types false in
/-- From any memory with zero counters every weakly fair execution of @main on the TensorCores terminates, nothing
    faulting, and every final state holds each unscoped buffer at the last boundary's contents `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pd m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c)⟩) (run_all m ρ)

/-- The run with the result named: the result buffer ends at what the attention pipeline's write-backs leave in its
    output array, and the arguments end as launched. -/
theorem run_named : θ_run defs (onTc (τ := τ) (main (F := F))) ⟨m, fun _ => 0, ρ⟩ (fun r => ∀ c : Dev nD,
      r.2.mem ((c.tc : Thread nD τ).loc main_v16) = (dat1 (E3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v16 (by decide))).trans (B4_arr m c 5),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c)⟩) (run_all m ρ)

end Cert.KernelIdeal.Fr

end
-- ==== Proof.Spec.lean ====
/-
  Multi-head attention over x : [4, 2048, 1024] with a fused input projection w_in : [192, 1024], b_in : [192]
  (columns 0..63 the queries, 64..127 the keys, 128..191 the values; 16 heads of width 4) and an output
  projection w_out : [1024, 64], b_out : [1024], as two functions of the argument arrays over the extended reals,
  index by index:

  * `outRef`: every key's softmax weight is normalised first, `p / L`, then the weighted sum over the keys is
    taken, then the 64 head columns are contracted against w_out in ONE sum;
  * `outKer`: the unnormalised weighted sum over the keys is taken first and divided by `L` afterwards, and the
    contraction against w_out is taken head by head, four columns at a time, the sixteen partial products added up.

  Both share the scores `(Σ_d q·k) / 8` (one side divides by 8, the other multiplies by 1/8: `scoreRef`,
  `scoreKer`), the row maximum and the exponentials.
-/
import Idealize.ShloMosaic.PureOps.Ideal
import Idealize.ShloMosaic.PureOps.Ideal.Laws

noncomputable section

namespace Cert.Attn

open Idealize.ShloMosaic

/-- The argument arrays by coordinates. -/
structure Args where
  x : Fin 4 → Fin 2048 → Fin 1024 → EReal
  wIn : Fin 192 → Fin 1024 → EReal
  bIn : Fin 192 → EReal
  wOut : Fin 1024 → Fin 64 → EReal
  bOut : Fin 1024 → EReal

/-- Column `4h + d` of a block of 64 columns starting at `off` (0 the queries, 64 the keys, 128 the values). -/
def col (off : Nat) (hoff : off + 64 ≤ 192) (h : Fin 16) (d : Fin 4) : Fin 192 :=
  ⟨off + (4 * h.val + d.val), by have := h.isLt; have := d.isLt; omega⟩

/-- Column `4h + d` of the 64 head columns. -/
def hcol (h : Fin 16) (d : Fin 4) : Fin 64 := ⟨4 * h.val + d.val, by have := h.isLt; have := d.isLt; omega⟩

variable (A : Args)

/-- The fused projection: row `(b, s)` of x against row `j` of w_in, plus the bias. -/
def proj (b : Fin 4) (s : Fin 2048) (j : Fin 192) : EReal := (∑ c : Fin 1024, A.x b s c * A.wIn j c) + A.bIn j

def q (b : Fin 4) (h : Fin 16) (s : Fin 2048) (d : Fin 4) : EReal := proj A b s (col 0 (by omega) h d)
def k (b : Fin 4) (h : Fin 16) (s : Fin 2048) (d : Fin 4) : EReal := proj A b s (col 64 (by omega) h d)
def v (b : Fin 4) (h : Fin 16) (s : Fin 2048) (d : Fin 4) : EReal := proj A b s (col 128 (by omega) h d)

/-- The raw dot product of query `s` and key `l` in head `h`. -/
def qk (b : Fin 4) (h : Fin 16) (s l : Fin 2048) : EReal := ∑ d : Fin 4, q A b h s d * k A b h l d

/-- The score as the reference spells it: divided by the f32 `8.0`. -/
def scoreRef (b : Fin 4) (h : Fin 16) (s l : Fin 2048) : EReal := Ideal.div (qk A b h s l) (Ideal.ofBits .f32 0x41000000#32)
/-- The score as the kernel spells it: multiplied by the f32 `0.125`. -/
def scoreKer (b : Fin 4) (h : Fin 16) (s l : Fin 2048) : EReal := qk A b h s l * Ideal.ofBits .f32 0x3E000000#32

/-- The maximum of a row of 2048 entries, folded from `⊥`. -/
def rowMax (f : Fin 2048 → EReal) : EReal := Finset.univ.fold max ⊥ f

/-- The unnormalised softmax weights of a row of scores, and their total. -/
def wt (sc : Fin 2048 → EReal) (l : Fin 2048) : EReal := Ideal.exp (sc l - rowMax sc)
def tot (sc : Fin 2048 → EReal) : EReal := ∑ l : Fin 2048, wt sc l

/-- A head's output, normalising each weight before the sum over the keys. -/
def headRef (b : Fin 4) (h : Fin 16) (s : Fin 2048) (d : Fin 4) : EReal :=
  ∑ l : Fin 2048, Ideal.div (wt (scoreRef A b h s) l) (tot (scoreRef A b h s)) * v A b h l d
/-- A head's output, dividing the unnormalised sum over the keys by the total afterwards. -/
def headKer (b : Fin 4) (h : Fin 16) (s : Fin 2048) (d : Fin 4) : EReal :=
  Ideal.div (∑ l : Fin 2048, wt (scoreKer A b h s) l * v A b h l d) (tot (scoreKer A b h s))

/-- The result with the 64 head columns contracted in one sum. -/
def outRef (b : Fin 4) (s : Fin 2048) (n : Fin 1024) : EReal :=
  (∑ j : Fin 64, headRef A b ⟨j.val / 4, by have := j.isLt; omega⟩ s ⟨j.val % 4, Nat.mod_lt _ (by omega)⟩ * A.wOut n j) + A.bOut n
/-- The result with the contraction taken head by head. -/
def outKer (b : Fin 4) (s : Fin 2048) (n : Fin 1024) : EReal :=
  (∑ h : Fin 16, ∑ d : Fin 4, headKer A b h s d * A.wOut n (hcol h d)) + A.bOut n

end Cert.Attn

end
-- ==== Proof.Blk0.lean ====
/-
  The projection call's outputs as functions of what it reads.

  One grid point (b, si) stages a [1,512,1024] row block of x, a whole [1024,64] weight matrix (already transposed:
  entry (c, j) is row j of that third of w_in) and a whole [64] bias; it leaves in each output a [1,16,4,512] block
  whose entry (0, h, d, s) is row s of the x block against column 4h+d of the weights, plus the bias there
  (`blk`). Over the whole grid the blocks fill a [4,16,4,2048] array whose entry (b, h, d, S) is row (b, S) of x
  against column 4h+d (`arr`): heads and head columns are leading axes, the sequence position the last.
-/
import Idealize.ShloMosaic.PureOps.Ideal
import Idealize.ShloMosaic.Lib.ValueIdx
import proofs.«117134_j33835752358170_2_alg».proof.Proof.Spec

noncomputable section

namespace Cert.KernelIdeal.Val

open Idealize.ShloMosaic ValueIdx

/-- Column `4h + d` as an index below 64, from coordinates typed by a shape's axes. -/
def hc (h : Fin 16) (d : Fin 4) : Fin 64 := Cert.Attn.hcol h d

/-- The block one grid point leaves in an output of the projection call. -/
def blk (x0 : (⟨3, ![1, 512, 1024]⟩ : Shape).Idx → EReal) (w : (⟨2, ![1024, 64]⟩ : Shape).Idx → EReal)
    (bb : (⟨1, ![64]⟩ : Shape).Idx → EReal) : (⟨4, ![1, 16, 4, 512]⟩ : Shape).Idx → EReal :=
  fun y => (∑ c : Fin 1024, x0 (ix3 0 (y 3) c) * w (ix2 c (hc (y 1) (y 2)))) + bb (ix1 (hc (y 1) (y 2)))

/-- The array the projection call leaves, from the whole x array and the same weights and bias. -/
def arr (x : (⟨3, ![4, 2048, 1024]⟩ : Shape).Idx → EReal) (w : (⟨2, ![1024, 64]⟩ : Shape).Idx → EReal)
    (bb : (⟨1, ![64]⟩ : Shape).Idx → EReal) : (⟨4, ![4, 16, 4, 2048]⟩ : Shape).Idx → EReal :=
  fun i => (∑ c : Fin 1024, x (ix3 (i 0) (i 3) c) * w (ix2 c (hc (i 1) (i 2)))) + bb (ix1 (hc (i 1) (i 2)))

end Cert.KernelIdeal.Val

end
-- ==== Proof.LibTileCast.lean ====
/-
  A matrix under two leading unit axes, read at an entry.

  The row-major position of entry (0, 0, i, j) of a [1, 1, a, b] array is ((0 · 1 + 0) · a + i) · b + j = i · b + j,
  the position of entry (i, j) of the [a, b] matrix with the same elements; so a cast between the two shapes reads
  the same element at (0, 0, i, j) and at (i, j). (The companions for ONE leading unit axis are the library's
  `shapeCast_1ab_ab_apply` and `shapeCast_ab_1ab_apply`.)
-/
import Idealize.ShloMosaic.Lib.ValueLayout

namespace Idealize.ShloMosaic.ValueIdx

open Idealize.ShloMosaic

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

end Idealize.ShloMosaic.ValueIdx
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.PayK0Proj.lean ====
/-
  The projection body's values, read entry by entry: the product of a block of 512 rows against a 1024 × 64 block
  of the weights plus the bias, at (s, j), is (Σ_c x(s, c) · w(c, j)) + b(j); and the three ways a 512 × 64 result
  is cut into heads — four columns from column o, transposed, and put under two unit axes: entry (0, 0, d, s) of
  the result is entry (s, o + d) of the operand.
-/
import proofs.«117134_j33835752358170_2_alg».proof.Proof.Gen.KernelIdeal.Skeleton
import proofs.«117134_j33835752358170_2_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«117134_j33835752358170_2_alg».proof.Proof.LibTileCast
import proofs.«117134_j33835752358170_2_alg».proof.Proof.LibPlainMatmul

noncomputable section

namespace Cert.KernelIdeal.Pay

open Idealize.ShloMosaic Cert.KernelIdeal Cert.KernelIdeal.Gen ValueIdx

/-! ### The three layout shapes -/

section Shapes

variable {α : Type}

/-- Four columns from column `o` of a `[512, 64]` array, transposed: entry `(d, s)` is the operand at `(s, c)`,
    `c = o + d`. -/
theorem sliceT_apply (o : Nat) (X : S512x64.Idx → α) (h : S512x64.Slices ![0, o] S512x4)
    (ht : S512x4.Transposes [1, 0] S4x512) (d : Fin 4) (s : Fin 512) (c : Fin 64) (hc : c.val = o + d.val) :
    transpose S4x512 [1, 0] (extractStridedSlice S512x4 ![0, o] X h) ht (ix2 d s) = X (ix2 s c) :=
  (transpose_ix2_apply (extractStridedSlice S512x4 ![0, o] X h) ht d s).trans (slice2_axis1_apply o X h s d c hc)

/-- A `[4, 512]` array put under two unit axes: entry `(0, 0, d, s)` is the operand at `(d, s)`. -/
theorem cast_apply (Y : S4x512.Idx → α) (hcst : S4x512.ShapeCasts S1x1x4x512) (d : Fin 4) (s : Fin 512) :
    shapeCast S1x1x4x512 Y hcst (ix4 0 0 d s) = Y (ix2 d s) :=
  shapeCast_ab_11ab_apply Y hcst 0 0 d s

/-- Both: entry `(0, 0, d, s)` is the operand at `(s, c)`, `c = o + d`. -/
theorem sliceTCast_apply (o : Nat) (X : S512x64.Idx → α) (h : S512x64.Slices ![0, o] S512x4)
    (ht : S512x4.Transposes [1, 0] S4x512) (hcst : S4x512.ShapeCasts S1x1x4x512)
    (d : Fin 4) (s : Fin 512) (c : Fin 64) (hc : c.val = o + d.val) :
    shapeCast S1x1x4x512 (transpose S4x512 [1, 0] (extractStridedSlice S512x4 ![0, o] X h) ht) hcst (ix4 0 0 d s)
      = X (ix2 s c) :=
  (cast_apply _ hcst d s).trans (sliceT_apply o X h ht d s c hc)

end Shapes

/-! ### The projection -/

/-- The block of rows, its leading unit axis dropped (a narrowing of the format changes nothing at the exact values). -/
theorem k0_pay6_apply (v0 : Vec Ideal S1x512x1024 .f32) (s : Fin 512) (c : Fin 1024) :
    k0_pay6 (F := Ideal) v0 (ix2 s c) = v0 (ix3 0 s c) := by
  show shapeCast S512x1024 v0 shapeCasts_S1x512x1024_S512x1024 (ix2 s c) = _
  exact shapeCast_1ab_ab_apply v0 shapeCasts_S1x512x1024_S512x1024 s c

/-- The projection at `(s, j)`: row `s` against column `j` of the weights, plus the bias of column `j`. -/
theorem k0_pay7_apply (v0 : Vec Ideal S1x512x1024 .f32) (v3 : Vec Ideal S1024x64 .bf16) (v6 : Vec Ideal S64 .f32)
    (s : Fin 512) (j : Fin 64) :
    k0_pay7 (F := Ideal) v0 v3 v6 (ix2 s j) = (∑ c : Fin 1024, v0 (ix3 0 s c) * v3 (ix2 c j)) + v6 (ix1 j) := by
  show matmul dot_S512x1024_S1024x64_S512x64_1_0_0_1_n_n none (k0_pay6 (F := Ideal) v0)
        (shapeCast S1024x64 v3 shapeCasts_S1024x64_S1024x64) (constant (F := Ideal) S512x64 .f32 0x00000000#32) (ix2 s j)
      + broadcastTo S512x64 (shapeCast S1x64 (shapeCast S64 v6 shapeCasts_S64_S64) shapeCasts_S64_S1x64)
          broadcasts_S1x64_S512x64 (ix2 s j) = _
  refine congrArg₂ (· + ·) ?_ ?_
  · refine (matmul_plain_zero_apply dot_S512x1024_S1024x64_S512x64_1_0_0_1_n_n_wf none _ _ s j).trans ?_
    refine Finset.sum_congr rfl fun c _ => ?_
    exact congrArg₂ (· * ·) (k0_pay6_apply v0 s c)
      (congrFun (shapeCast_self v3 shapeCasts_S1024x64_S1024x64) (ix2 c j))
  · refine (broadcastTo_1b_ab_apply _ broadcasts_S1x64_S512x64 s j).trans ?_
    refine (shapeCast_a_1a_apply _ shapeCasts_S64_S1x64 0 j).trans ?_
    exact congrFun (shapeCast_self v6 shapeCasts_S64_S64) (ix1 j)

/-- The keys' and the values' projections are the same term on their own operands. -/
theorem k0_pay8_apply (v0 : Vec Ideal S1x512x1024 .f32) (v11 : Vec Ideal S1024x64 .bf16) (v14 : Vec Ideal S64 .f32)
    (s : Fin 512) (j : Fin 64) :
    k0_pay8 (F := Ideal) v0 v11 v14 (ix2 s j) = (∑ c : Fin 1024, v0 (ix3 0 s c) * v11 (ix2 c j)) + v14 (ix1 j) :=
  k0_pay7_apply v0 v11 v14 s j

theorem k0_pay9_apply (v0 : Vec Ideal S1x512x1024 .f32) (v19 : Vec Ideal S1024x64 .bf16) (v22 : Vec Ideal S64 .f32)
    (s : Fin 512) (j : Fin 64) :
    k0_pay9 (F := Ideal) v0 v19 v22 (ix2 s j) = (∑ c : Fin 1024, v0 (ix3 0 s c) * v19 (ix2 c j)) + v22 (ix1 j) :=
  k0_pay7_apply v0 v19 v22 s j

end Cert.KernelIdeal.Pay

end
-- ==== Proof.PayK0.lean ====
/-
  Every block the projection body stores, read entry by entry. Each of the sixteen heads of the queries, the keys
  and the values is four columns of a 512 × 64 projection, transposed and put under two unit axes: entry
  (0, 0, d, s) of head h's block is entry (s, 4h + d) of the projection. Some key blocks are formed in two steps
  (the transposed columns first, the unit axes after); both steps and their composition are read here.
-/
import proofs.«117134_j33835752358170_2_alg».proof.Proof.PayK0Proj

noncomputable section

namespace Cert.KernelIdeal.Pay

open Idealize.ShloMosaic Cert.KernelIdeal Cert.KernelIdeal.Gen ValueIdx

/-! ### Head 0, cut from the projections themselves -/

/-- Head 0 of the queries: columns 0..3 of the queries' projection. -/
theorem k0_pay10_apply (v0 : Vec Ideal S1x512x1024 .f32) (v3 : Vec Ideal S1024x64 .bf16) (v6 : Vec Ideal S64 .f32)
    (d : Fin 4) (s : Fin 512) :
    k0_pay10 (F := Ideal) v0 v3 v6 (ix4 0 0 d s) = k0_pay7 (F := Ideal) v0 v3 v6 (ix2 s ⟨d.val, by have := d.isLt; omega⟩) :=
  sliceTCast_apply 0 (k0_pay7 (F := Ideal) v0 v3 v6) slices_S512x64_o0_0_S512x4 transposes_S512x4_p1_0_S4x512 shapeCasts_S4x512_S1x1x4x512 d s
    ⟨d.val, by have := d.isLt; omega⟩ (Nat.zero_add _).symm

/-- Columns 0..3 of the keys' projection, transposed (head 0 of the keys, before its cast). -/
theorem k0_pay11_apply (v0 : Vec Ideal S1x512x1024 .f32) (v11 : Vec Ideal S1024x64 .bf16) (v14 : Vec Ideal S64 .f32)
    (d : Fin 4) (s : Fin 512) :
    k0_pay11 (F := Ideal) v0 v11 v14 (ix2 d s) = k0_pay8 (F := Ideal) v0 v11 v14 (ix2 s ⟨d.val, by have := d.isLt; omega⟩) :=
  sliceT_apply 0 (k0_pay8 (F := Ideal) v0 v11 v14) slices_S512x64_o0_0_S512x4 transposes_S512x4_p1_0_S4x512 d s
    ⟨d.val, by have := d.isLt; omega⟩ (Nat.zero_add _).symm

/-! ### Four columns, transposed, under two unit axes -/

/-- Head 0 of the values: columns 0..3 of the operand, transposed, under two unit axes. -/
theorem k0_pay13_apply (v26 : FVec Ideal S512x64 .f32) (d : Fin 4) (s : Fin 512) :
    k0_pay13 (F := Ideal) v26 (ix4 0 0 d s) = v26 (ix2 s ⟨d.val, by have := d.isLt; omega⟩) :=
  sliceTCast_apply 0 v26 slices_S512x64_o0_0_S512x4 transposes_S512x4_p1_0_S4x512 shapeCasts_S4x512_S1x1x4x512 d s
    ⟨d.val, by have := d.isLt; omega⟩ (Nat.zero_add _).symm

/-- Head 1 of the queries: columns 4..7 of the operand, transposed, under two unit axes. -/
theorem k0_pay14_apply (v10 : FVec Ideal S512x64 .f32) (d : Fin 4) (s : Fin 512) :
    k0_pay14 (F := Ideal) v10 (ix4 0 0 d s) = v10 (ix2 s ⟨4 + d.val, by have := d.isLt; omega⟩) :=
  sliceTCast_apply 4 v10 slices_S512x64_o0_4_S512x4 transposes_S512x4_p1_0_S4x512 shapeCasts_S4x512_S1x1x4x512 d s
    ⟨4 + d.val, by have := d.isLt; omega⟩ rfl

/-- Head 1 of the keys: columns 4..7 of the operand, transposed, under two unit axes. -/
theorem k0_pay15_apply (v18 : FVec Ideal S512x64 .f32) (d : Fin 4) (s : Fin 512) :
    k0_pay15 (F := Ideal) v18 (ix4 0 0 d s) = v18 (ix2 s ⟨4 + d.val, by have := d.isLt; omega⟩) :=
  sliceTCast_apply 4 v18 slices_S512x64_o0_4_S512x4 transposes_S512x4_p1_0_S4x512 shapeCasts_S4x512_S1x1x4x512 d s
    ⟨4 + d.val, by have := d.isLt; omega⟩ rfl

/-- Head 1 of the values: columns 4..7 of the operand, transposed, under two unit axes. -/
theorem k0_pay16_apply (v26 : FVec Ideal S512x64 .f32) (d : Fin 4) (s : Fin 512) :
    k0_pay16 (F := Ideal) v26 (ix4 0 0 d s) = v26 (ix2 s ⟨4 + d.val, by have := d.isLt; omega⟩) :=
  sliceTCast_apply 4 v26 slices_S512x64_o0_4_S512x4 transposes_S512x4_p1_0_S4x512 shapeCasts_S4x512_S1x1x4x512 d s
    ⟨4 + d.val, by have := d.isLt; omega⟩ rfl

/-- Head 2 of the queries: columns 8..11 of the operand, transposed, under two unit axes. -/
theorem k0_pay17_apply (v10 : FVec Ideal S512x64 .f32) (d : Fin 4) (s : Fin 512) :
    k0_pay17 (F := Ideal) v10 (ix4 0 0 d s) = v10 (ix2 s ⟨8 + d.val, by have := d.isLt; omega⟩) :=
  sliceTCast_apply 8 v10 slices_S512x64_o0_8_S512x4 transposes_S512x4_p1_0_S4x512 shapeCasts_S4x512_S1x1x4x512 d s
    ⟨8 + d.val, by have := d.isLt; omega⟩ rfl

/-- Head 2 of the values: columns 8..11 of the operand, transposed, under two unit axes. -/
theorem k0_pay20_apply (v26 : FVec Ideal S512x64 .f32) (d : Fin 4) (s : Fin 512) :
    k0_pay20 (F := Ideal) v26 (ix4 0 0 d s) = v26 (ix2 s ⟨8 + d.val, by have := d.isLt; omega⟩) :=
  sliceTCast_apply 8 v26 slices_S512x64_o0_8_S512x4 transposes_S512x4_p1_0_S4x512 shapeCasts_S4x512_S1x1x4x512 d s
    ⟨8 + d.val, by have := d.isLt; omega⟩ rfl

/-- Head 3 of the queries: columns 12..15 of the operand, transposed, under two unit axes. -/
theorem k0_pay21_apply (v10 : FVec Ideal S512x64 .f32) (d : Fin 4) (s : Fin 512) :
    k0_pay21 (F := Ideal) v10 (ix4 0 0 d s) = v10 (ix2 s ⟨12 + d.val, by have := d.isLt; omega⟩) :=
  sliceTCast_apply 12 v10 slices_S512x64_o0_12_S512x4 transposes_S512x4_p1_0_S4x512 shapeCasts_S4x512_S1x1x4x512 d s
    ⟨12 + d.val, by have := d.isLt; omega⟩ rfl

/-- Head 3 of the keys: columns 12..15 of the operand, transposed, under two unit axes. -/
theorem k0_pay22_apply (v18 : FVec Ideal S512x64 .f32) (d : Fin 4) (s : Fin 512) :
    k0_pay22 (F := Ideal) v18 (ix4 0 0 d s) = v18 (ix2 s ⟨12 + d.val, by have := d.isLt; omega⟩) :=
  sliceTCast_apply 12 v18 slices_S512x64_o0_12_S512x4 transposes_S512x4_p1_0_S4x512 shapeCasts_S4x512_S1x1x4x512 d s
    ⟨12 + d.val, by have := d.isLt; omega⟩ rfl

/-- Head 3 of the values: columns 12..15 of the operand, transposed, under two unit axes. -/
theorem k0_pay23_apply (v26 : FVec Ideal S512x64 .f32) (d : Fin 4) (s : Fin 512) :
    k0_pay23 (F := Ideal) v26 (ix4 0 0 d s) = v26 (ix2 s ⟨12 + d.val, by have := d.isLt; omega⟩) :=
  sliceTCast_apply 12 v26 slices_S512x64_o0_12_S512x4 transposes_S512x4_p1_0_S4x512 shapeCasts_S4x512_S1x1x4x512 d s
    ⟨12 + d.val, by have := d.isLt; omega⟩ rfl

/-- Head 4 of the queries: columns 16..19 of the operand, transposed, under two unit axes. -/
theorem k0_pay24_apply (v10 : FVec Ideal S512x64 .f32) (d : Fin 4) (s : Fin 512) :
    k0_pay24 (F := Ideal) v10 (ix4 0 0 d s) = v10 (ix2 s ⟨16 + d.val, by have := d.isLt; omega⟩) :=
  sliceTCast_apply 16 v10 slices_S512x64_o0_16_S512x4 transposes_S512x4_p1_0_S4x512 shapeCasts_S4x512_S1x1x4x512 d s
    ⟨16 + d.val, by have := d.isLt; omega⟩ rfl

/-- Head 4 of the values: columns 16..19 of the operand, transposed, under two unit axes. -/
theorem k0_pay27_apply (v26 : FVec Ideal S512x64 .f32) (d : Fin 4) (s : Fin 512) :
    k0_pay27 (F := Ideal) v26 (ix4 0 0 d s) = v26 (ix2 s ⟨16 + d.val, by have := d.isLt; omega⟩) :=
  sliceTCast_apply 16 v26 slices_S512x64_o0_16_S512x4 transposes_S512x4_p1_0_S4x512 shapeCasts_S4x512_S1x1x4x512 d s
    ⟨16 + d.val, by have := d.isLt; omega⟩ rfl

/-- Head 5 of the queries: columns 20..23 of the operand, transposed, under two unit axes. -/
theorem k0_pay28_apply (v10 : FVec Ideal S512x64 .f32) (d : Fin 4) (s : Fin 512) :
    k0_pay28 (F := Ideal) v10 (ix4 0 0 d s) = v10 (ix2 s ⟨20 + d.val, by have := d.isLt; omega⟩) :=
  sliceTCast_apply 20 v10 slices_S512x64_o0_20_S512x4 transposes_S512x4_p1_0_S4x512 shapeCasts_S4x512_S1x1x4x512 d s
    ⟨20 + d.val, by have := d.isLt; omega⟩ rfl

/-- Head 5 of the keys: columns 20..23 of the operand, transposed, under two unit axes. -/
theorem k0_pay29_apply (v18 : FVec Ideal S512x64 .f32) (d : Fin 4) (s : Fin 512) :
    k0_pay29 (F := Ideal) v18 (ix4 0 0 d s) = v18 (ix2 s ⟨20 + d.val, by have := d.isLt; omega⟩) :=
  sliceTCast_apply 20 v18 slices_S512x64_o0_20_S512x4 transposes_S512x4_p1_0_S4x512 shapeCasts_S4x512_S1x1x4x512 d s
    ⟨20 + d.val, by have := d.isLt; omega⟩ rfl

/-- Head 5 of the values: columns 20..23 of the operand, transposed, under two unit axes. -/
theorem k0_pay30_apply (v26 : FVec Ideal S512x64 .f32) (d : Fin 4) (s : Fin 512) :
    k0_pay30 (F := Ideal) v26 (ix4 0 0 d s) = v26 (ix2 s ⟨20 + d.val, by have := d.isLt; omega⟩) :=
  sliceTCast_apply 20 v26 slices_S512x64_o0_20_S512x4 transposes_S512x4_p1_0_S4x512 shapeCasts_S4x512_S1x1x4x512 d s
    ⟨20 + d.val, by have := d.isLt; omega⟩ rfl

/-- Head 6 of the queries: columns 24..27 of the operand, transposed, under two unit axes. -/
theorem k0_pay31_apply (v10 : FVec Ideal S512x64 .f32) (d : Fin 4) (s : Fin 512) :
    k0_pay31 (F := Ideal) v10 (ix4 0 0 d s) = v10 (ix2 s ⟨24 + d.val, by have := d.isLt; omega⟩) :=
  sliceTCast_apply 24 v10 slices_S512x64_o0_24_S512x4 transposes_S512x4_p1_0_S4x512 shapeCasts_S4x512_S1x1x4x512 d s
    ⟨24 + d.val, by have := d.isLt; omega⟩ rfl

/-- Head 6 of the values: columns 24..27 of the operand, transposed, under two unit axes. -/
theorem k0_pay34_apply (v26 : FVec Ideal S512x64 .f32) (d : Fin 4) (s : Fin 512) :
    k0_pay34 (F := Ideal) v26 (ix4 0 0 d s) = v26 (ix2 s ⟨24 + d.val, by have := d.isLt; omega⟩) :=
  sliceTCast_apply 24 v26 slices_S512x64_o0_24_S512x4 transposes_S512x4_p1_0_S4x512 shapeCasts_S4x512_S1x1x4x512 d s
    ⟨24 + d.val, by have := d.isLt; omega⟩ rfl

/-- Head 7 of the queries: columns 28..31 of the operand, transposed, under two unit axes. -/
theorem k0_pay35_apply (v10 : FVec Ideal S512x64 .f32) (d : Fin 4) (s : Fin 512) :
    k0_pay35 (F := Ideal) v10 (ix4 0 0 d s) = v10 (ix2 s ⟨28 + d.val, by have := d.isLt; omega⟩) :=
  sliceTCast_apply 28 v10 slices_S512x64_o0_28_S512x4 transposes_S512x4_p1_0_S4x512 shapeCasts_S4x512_S1x1x4x512 d s
    ⟨28 + d.val, by have := d.isLt; omega⟩ rfl

/-- Head 7 of the keys: columns 28..31 of the operand, transposed, under two unit axes. -/
theorem k0_pay36_apply (v18 : FVec Ideal S512x64 .f32) (d : Fin 4) (s : Fin 512) :
    k0_pay36 (F := Ideal) v18 (ix4 0 0 d s) = v18 (ix2 s ⟨28 + d.val, by have := d.isLt; omega⟩) :=
  sliceTCast_apply 28 v18 slices_S512x64_o0_28_S512x4 transposes_S512x4_p1_0_S4x512 shapeCasts_S4x512_S1x1x4x512 d s
    ⟨28 + d.val, by have := d.isLt; omega⟩ rfl

/-- Head 7 of the values: columns 28..31 of the operand, transposed, under two unit axes. -/
theorem k0_pay37_apply (v26 : FVec Ideal S512x64 .f32) (d : Fin 4) (s : Fin 512) :
    k0_pay37 (F := Ideal) v26 (ix4 0 0 d s) = v26 (ix2 s ⟨28 + d.val, by have := d.isLt; omega⟩) :=
  sliceTCast_apply 28 v26 slices_S512x64_o0_28_S512x4 transposes_S512x4_p1_0_S4x512 shapeCasts_S4x512_S1x1x4x512 d s
    ⟨28 + d.val, by have := d.isLt; omega⟩ rfl

/-- Head 8 of the queries: columns 32..35 of the operand, transposed, under two unit axes. -/
theorem k0_pay38_apply (v10 : FVec Ideal S512x64 .f32) (d : Fin 4) (s : Fin 512) :
    k0_pay38 (F := Ideal) v10 (ix4 0 0 d s) = v10 (ix2 s ⟨32 + d.val, by have := d.isLt; omega⟩) :=
  sliceTCast_apply 32 v10 slices_S512x64_o0_32_S512x4 transposes_S512x4_p1_0_S4x512 shapeCasts_S4x512_S1x1x4x512 d s
    ⟨32 + d.val, by have := d.isLt; omega⟩ rfl

/-- Head 8 of the values: columns 32..35 of the operand, transposed, under two unit axes. -/
theorem k0_pay41_apply (v26 : FVec Ideal S512x64 .f32) (d : Fin 4) (s : Fin 512) :
    k0_pay41 (F := Ideal) v26 (ix4 0 0 d s) = v26 (ix2 s ⟨32 + d.val, by have := d.isLt; omega⟩) :=
  sliceTCast_apply 32 v26 slices_S512x64_o0_32_S512x4 transposes_S512x4_p1_0_S4x512 shapeCasts_S4x512_S1x1x4x512 d s
    ⟨32 + d.val, by have := d.isLt; omega⟩ rfl

/-- Head 9 of the queries: columns 36..39 of the operand, transposed, under two unit axes. -/
theorem k0_pay42_apply (v10 : FVec Ideal S512x64 .f32) (d : Fin 4) (s : Fin 512) :
    k0_pay42 (F := Ideal) v10 (ix4 0 0 d s) = v10 (ix2 s ⟨36 + d.val, by have := d.isLt; omega⟩) :=
  sliceTCast_apply 36 v10 slices_S512x64_o0_36_S512x4 transposes_S512x4_p1_0_S4x512 shapeCasts_S4x512_S1x1x4x512 d s
    ⟨36 + d.val, by have := d.isLt; omega⟩ rfl

/-- Head 9 of the keys: columns 36..39 of the operand, transposed, under two unit axes. -/
theorem k0_pay43_apply (v18 : FVec Ideal S512x64 .f32) (d : Fin 4) (s : Fin 512) :
    k0_pay43 (F := Ideal) v18 (ix4 0 0 d s) = v18 (ix2 s ⟨36 + d.val, by have := d.isLt; omega⟩) :=
  sliceTCast_apply 36 v18 slices_S512x64_o0_36_S512x4 transposes_S512x4_p1_0_S4x512 shapeCasts_S4x512_S1x1x4x512 d s
    ⟨36 + d.val, by have := d.isLt; omega⟩ rfl

/-- Head 9 of the values: columns 36..39 of the operand, transposed, under two unit axes. -/
theorem k0_pay44_apply (v26 : FVec Ideal S512x64 .f32) (d : Fin 4) (s : Fin 512) :
    k0_pay44 (F := Ideal) v26 (ix4 0 0 d s) = v26 (ix2 s ⟨36 + d.val, by have := d.isLt; omega⟩) :=
  sliceTCast_apply 36 v26 slices_S512x64_o0_36_S512x4 transposes_S512x4_p1_0_S4x512 shapeCasts_S4x512_S1x1x4x512 d s
    ⟨36 + d.val, by have := d.isLt; omega⟩ rfl

/-- Head 10 of the queries: columns 40..43 of the operand, transposed, under two unit axes. -/
theorem k0_pay45_apply (v10 : FVec Ideal S512x64 .f32) (d : Fin 4) (s : Fin 512) :
    k0_pay45 (F := Ideal) v10 (ix4 0 0 d s) = v10 (ix2 s ⟨40 + d.val, by have := d.isLt; omega⟩) :=
  sliceTCast_apply 40 v10 slices_S512x64_o0_40_S512x4 transposes_S512x4_p1_0_S4x512 shapeCasts_S4x512_S1x1x4x512 d s
    ⟨40 + d.val, by have := d.isLt; omega⟩ rfl

/-- Head 10 of the values: columns 40..43 of the operand, transposed, under two unit axes. -/
theorem k0_pay48_apply (v26 : FVec Ideal S512x64 .f32) (d : Fin 4) (s : Fin 512) :
    k0_pay48 (F := Ideal) v26 (ix4 0 0 d s) = v26 (ix2 s ⟨40 + d.val, by have := d.isLt; omega⟩) :=
  sliceTCast_apply 40 v26 slices_S512x64_o0_40_S512x4 transposes_S512x4_p1_0_S4x512 shapeCasts_S4x512_S1x1x4x512 d s
    ⟨40 + d.val, by have := d.isLt; omega⟩ rfl

/-- Head 11 of the queries: columns 44..47 of the operand, transposed, under two unit axes. -/
theorem k0_pay49_apply (v10 : FVec Ideal S512x64 .f32) (d : Fin 4) (s : Fin 512) :
    k0_pay49 (F := Ideal) v10 (ix4 0 0 d s) = v10 (ix2 s ⟨44 + d.val, by have := d.isLt; omega⟩) :=
  sliceTCast_apply 44 v10 slices_S512x64_o0_44_S512x4 transposes_S512x4_p1_0_S4x512 shapeCasts_S4x512_S1x1x4x512 d s
    ⟨44 + d.val, by have := d.isLt; omega⟩ rfl

/-- Head 11 of the keys: columns 44..47 of the operand, transposed, under two unit axes. -/
theorem k0_pay50_apply (v18 : FVec Ideal S512x64 .f32) (d : Fin 4) (s : Fin 512) :
    k0_pay50 (F := Ideal) v18 (ix4 0 0 d s) = v18 (ix2 s ⟨44 + d.val, by have := d.isLt; omega⟩) :=
  sliceTCast_apply 44 v18 slices_S512x64_o0_44_S512x4 transposes_S512x4_p1_0_S4x512 shapeCasts_S4x512_S1x1x4x512 d s
    ⟨44 + d.val, by have := d.isLt; omega⟩ rfl

/-- Head 11 of the values: columns 44..47 of the operand, transposed, under two unit axes. -/
theorem k0_pay51_apply (v26 : FVec Ideal S512x64 .f32) (d : Fin 4) (s : Fin 512) :
    k0_pay51 (F := Ideal) v26 (ix4 0 0 d s) = v26 (ix2 s ⟨44 + d.val, by have := d.isLt; omega⟩) :=
  sliceTCast_apply 44 v26 slices_S512x64_o0_44_S512x4 transposes_S512x4_p1_0_S4x512 shapeCasts_S4x512_S1x1x4x512 d s
    ⟨44 + d.val, by have := d.isLt; omega⟩ rfl

/-- Head 12 of the queries: columns 48..51 of the operand, transposed, under two unit axes. -/
theorem k0_pay52_apply (v10 : FVec Ideal S512x64 .f32) (d : Fin 4) (s : Fin 512) :
    k0_pay52 (F := Ideal) v10 (ix4 0 0 d s) = v10 (ix2 s ⟨48 + d.val, by have := d.isLt; omega⟩) :=
  sliceTCast_apply 48 v10 slices_S512x64_o0_48_S512x4 transposes_S512x4_p1_0_S4x512 shapeCasts_S4x512_S1x1x4x512 d s
    ⟨48 + d.val, by have := d.isLt; omega⟩ rfl

/-- Head 12 of the values: columns 48..51 of the operand, transposed, under two unit axes. -/
theorem k0_pay55_apply (v26 : FVec Ideal S512x64 .f32) (d : Fin 4) (s : Fin 512) :
    k0_pay55 (F := Ideal) v26 (ix4 0 0 d s) = v26 (ix2 s ⟨48 + d.val, by have := d.isLt; omega⟩) :=
  sliceTCast_apply 48 v26 slices_S512x64_o0_48_S512x4 transposes_S512x4_p1_0_S4x512 shapeCasts_S4x512_S1x1x4x512 d s
    ⟨48 + d.val, by have := d.isLt; omega⟩ rfl

/-- Head 13 of the queries: columns 52..55 of the operand, transposed, under two unit axes. -/
theorem k0_pay56_apply (v10 : FVec Ideal S512x64 .f32) (d : Fin 4) (s : Fin 512) :
    k0_pay56 (F := Ideal) v10 (ix4 0 0 d s) = v10 (ix2 s ⟨52 + d.val, by have := d.isLt; omega⟩) :=
  sliceTCast_apply 52 v10 slices_S512x64_o0_52_S512x4 transposes_S512x4_p1_0_S4x512 shapeCasts_S4x512_S1x1x4x512 d s
    ⟨52 + d.val, by have := d.isLt; omega⟩ rfl

/-- Head 13 of the keys: columns 52..55 of the operand, transposed, under two unit axes. -/
theorem k0_pay57_apply (v18 : FVec Ideal S512x64 .f32) (d : Fin 4) (s : Fin 512) :
    k0_pay57 (F := Ideal) v18 (ix4 0 0 d s) = v18 (ix2 s ⟨52 + d.val, by have := d.isLt; omega⟩) :=
  sliceTCast_apply 52 v18 slices_S512x64_o0_52_S512x4 transposes_S512x4_p1_0_S4x512 shapeCasts_S4x512_S1x1x4x512 d s
    ⟨52 + d.val, by have := d.isLt; omega⟩ rfl

/-- Head 13 of the values: columns 52..55 of the operand, transposed, under two unit axes. -/
theorem k0_pay58_apply (v26 : FVec Ideal S512x64 .f32) (d : Fin 4) (s : Fin 512) :
    k0_pay58 (F := Ideal) v26 (ix4 0 0 d s) = v26 (ix2 s ⟨52 + d.val, by have := d.isLt; omega⟩) :=
  sliceTCast_apply 52 v26 slices_S512x64_o0_52_S512x4 transposes_S512x4_p1_0_S4x512 shapeCasts_S4x512_S1x1x4x512 d s
    ⟨52 + d.val, by have := d.isLt; omega⟩ rfl

/-- Head 14 of the queries: columns 56..59 of the operand, transposed, under two unit axes. -/
theorem k0_pay59_apply (v10 : FVec Ideal S512x64 .f32) (d : Fin 4) (s : Fin 512) :
    k0_pay59 (F := Ideal) v10 (ix4 0 0 d s) = v10 (ix2 s ⟨56 + d.val, by have := d.isLt; omega⟩) :=
  sliceTCast_apply 56 v10 slices_S512x64_o0_56_S512x4 transposes_S512x4_p1_0_S4x512 shapeCasts_S4x512_S1x1x4x512 d s
    ⟨56 + d.val, by have := d.isLt; omega⟩ rfl

/-- Head 14 of the values: columns 56..59 of the operand, transposed, under two unit axes. -/
theorem k0_pay2_apply (v26 : FVec Ideal S512x64 .f32) (d : Fin 4) (s : Fin 512) :
    k0_pay2 (F := Ideal) v26 (ix4 0 0 d s) = v26 (ix2 s ⟨56 + d.val, by have := d.isLt; omega⟩) :=
  sliceTCast_apply 56 v26 slices_S512x64_o0_56_S512x4 transposes_S512x4_p1_0_S4x512 shapeCasts_S4x512_S1x1x4x512 d s
    ⟨56 + d.val, by have := d.isLt; omega⟩ rfl

/-- Head 15 of the queries: columns 60..63 of the operand, transposed, under two unit axes. -/
theorem k0_pay3_apply (v10 : FVec Ideal S512x64 .f32) (d : Fin 4) (s : Fin 512) :
    k0_pay3 (F := Ideal) v10 (ix4 0 0 d s) = v10 (ix2 s ⟨60 + d.val, by have := d.isLt; omega⟩) :=
  sliceTCast_apply 60 v10 slices_S512x64_o0_60_S512x4 transposes_S512x4_p1_0_S4x512 shapeCasts_S4x512_S1x1x4x512 d s
    ⟨60 + d.val, by have := d.isLt; omega⟩ rfl

/-- Head 15 of the keys: columns 60..63 of the operand, transposed, under two unit axes. -/
theorem k0_pay4_apply (v18 : FVec Ideal S512x64 .f32) (d : Fin 4) (s : Fin 512) :
    k0_pay4 (F := Ideal) v18 (ix4 0 0 d s) = v18 (ix2 s ⟨60 + d.val, by have := d.isLt; omega⟩) :=
  sliceTCast_apply 60 v18 slices_S512x64_o0_60_S512x4 transposes_S512x4_p1_0_S4x512 shapeCasts_S4x512_S1x1x4x512 d s
    ⟨60 + d.val, by have := d.isLt; omega⟩ rfl

/-- Head 15 of the values: columns 60..63 of the operand, transposed, under two unit axes. -/
theorem k0_pay5_apply (v26 : FVec Ideal S512x64 .f32) (d : Fin 4) (s : Fin 512) :
    k0_pay5 (F := Ideal) v26 (ix4 0 0 d s) = v26 (ix2 s ⟨60 + d.val, by have := d.isLt; omega⟩) :=
  sliceTCast_apply 60 v26 slices_S512x64_o0_60_S512x4 transposes_S512x4_p1_0_S4x512 shapeCasts_S4x512_S1x1x4x512 d s
    ⟨60 + d.val, by have := d.isLt; omega⟩ rfl

/-! ### The key blocks formed in two steps: the transposed columns -/

/-- Columns 8..11 of the operand, transposed (head 2 of the keys, before its cast). -/
theorem k0_pay18_apply (v18 : FVec Ideal S512x64 .f32) (d : Fin 4) (s : Fin 512) :
    k0_pay18 (F := Ideal) v18 (ix2 d s) = v18 (ix2 s ⟨8 + d.val, by have := d.isLt; omega⟩) :=
  sliceT_apply 8 v18 slices_S512x64_o0_8_S512x4 transposes_S512x4_p1_0_S4x512 d s
    ⟨8 + d.val, by have := d.isLt; omega⟩ rfl

/-- Columns 16..19 of the operand, transposed (head 4 of the keys, before its cast). -/
theorem k0_pay25_apply (v18 : FVec Ideal S512x64 .f32) (d : Fin 4) (s : Fin 512) :
    k0_pay25 (F := Ideal) v18 (ix2 d s) = v18 (ix2 s ⟨16 + d.val, by have := d.isLt; omega⟩) :=
  sliceT_apply 16 v18 slices_S512x64_o0_16_S512x4 transposes_S512x4_p1_0_S4x512 d s
    ⟨16 + d.val, by have := d.isLt; omega⟩ rfl

/-- Columns 24..27 of the operand, transposed (head 6 of the keys, before its cast). -/
theorem k0_pay32_apply (v18 : FVec Ideal S512x64 .f32) (d : Fin 4) (s : Fin 512) :
    k0_pay32 (F := Ideal) v18 (ix2 d s) = v18 (ix2 s ⟨24 + d.val, by have := d.isLt; omega⟩) :=
  sliceT_apply 24 v18 slices_S512x64_o0_24_S512x4 transposes_S512x4_p1_0_S4x512 d s
    ⟨24 + d.val, by have := d.isLt; omega⟩ rfl

/-- Columns 32..35 of the operand, transposed (head 8 of the keys, before its cast). -/
theorem k0_pay39_apply (v18 : FVec Ideal S512x64 .f32) (d : Fin 4) (s : Fin 512) :
    k0_pay39 (F := Ideal) v18 (ix2 d s) = v18 (ix2 s ⟨32 + d.val, by have := d.isLt; omega⟩) :=
  sliceT_apply 32 v18 slices_S512x64_o0_32_S512x4 transposes_S512x4_p1_0_S4x512 d s
    ⟨32 + d.val, by have := d.isLt; omega⟩ rfl

/-- Columns 40..43 of the operand, transposed (head 10 of the keys, before its cast). -/
theorem k0_pay46_apply (v18 : FVec Ideal S512x64 .f32) (d : Fin 4) (s : Fin 512) :
    k0_pay46 (F := Ideal) v18 (ix2 d s) = v18 (ix2 s ⟨40 + d.val, by have := d.isLt; omega⟩) :=
  sliceT_apply 40 v18 slices_S512x64_o0_40_S512x4 transposes_S512x4_p1_0_S4x512 d s
    ⟨40 + d.val, by have := d.isLt; omega⟩ rfl

/-- Columns 48..51 of the operand, transposed (head 12 of the keys, before its cast). -/
theorem k0_pay53_apply (v18 : FVec Ideal S512x64 .f32) (d : Fin 4) (s : Fin 512) :
    k0_pay53 (F := Ideal) v18 (ix2 d s) = v18 (ix2 s ⟨48 + d.val, by have := d.isLt; omega⟩) :=
  sliceT_apply 48 v18 slices_S512x64_o0_48_S512x4 transposes_S512x4_p1_0_S4x512 d s
    ⟨48 + d.val, by have := d.isLt; omega⟩ rfl

/-- Columns 56..59 of the operand, transposed (head 14 of the keys, before its cast). -/
theorem k0_pay60_apply (v18 : FVec Ideal S512x64 .f32) (d : Fin 4) (s : Fin 512) :
    k0_pay60 (F := Ideal) v18 (ix2 d s) = v18 (ix2 s ⟨56 + d.val, by have := d.isLt; omega⟩) :=
  sliceT_apply 56 v18 slices_S512x64_o0_56_S512x4 transposes_S512x4_p1_0_S4x512 d s
    ⟨56 + d.val, by have := d.isLt; omega⟩ rfl

/-! ### … and the unit axes -/

/-- Head 0 of the keys: a `[4, 512]` block under two unit axes. -/
theorem k0_pay12_apply (v33 : FVec Ideal S4x512 .f32) (d : Fin 4) (s : Fin 512) :
    k0_pay12 (F := Ideal) v33 (ix4 0 0 d s) = v33 (ix2 d s) :=
  cast_apply v33 shapeCasts_S4x512_S1x1x4x512 d s

/-- Head 2 of the keys: a `[4, 512]` block under two unit axes. -/
theorem k0_pay19_apply (v63 : FVec Ideal S4x512 .f32) (d : Fin 4) (s : Fin 512) :
    k0_pay19 (F := Ideal) v63 (ix4 0 0 d s) = v63 (ix2 d s) :=
  cast_apply v63 shapeCasts_S4x512_S1x1x4x512 d s

/-- Head 4 of the keys: a `[4, 512]` block under two unit axes. -/
theorem k0_pay26_apply (v93 : FVec Ideal S4x512 .f32) (d : Fin 4) (s : Fin 512) :
    k0_pay26 (F := Ideal) v93 (ix4 0 0 d s) = v93 (ix2 d s) :=
  cast_apply v93 shapeCasts_S4x512_S1x1x4x512 d s

/-- Head 6 of the keys: a `[4, 512]` block under two unit axes. -/
theorem k0_pay33_apply (v123 : FVec Ideal S4x512 .f32) (d : Fin 4) (s : Fin 512) :
    k0_pay33 (F := Ideal) v123 (ix4 0 0 d s) = v123 (ix2 d s) :=
  cast_apply v123 shapeCasts_S4x512_S1x1x4x512 d s

/-- Head 8 of the keys: a `[4, 512]` block under two unit axes. -/
theorem k0_pay40_apply (v153 : FVec Ideal S4x512 .f32) (d : Fin 4) (s : Fin 512) :
    k0_pay40 (F := Ideal) v153 (ix4 0 0 d s) = v153 (ix2 d s) :=
  cast_apply v153 shapeCasts_S4x512_S1x1x4x512 d s

/-- Head 10 of the keys: a `[4, 512]` block under two unit axes. -/
theorem k0_pay47_apply (v183 : FVec Ideal S4x512 .f32) (d : Fin 4) (s : Fin 512) :
    k0_pay47 (F := Ideal) v183 (ix4 0 0 d s) = v183 (ix2 d s) :=
  cast_apply v183 shapeCasts_S4x512_S1x1x4x512 d s

/-- Head 12 of the keys: a `[4, 512]` block under two unit axes. -/
theorem k0_pay54_apply (v213 : FVec Ideal S4x512 .f32) (d : Fin 4) (s : Fin 512) :
    k0_pay54 (F := Ideal) v213 (ix4 0 0 d s) = v213 (ix2 d s) :=
  cast_apply v213 shapeCasts_S4x512_S1x1x4x512 d s

/-- Head 14 of the keys: a `[4, 512]` block under two unit axes. -/
theorem k0_pay1_apply (v243 : FVec Ideal S4x512 .f32) (d : Fin 4) (s : Fin 512) :
    k0_pay1 (F := Ideal) v243 (ix4 0 0 d s) = v243 (ix2 d s) :=
  cast_apply v243 shapeCasts_S4x512_S1x1x4x512 d s

/-! ### … composed -/

/-- Head 0 of the keys, both steps: columns 0..3 of the keys' projection. -/
theorem k0_pay12_k0_pay11_apply (v0 : Vec Ideal S1x512x1024 .f32) (v11 : Vec Ideal S1024x64 .bf16) (v14 : Vec Ideal S64 .f32)
    (d : Fin 4) (s : Fin 512) :
    k0_pay12 (F := Ideal) (k0_pay11 (F := Ideal) v0 v11 v14) (ix4 0 0 d s)
      = k0_pay8 (F := Ideal) v0 v11 v14 (ix2 s ⟨d.val, by have := d.isLt; omega⟩) :=
  (k0_pay12_apply _ d s).trans (k0_pay11_apply v0 v11 v14 d s)

/-- Head 2 of the keys, both steps: columns 8..11 of the operand. -/
theorem k0_pay19_k0_pay18_apply (v18 : FVec Ideal S512x64 .f32) (d : Fin 4) (s : Fin 512) :
    k0_pay19 (F := Ideal) (k0_pay18 (F := Ideal) v18) (ix4 0 0 d s) = v18 (ix2 s ⟨8 + d.val, by have := d.isLt; omega⟩) :=
  (k0_pay19_apply _ d s).trans (k0_pay18_apply v18 d s)

/-- Head 4 of the keys, both steps: columns 16..19 of the operand. -/
theorem k0_pay26_k0_pay25_apply (v18 : FVec Ideal S512x64 .f32) (d : Fin 4) (s : Fin 512) :
    k0_pay26 (F := Ideal) (k0_pay25 (F := Ideal) v18) (ix4 0 0 d s) = v18 (ix2 s ⟨16 + d.val, by have := d.isLt; omega⟩) :=
  (k0_pay26_apply _ d s).trans (k0_pay25_apply v18 d s)

/-- Head 6 of the keys, both steps: columns 24..27 of the operand. -/
theorem k0_pay33_k0_pay32_apply (v18 : FVec Ideal S512x64 .f32) (d : Fin 4) (s : Fin 512) :
    k0_pay33 (F := Ideal) (k0_pay32 (F := Ideal) v18) (ix4 0 0 d s) = v18 (ix2 s ⟨24 + d.val, by have := d.isLt; omega⟩) :=
  (k0_pay33_apply _ d s).trans (k0_pay32_apply v18 d s)

/-- Head 8 of the keys, both steps: columns 32..35 of the operand. -/
theorem k0_pay40_k0_pay39_apply (v18 : FVec Ideal S512x64 .f32) (d : Fin 4) (s : Fin 512) :
    k0_pay40 (F := Ideal) (k0_pay39 (F := Ideal) v18) (ix4 0 0 d s) = v18 (ix2 s ⟨32 + d.val, by have := d.isLt; omega⟩) :=
  (k0_pay40_apply _ d s).trans (k0_pay39_apply v18 d s)

/-- Head 10 of the keys, both steps: columns 40..43 of the operand. -/
theorem k0_pay47_k0_pay46_apply (v18 : FVec Ideal S512x64 .f32) (d : Fin 4) (s : Fin 512) :
    k0_pay47 (F := Ideal) (k0_pay46 (F := Ideal) v18) (ix4 0 0 d s) = v18 (ix2 s ⟨40 + d.val, by have := d.isLt; omega⟩) :=
  (k0_pay47_apply _ d s).trans (k0_pay46_apply v18 d s)

/-- Head 12 of the keys, both steps: columns 48..51 of the operand. -/
theorem k0_pay54_k0_pay53_apply (v18 : FVec Ideal S512x64 .f32) (d : Fin 4) (s : Fin 512) :
    k0_pay54 (F := Ideal) (k0_pay53 (F := Ideal) v18) (ix4 0 0 d s) = v18 (ix2 s ⟨48 + d.val, by have := d.isLt; omega⟩) :=
  (k0_pay54_apply _ d s).trans (k0_pay53_apply v18 d s)

/-- Head 14 of the keys, both steps: columns 56..59 of the operand. -/
theorem k0_pay1_k0_pay60_apply (v18 : FVec Ideal S512x64 .f32) (d : Fin 4) (s : Fin 512) :
    k0_pay1 (F := Ideal) (k0_pay60 (F := Ideal) v18) (ix4 0 0 d s) = v18 (ix2 s ⟨56 + d.val, by have := d.isLt; omega⟩) :=
  (k0_pay1_apply _ d s).trans (k0_pay60_apply v18 d s)

end Cert.KernelIdeal.Pay

end
-- ==== Proof.Val0.lean ====
import proofs.«117134_j33835752358170_2_alg».proof.Proof.KI.Region0
import proofs.«117134_j33835752358170_2_alg».proof.Proof.Blk0
import proofs.«117134_j33835752358170_2_alg».proof.Proof.PayK0

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Fr ValueIdx

/-! ### A stored slab agrees with the block function -/

/-- The block function at an index whose row is `s` and whose head and head column name column `col`. -/
theorem blk_apply_of (x0 : S1x512x1024.Idx → EReal) (w : S1024x64.Idx → EReal) (bb : S64.Idx → EReal)
    (y : S1x16x4x512.Idx) (s : Fin 512) (col : Fin 64) (hs : (y 3).val = s.val)
    (hcol : (hc (y 1) (y 2)).val = col.val) :
    blk x0 w bb y = (∑ c : Fin 1024, x0 (ix3 0 s c) * w (ix2 c col)) + bb (ix1 col) := by
  have hs' : (y 3 : Fin 512) = s := Fin.ext hs
  have hc' : hc (y 1) (y 2) = col := Fin.ext hcol
  show (∑ c : Fin 1024, x0 (ix3 0 (y 3) c) * w (ix2 c (hc (y 1) (y 2)))) + bb (ix1 (hc (y 1) (y 2))) = _
  exact congrArg₂ (fun (z : Fin 512) (k : Fin 64) => (∑ c : Fin 1024, x0 (ix3 0 z c) * w (ix2 c k)) + bb (ix1 k)) hs' hc'

/-- Head `hv`'s slab: a `[1, 1, 4, 512]` payload whose entry `(0, 0, d, s)` is entry `(s, 4·hv + d)` of the
    projection `P` agrees with the block function on the slab's rectangle, at offset `(0, hv, 0, 0)`. -/
theorem piece_agrees (x0 : S1x512x1024.Idx → EReal) (w : S1024x64.Idx → EReal) (bb : S64.Idx → EReal)
    (P : S512x64.Idx → EReal)
    (hP : ∀ (s : Fin 512) (j : Fin 64), P (ix2 s j) = (∑ c : Fin 1024, x0 (ix3 0 s c) * w (ix2 c j)) + bb (ix1 j))
    (hv : Nat) (hlt : hv < 16)
    (inb : ∀ a, (![0, hv, 0, 0] : Fin 4 → Nat) a + (![1, 1, 4, 512] : Fin 4 → Nat) a ≤ S1x16x4x512.size a)
    (pay : S1x1x4x512.Idx → EReal)
    (hpay : ∀ (d : Fin 4) (s : Fin 512), ∃ col : Fin 64, col.val = 4 * hv + d.val ∧ pay (ix4 0 0 d s) = P (ix2 s col))
    (x : S1x1x4x512.Idx) :
    pay x = blk x0 w bb ((Rect.unit (s := S1x16x4x512) ![0, hv, 0, 0] ![1, 1, 4, 512] inb).emb x) := by
  obtain ⟨a, b, d, s, rfl⟩ : ∃ (a b : Fin 1) (d : Fin 4) (s : Fin 512), x = ix4 a b d s :=
    ⟨x 0, x 1, x 2, x 3, eq_ix4 x⟩
  obtain rfl : a = 0 := Subsingleton.elim _ _
  obtain rfl : b = 0 := Subsingleton.elim _ _
  obtain ⟨col, hcol, hp⟩ := hpay d s
  rw [hp, hP s col]
  refine (blk_apply_of x0 w bb _ s col ?_ ?_).symm
  · show 0 + 1 * s.val = s.val
    omega
  · show 4 * (hv + 1 * 0) + (0 + 1 * d.val) = col.val
    omega

/-! ### The staged inputs, read whole -/

theorem load_x (arg2 : Memref sig .tc .vmem S1x512x1024 .f32) (harg2 : arg2.IsWhole) (x0 : Vec Ideal S1x512x1024 .f32) :
    View.readAt (Elt Ideal) arg2.view (Rect.unit ![0, 0, 0] S1x512x1024.size inb_S1x512x1024_S1x512x1024_0_0_0).toLoadRect
      (harg2.unread x0) = x0 := by
  have hz : (![0, 0, 0] : Fin 3 → Nat) = fun _ => 0 := by funext a; fin_cases a <;> rfl
  simp only [View.readAt_eq_ld, harg2.read_unread, View.ld_unit_zero (S := S1x512x1024) hz]

theorem load_w (arg3 : Memref sig .tc .vmem S1024x64 .bf16) (harg3 : arg3.IsWhole) (x1 : Vec Ideal S1024x64 .bf16) :
    View.readAt (Elt Ideal) arg3.view (Rect.unit ![0, 0] S1024x64.size inb_S1024x64_S1024x64_0_0).toLoadRect
      (harg3.unread x1) = x1 := by
  have hz : (![0, 0] : Fin 2 → Nat) = fun _ => 0 := by funext a; fin_cases a <;> rfl
  simp only [View.readAt_eq_ld, harg3.read_unread, View.ld_unit_zero (S := S1024x64) hz]

theorem load_b (arg6 : Memref sig .tc .vmem S64 .f32) (harg6 : arg6.IsWhole) (x4 : Vec Ideal S64 .f32) :
    View.readAt (Elt Ideal) arg6.view (Rect.unit ![0] S64.size inb_S64_S64_0).toLoadRect (harg6.unread x4) = x4 := by
  have hz : (![0] : Fin 1 → Nat) = fun _ => 0 := by funext a; fin_cases a; rfl
  simp only [View.readAt_eq_ld, harg6.read_unread, View.ld_unit_zero (S := S64) hz]

/-! ### The run's named values: the three projections and the keys' transposed columns -/

section Named

variable (c : Dev nD) (arg2 : Memref sig .tc .vmem S1x512x1024 .f32) (harg2 : arg2.IsWhole)
  (argw : Memref sig .tc .vmem S1024x64 .bf16) (hargw : argw.IsWhole) (argb : Memref sig .tc .vmem S64 .f32)
  (hargb : argb.IsWhole) (x0 : Vec Ideal S1x512x1024 .f32) (w : Vec Ideal S1024x64 .bf16) (bb : Vec Ideal S64 .f32)

theorem r_apply (s : Fin 512) (j : Fin 64) :
    kernelRun0.sl.r (F := Ideal) c arg2 harg2 argw hargw argb hargb x0 w bb (ix2 s j)
      = (∑ k : Fin 1024, x0 (ix3 0 s k) * w (ix2 k j)) + bb (ix1 j) := by
  unfold kernelRun0.sl.r
  rw [load_x, load_w, load_b]
  exact Pay.k0_pay7_apply x0 w bb s j

theorem r_1_apply (s : Fin 512) (j : Fin 64) :
    kernelRun0.sl.r_1 (F := Ideal) c arg2 harg2 argw hargw argb hargb x0 w bb (ix2 s j)
      = (∑ k : Fin 1024, x0 (ix3 0 s k) * w (ix2 k j)) + bb (ix1 j) := by
  unfold kernelRun0.sl.r_1
  rw [load_x, load_w, load_b]
  exact Pay.k0_pay8_apply x0 w bb s j

theorem r_2_apply (s : Fin 512) (j : Fin 64) :
    kernelRun0.sl.r_2 (F := Ideal) c arg2 harg2 argw hargw argb hargb x0 w bb (ix2 s j)
      = (∑ k : Fin 1024, x0 (ix3 0 s k) * w (ix2 k j)) + bb (ix1 j) := by
  unfold kernelRun0.sl.r_2
  rw [load_x, load_w, load_b]
  exact Pay.k0_pay9_apply x0 w bb s j

end Named

section NamedKeys

variable (c : Dev nD) (arg2 : Memref sig .tc .vmem S1x512x1024 .f32) (harg2 : arg2.IsWhole)
  (argw : Memref sig .tc .vmem S1024x64 .bf16) (hargw : argw.IsWhole) (argb : Memref sig .tc .vmem S64 .f32)
  (hargb : argb.IsWhole) (x0 : Vec Ideal S1x512x1024 .f32) (w : Vec Ideal S1024x64 .bf16) (bb : Vec Ideal S64 .f32)

/-- Head 0 of the keys, before its cast: the transposed first four columns of the keys' projection. -/
theorem r_3_eq :
    kernelRun0.sl.r_3 (F := Ideal) c arg2 harg2 argw hargw argb hargb x0 w bb = k0_pay11 (F := Ideal) x0 w bb := by
  unfold kernelRun0.sl.r_3
  rw [load_x, load_w, load_b]

end NamedKeys

/-! The projection body's three outputs as block functions of its input blocks. -/

theorem out0_7_eq (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec Ideal S1x512x1024 .f32) (x1 : Vec Ideal S1024x64 .bf16) (x2 : Vec Ideal S1024x64 .bf16) (x3 : Vec Ideal S1024x64 .bf16) (x4 : Vec Ideal S64 .f32) (x5 : Vec Ideal S64 .f32) (x6 : Vec Ideal S64 .f32) :
    out0_7 (F := Ideal) c i arg2 harg2 arg3 harg3 arg4 harg4 arg5 harg5 arg6 harg6 arg7 harg7 arg8 harg8 arg9 harg9 arg10 harg10 arg11 harg11 x0 x1 x2 x3 x4 x5 x6 = blk x0 x1 x4 := by
  funext y
  unfold out0_7
  rw [View.read_writes_eq_canon _ _ _ (cover0_7 c i arg2 harg2 arg3 harg3 arg4 harg4 arg5 harg5 arg6 harg6 arg7 harg7 arg8 harg8 arg9 harg9 arg10 harg10 arg11 harg11 x0 x1 x2 x3 x4 x5 x6)]
  refine View.canon_apply_of_pieces (blk x0 x1 x4) _ ?_ y (cover0_7 c i arg2 harg2 arg3 harg3 arg4 harg4 arg5 harg5 arg6 harg6 arg7 harg7 arg8 harg8 arg9 harg9 arg10 harg10 arg11 harg11 x0 x1 x2 x3 x4 x5 x6 y)
  unfold kernelRun0
  dsimp only
  rw [load_x, load_w, load_b]
  intro p hp x
  simp only [List.mem_cons, List.mem_nil_iff, or_false] at hp
  have hP := r_apply c arg2 harg2 arg3 harg3 arg6 harg6 x0 x1 x4
  rcases hp with rfl | rfl | rfl | rfl | rfl | rfl | rfl | rfl | rfl | rfl | rfl | rfl | rfl | rfl | rfl | rfl
  · exact piece_agrees x0 x1 x4 _ hP 15 (by omega) inb_S1x16x4x512_S1x1x4x512_0_15_0_0 _ (fun d s => ⟨_, by show 60 + d.val = _; omega, Pay.k0_pay3_apply _ d s⟩) x
  · exact piece_agrees x0 x1 x4 _ hP 14 (by omega) inb_S1x16x4x512_S1x1x4x512_0_14_0_0 _ (fun d s => ⟨_, by show 56 + d.val = _; omega, Pay.k0_pay59_apply _ d s⟩) x
  · exact piece_agrees x0 x1 x4 _ hP 13 (by omega) inb_S1x16x4x512_S1x1x4x512_0_13_0_0 _ (fun d s => ⟨_, by show 52 + d.val = _; omega, Pay.k0_pay56_apply _ d s⟩) x
  · exact piece_agrees x0 x1 x4 _ hP 12 (by omega) inb_S1x16x4x512_S1x1x4x512_0_12_0_0 _ (fun d s => ⟨_, by show 48 + d.val = _; omega, Pay.k0_pay52_apply _ d s⟩) x
  · exact piece_agrees x0 x1 x4 _ hP 11 (by omega) inb_S1x16x4x512_S1x1x4x512_0_11_0_0 _ (fun d s => ⟨_, by show 44 + d.val = _; omega, Pay.k0_pay49_apply _ d s⟩) x
  · exact piece_agrees x0 x1 x4 _ hP 10 (by omega) inb_S1x16x4x512_S1x1x4x512_0_10_0_0 _ (fun d s => ⟨_, by show 40 + d.val = _; omega, Pay.k0_pay45_apply _ d s⟩) x
  · exact piece_agrees x0 x1 x4 _ hP 9 (by omega) inb_S1x16x4x512_S1x1x4x512_0_9_0_0 _ (fun d s => ⟨_, by show 36 + d.val = _; omega, Pay.k0_pay42_apply _ d s⟩) x
  · exact piece_agrees x0 x1 x4 _ hP 8 (by omega) inb_S1x16x4x512_S1x1x4x512_0_8_0_0 _ (fun d s => ⟨_, by show 32 + d.val = _; omega, Pay.k0_pay38_apply _ d s⟩) x
  · exact piece_agrees x0 x1 x4 _ hP 7 (by omega) inb_S1x16x4x512_S1x1x4x512_0_7_0_0 _ (fun d s => ⟨_, by show 28 + d.val = _; omega, Pay.k0_pay35_apply _ d s⟩) x
  · exact piece_agrees x0 x1 x4 _ hP 6 (by omega) inb_S1x16x4x512_S1x1x4x512_0_6_0_0 _ (fun d s => ⟨_, by show 24 + d.val = _; omega, Pay.k0_pay31_apply _ d s⟩) x
  · exact piece_agrees x0 x1 x4 _ hP 5 (by omega) inb_S1x16x4x512_S1x1x4x512_0_5_0_0 _ (fun d s => ⟨_, by show 20 + d.val = _; omega, Pay.k0_pay28_apply _ d s⟩) x
  · exact piece_agrees x0 x1 x4 _ hP 4 (by omega) inb_S1x16x4x512_S1x1x4x512_0_4_0_0 _ (fun d s => ⟨_, by show 16 + d.val = _; omega, Pay.k0_pay24_apply _ d s⟩) x
  · exact piece_agrees x0 x1 x4 _ hP 3 (by omega) inb_S1x16x4x512_S1x1x4x512_0_3_0_0 _ (fun d s => ⟨_, by show 12 + d.val = _; omega, Pay.k0_pay21_apply _ d s⟩) x
  · exact piece_agrees x0 x1 x4 _ hP 2 (by omega) inb_S1x16x4x512_S1x1x4x512_0_2_0_0 _ (fun d s => ⟨_, by show 8 + d.val = _; omega, Pay.k0_pay17_apply _ d s⟩) x
  · exact piece_agrees x0 x1 x4 _ hP 1 (by omega) inb_S1x16x4x512_S1x1x4x512_0_1_0_0 _ (fun d s => ⟨_, by show 4 + d.val = _; omega, Pay.k0_pay14_apply _ d s⟩) x
  · exact piece_agrees x0 x1 x4 (k0_pay7 (F := Ideal) x0 x1 x4) (Pay.k0_pay7_apply x0 x1 x4) 0 (by omega) inb_S1x16x4x512_S1x1x4x512_0_0_0_0 _ (fun d s => ⟨_, by show d.val = _; omega, Pay.k0_pay10_apply x0 x1 x4 d s⟩) x

theorem out0_8_eq (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec Ideal S1x512x1024 .f32) (x1 : Vec Ideal S1024x64 .bf16) (x2 : Vec Ideal S1024x64 .bf16) (x3 : Vec Ideal S1024x64 .bf16) (x4 : Vec Ideal S64 .f32) (x5 : Vec Ideal S64 .f32) (x6 : Vec Ideal S64 .f32) :
    out0_8 (F := Ideal) c i arg2 harg2 arg3 harg3 arg4 harg4 arg5 harg5 arg6 harg6 arg7 harg7 arg8 harg8 arg9 harg9 arg10 harg10 arg11 harg11 x0 x1 x2 x3 x4 x5 x6 = blk x0 x2 x5 := by
  funext y
  unfold out0_8
  rw [View.read_writes_eq_canon _ _ _ (cover0_8 c i arg2 harg2 arg3 harg3 arg4 harg4 arg5 harg5 arg6 harg6 arg7 harg7 arg8 harg8 arg9 harg9 arg10 harg10 arg11 harg11 x0 x1 x2 x3 x4 x5 x6)]
  refine View.canon_apply_of_pieces (blk x0 x2 x5) _ ?_ y (cover0_8 c i arg2 harg2 arg3 harg3 arg4 harg4 arg5 harg5 arg6 harg6 arg7 harg7 arg8 harg8 arg9 harg9 arg10 harg10 arg11 harg11 x0 x1 x2 x3 x4 x5 x6 y)
  unfold kernelRun0
  dsimp only
  rw [r_3_eq]
  intro p hp x
  simp only [List.mem_cons, List.mem_nil_iff, or_false] at hp
  have hP := r_1_apply c arg2 harg2 arg4 harg4 arg7 harg7 x0 x2 x5
  rcases hp with rfl | rfl | rfl | rfl | rfl | rfl | rfl | rfl | rfl | rfl | rfl | rfl | rfl | rfl | rfl | rfl
  · exact piece_agrees x0 x2 x5 _ hP 15 (by omega) inb_S1x16x4x512_S1x1x4x512_0_15_0_0 _ (fun d s => ⟨_, by show 60 + d.val = _; omega, Pay.k0_pay4_apply _ d s⟩) x
  · exact piece_agrees x0 x2 x5 _ hP 14 (by omega) inb_S1x16x4x512_S1x1x4x512_0_14_0_0 _ (fun d s => ⟨_, by show 56 + d.val = _; omega, Pay.k0_pay1_k0_pay60_apply _ d s⟩) x
  · exact piece_agrees x0 x2 x5 _ hP 13 (by omega) inb_S1x16x4x512_S1x1x4x512_0_13_0_0 _ (fun d s => ⟨_, by show 52 + d.val = _; omega, Pay.k0_pay57_apply _ d s⟩) x
  · exact piece_agrees x0 x2 x5 _ hP 12 (by omega) inb_S1x16x4x512_S1x1x4x512_0_12_0_0 _ (fun d s => ⟨_, by show 48 + d.val = _; omega, Pay.k0_pay54_k0_pay53_apply _ d s⟩) x
  · exact piece_agrees x0 x2 x5 _ hP 11 (by omega) inb_S1x16x4x512_S1x1x4x512_0_11_0_0 _ (fun d s => ⟨_, by show 44 + d.val = _; omega, Pay.k0_pay50_apply _ d s⟩) x
  · exact piece_agrees x0 x2 x5 _ hP 10 (by omega) inb_S1x16x4x512_S1x1x4x512_0_10_0_0 _ (fun d s => ⟨_, by show 40 + d.val = _; omega, Pay.k0_pay47_k0_pay46_apply _ d s⟩) x
  · exact piece_agrees x0 x2 x5 _ hP 9 (by omega) inb_S1x16x4x512_S1x1x4x512_0_9_0_0 _ (fun d s => ⟨_, by show 36 + d.val = _; omega, Pay.k0_pay43_apply _ d s⟩) x
  · exact piece_agrees x0 x2 x5 _ hP 8 (by omega) inb_S1x16x4x512_S1x1x4x512_0_8_0_0 _ (fun d s => ⟨_, by show 32 + d.val = _; omega, Pay.k0_pay40_k0_pay39_apply _ d s⟩) x
  · exact piece_agrees x0 x2 x5 _ hP 7 (by omega) inb_S1x16x4x512_S1x1x4x512_0_7_0_0 _ (fun d s => ⟨_, by show 28 + d.val = _; omega, Pay.k0_pay36_apply _ d s⟩) x
  · exact piece_agrees x0 x2 x5 _ hP 6 (by omega) inb_S1x16x4x512_S1x1x4x512_0_6_0_0 _ (fun d s => ⟨_, by show 24 + d.val = _; omega, Pay.k0_pay33_k0_pay32_apply _ d s⟩) x
  · exact piece_agrees x0 x2 x5 _ hP 5 (by omega) inb_S1x16x4x512_S1x1x4x512_0_5_0_0 _ (fun d s => ⟨_, by show 20 + d.val = _; omega, Pay.k0_pay29_apply _ d s⟩) x
  · exact piece_agrees x0 x2 x5 _ hP 4 (by omega) inb_S1x16x4x512_S1x1x4x512_0_4_0_0 _ (fun d s => ⟨_, by show 16 + d.val = _; omega, Pay.k0_pay26_k0_pay25_apply _ d s⟩) x
  · exact piece_agrees x0 x2 x5 _ hP 3 (by omega) inb_S1x16x4x512_S1x1x4x512_0_3_0_0 _ (fun d s => ⟨_, by show 12 + d.val = _; omega, Pay.k0_pay22_apply _ d s⟩) x
  · exact piece_agrees x0 x2 x5 _ hP 2 (by omega) inb_S1x16x4x512_S1x1x4x512_0_2_0_0 _ (fun d s => ⟨_, by show 8 + d.val = _; omega, Pay.k0_pay19_k0_pay18_apply _ d s⟩) x
  · exact piece_agrees x0 x2 x5 _ hP 1 (by omega) inb_S1x16x4x512_S1x1x4x512_0_1_0_0 _ (fun d s => ⟨_, by show 4 + d.val = _; omega, Pay.k0_pay15_apply _ d s⟩) x
  · exact piece_agrees x0 x2 x5 (k0_pay8 (F := Ideal) x0 x2 x5) (Pay.k0_pay8_apply x0 x2 x5) 0 (by omega) inb_S1x16x4x512_S1x1x4x512_0_0_0_0 _ (fun d s => ⟨_, by show d.val = _; omega, Pay.k0_pay12_k0_pay11_apply x0 x2 x5 d s⟩) x

theorem out0_9_eq (c : Dev nD) (i : grid0.Coords) (arg2 : Memref sig .tc .vmem S1x512x1024 .f32) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S1x16x4x512 .f32) (harg9 : arg9.IsWhole) (arg10 : Memref sig .tc .vmem S1x16x4x512 .f32) (harg10 : arg10.IsWhole) (arg11 : Memref sig .tc .vmem S1x16x4x512 .f32) (harg11 : arg11.IsWhole)
    (x0 : Vec Ideal S1x512x1024 .f32) (x1 : Vec Ideal S1024x64 .bf16) (x2 : Vec Ideal S1024x64 .bf16) (x3 : Vec Ideal S1024x64 .bf16) (x4 : Vec Ideal S64 .f32) (x5 : Vec Ideal S64 .f32) (x6 : Vec Ideal S64 .f32) :
    out0_9 (F := Ideal) c i arg2 harg2 arg3 harg3 arg4 harg4 arg5 harg5 arg6 harg6 arg7 harg7 arg8 harg8 arg9 harg9 arg10 harg10 arg11 harg11 x0 x1 x2 x3 x4 x5 x6 = blk x0 x3 x6 := by
  funext y
  unfold out0_9
  rw [View.read_writes_eq_canon _ _ _ (cover0_9 c i arg2 harg2 arg3 harg3 arg4 harg4 arg5 harg5 arg6 harg6 arg7 harg7 arg8 harg8 arg9 harg9 arg10 harg10 arg11 harg11 x0 x1 x2 x3 x4 x5 x6)]
  refine View.canon_apply_of_pieces (blk x0 x3 x6) _ ?_ y (cover0_9 c i arg2 harg2 arg3 harg3 arg4 harg4 arg5 harg5 arg6 harg6 arg7 harg7 arg8 harg8 arg9 harg9 arg10 harg10 arg11 harg11 x0 x1 x2 x3 x4 x5 x6 y)
  unfold kernelRun0
  dsimp only
  intro p hp x
  simp only [List.mem_cons, List.mem_nil_iff, or_false] at hp
  have hP := r_2_apply c arg2 harg2 arg5 harg5 arg8 harg8 x0 x3 x6
  rcases hp with rfl | rfl | rfl | rfl | rfl | rfl | rfl | rfl | rfl | rfl | rfl | rfl | rfl | rfl | rfl | rfl
  · exact piece_agrees x0 x3 x6 _ hP 15 (by omega) inb_S1x16x4x512_S1x1x4x512_0_15_0_0 _ (fun d s => ⟨_, by show 60 + d.val = _; omega, Pay.k0_pay5_apply _ d s⟩) x
  · exact piece_agrees x0 x3 x6 _ hP 14 (by omega) inb_S1x16x4x512_S1x1x4x512_0_14_0_0 _ (fun d s => ⟨_, by show 56 + d.val = _; omega, Pay.k0_pay2_apply _ d s⟩) x
  · exact piece_agrees x0 x3 x6 _ hP 13 (by omega) inb_S1x16x4x512_S1x1x4x512_0_13_0_0 _ (fun d s => ⟨_, by show 52 + d.val = _; omega, Pay.k0_pay58_apply _ d s⟩) x
  · exact piece_agrees x0 x3 x6 _ hP 12 (by omega) inb_S1x16x4x512_S1x1x4x512_0_12_0_0 _ (fun d s => ⟨_, by show 48 + d.val = _; omega, Pay.k0_pay55_apply _ d s⟩) x
  · exact piece_agrees x0 x3 x6 _ hP 11 (by omega) inb_S1x16x4x512_S1x1x4x512_0_11_0_0 _ (fun d s => ⟨_, by show 44 + d.val = _; omega, Pay.k0_pay51_apply _ d s⟩) x
  · exact piece_agrees x0 x3 x6 _ hP 10 (by omega) inb_S1x16x4x512_S1x1x4x512_0_10_0_0 _ (fun d s => ⟨_, by show 40 + d.val = _; omega, Pay.k0_pay48_apply _ d s⟩) x
  · exact piece_agrees x0 x3 x6 _ hP 9 (by omega) inb_S1x16x4x512_S1x1x4x512_0_9_0_0 _ (fun d s => ⟨_, by show 36 + d.val = _; omega, Pay.k0_pay44_apply _ d s⟩) x
  · exact piece_agrees x0 x3 x6 _ hP 8 (by omega) inb_S1x16x4x512_S1x1x4x512_0_8_0_0 _ (fun d s => ⟨_, by show 32 + d.val = _; omega, Pay.k0_pay41_apply _ d s⟩) x
  · exact piece_agrees x0 x3 x6 _ hP 7 (by omega) inb_S1x16x4x512_S1x1x4x512_0_7_0_0 _ (fun d s => ⟨_, by show 28 + d.val = _; omega, Pay.k0_pay37_apply _ d s⟩) x
  · exact piece_agrees x0 x3 x6 _ hP 6 (by omega) inb_S1x16x4x512_S1x1x4x512_0_6_0_0 _ (fun d s => ⟨_, by show 24 + d.val = _; omega, Pay.k0_pay34_apply _ d s⟩) x
  · exact piece_agrees x0 x3 x6 _ hP 5 (by omega) inb_S1x16x4x512_S1x1x4x512_0_5_0_0 _ (fun d s => ⟨_, by show 20 + d.val = _; omega, Pay.k0_pay30_apply _ d s⟩) x
  · exact piece_agrees x0 x3 x6 _ hP 4 (by omega) inb_S1x16x4x512_S1x1x4x512_0_4_0_0 _ (fun d s => ⟨_, by show 16 + d.val = _; omega, Pay.k0_pay27_apply _ d s⟩) x
  · exact piece_agrees x0 x3 x6 _ hP 3 (by omega) inb_S1x16x4x512_S1x1x4x512_0_3_0_0 _ (fun d s => ⟨_, by show 12 + d.val = _; omega, Pay.k0_pay23_apply _ d s⟩) x
  · exact piece_agrees x0 x3 x6 _ hP 2 (by omega) inb_S1x16x4x512_S1x1x4x512_0_2_0_0 _ (fun d s => ⟨_, by show 8 + d.val = _; omega, Pay.k0_pay20_apply _ d s⟩) x
  · exact piece_agrees x0 x3 x6 _ hP 1 (by omega) inb_S1x16x4x512_S1x1x4x512_0_1_0_0 _ (fun d s => ⟨_, by show 4 + d.val = _; omega, Pay.k0_pay16_apply _ d s⟩) x
  · exact piece_agrees x0 x3 x6 _ hP 0 (by omega) inb_S1x16x4x512_S1x1x4x512_0_0_0_0 _ (fun d s => ⟨_, by show d.val = _; omega, Pay.k0_pay13_apply _ d s⟩) x

end Cert.KernelIdeal.Val

end
-- ==== Proof.Arr0.lean ====
import proofs.«117134_j33835752358170_2_alg».proof.Proof.Val0
import Idealize.ShloMosaic.Lib.Pipeline.Value

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Fr ValueIdx

/-! # From the projection call's blocks to its three arrays

Grid point (b, si) writes back block (b, 0, 0, si) of each output: rows 512·si … 512·si + 511 of batch b, every head
and head column. Its x block is block (b, si, 0) of x; the weights and the bias are whole arrays. The sixteen points'
blocks tile each [4,16,4,2048] array. -/

variable (V : (c : Dev nD) → (b : Ref sig .tc) → Buf (Elt Ideal) ((c : Thread nD τ).loc b))

/-- The printed index maps, decided over the grid. -/
theorem idx_facts0 : ∀ t : Fin cfg0.N,
    win0_0.index t (0 : Fin 3) = win0_7.index t (0 : Fin 4) ∧ win0_0.index t (1 : Fin 3) = win0_7.index t (3 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (1 : Fin 4) = 0 ∧ win0_7.index t (2 : Fin 4) = 0
    ∧ win0_7.index t (0 : Fin 4) ≤ 3 ∧ win0_7.index t (3 : Fin 4) ≤ 3
    ∧ win0_8.index t = win0_7.index t ∧ win0_9.index t = win0_7.index t :=
  (by decide +kernel : ∀ t : Fin grid0.N, _)

/-- Every block position (b, 0, 0, si) is some point's. -/
theorem idx_onto0 : ∀ (q0 : Fin 4) (q3 : Fin 4), ∃ t : Fin cfg0.N, win0_7.index t = ![q0.val, 0, 0, q3.val] :=
  (by decide +kernel : ∀ (q0 : Fin 4) (q3 : Fin 4), ∃ t : Fin grid0.N, win0_7.index t = ![q0.val, 0, 0, q3.val])

theorem hc_val (h : Fin 16) (d : Fin 4) : (hc h d).val = 4 * h.val + d.val := rfl

/-- What point `t` writes back into output 7 is block `t` of the array function. -/
theorem flushed7_eq (c : Dev nD) (t : Fin cfg0.N) :
    (dat0 V c).flushed 7 t = ((cfg0.win 7).blk t).view.read (Elt Ideal) (arr (V c main_arg0) (V c main_v2) (V c main_v9)) := by
  show (cfg0.win 7).cut (grid0.coords t) ((dat0 V c).after 7 t) = _
  rw [after0_7, out0_7_eq]
  obtain ⟨e0, e1, e2, e3, e4, e5, e6, e7, e8, e9, e10, e11, e12, e13, e14, e15, e16, e17⟩ := idx_facts0 t
  funext y
  show blk (iblk0 V c 0 t) (iblk0 V c 1 t) (iblk0 V c 4 t) y = arr (V c main_arg0) (V c main_v2) (V c main_v9) (((cfg0.win 7).blk t).view.emb y)
  unfold blk arr
  have hy0 : (y 0).val < 1 := (y 0).isLt
  have hy1 : (y 1).val < 16 := (y 1).isLt
  have hy2 : (y 2).val < 4 := (y 2).isLt
  have hy3 : (y 3).val < 512 := (y 3).isLt
  have hcol : (hc ((((cfg0.win 7).blk t).view.emb y) 1) ((((cfg0.win 7).blk t).view.emb y) 2)) = hc (y 1) (y 2) := by
    apply Fin.ext
    show 4 * (win0_7.index t (1 : Fin 4) * 16 + 1 * (y 1).val) + (win0_7.index t (2 : Fin 4) * 4 + 1 * (y 2).val) = 4 * (y 1).val + (y 2).val
    omega
  rw [hcol]
  have hb : iblk0 V c 4 t (ix1 (hc (y 1) (y 2))) = V c main_v9 (ix1 (hc (y 1) (y 2))) := by
    show V c main_v9 (((cfg0.win 4).blk t).view.emb (ix1 (hc (y 1) (y 2)))) = _
    refine congrArg _ (funext fun a => Fin.ext ?_)
    match a with
    | ⟨0, _⟩ => show win0_4.index t (0 : Fin 1) * 64 + 1 * (hc (y 1) (y 2)).val = (hc (y 1) (y 2)).val; omega
  rw [hb]
  refine congrArg (· + _) (Finset.sum_congr rfl fun cc _ => ?_)
  have hx : iblk0 V c 0 t (ix3 0 (y 3) cc) = V c main_arg0 (ix3 ((((cfg0.win 7).blk t).view.emb y) 0) ((((cfg0.win 7).blk t).view.emb y) 3) cc) := by
    show V c main_arg0 (((cfg0.win 0).blk t).view.emb (ix3 0 (y 3) cc)) = _
    refine congrArg _ (funext fun a => Fin.ext ?_)
    match a with
    | ⟨0, _⟩ => show win0_0.index t (0 : Fin 3) * 1 + 1 * 0 = win0_7.index t (0 : Fin 4) * 1 + 1 * (y 0).val; omega
    | ⟨1, _⟩ => show win0_0.index t (1 : Fin 3) * 512 + 1 * (y 3).val = win0_7.index t (3 : Fin 4) * 512 + 1 * (y 3).val; omega
    | ⟨2, _⟩ => show win0_0.index t (2 : Fin 3) * 1024 + 1 * cc.val = cc.val; omega
  have hw : iblk0 V c 1 t (ix2 cc (hc (y 1) (y 2))) = V c main_v2 (ix2 cc (hc (y 1) (y 2))) := by
    show V c main_v2 (((cfg0.win 1).blk t).view.emb (ix2 cc (hc (y 1) (y 2)))) = _
    refine congrArg _ (funext fun a => Fin.ext ?_)
    match a with
    | ⟨0, _⟩ => show win0_1.index t (0 : Fin 2) * 1024 + 1 * cc.val = cc.val; omega
    | ⟨1, _⟩ => show win0_1.index t (1 : Fin 2) * 64 + 1 * (hc (y 1) (y 2)).val = (hc (y 1) (y 2)).val; omega
  rw [hx, hw]

/-- An index of the array is in point `t`'s block iff each coordinate is in the block's range on its axis. -/
theorem mem_blk7 (t : Fin cfg0.N) (i : S4x16x4x2048.Idx) :
    i ∈ ((cfg0.win 7).blk t).view.set ↔ ∀ a : Fin 4, win0_7.index t a * S1x16x4x512.size a ≤ (i a).val ∧ (i a).val < win0_7.index t a * S1x16x4x512.size a + S1x16x4x512.size a := by
  show i ∈ ((View.whole main_v12_0).slice (win0_7.rect t)).set ↔ _
  rw [View.set_slice_whole, Rect.mem_set_unit]
  exact Iff.rfl

/-- Every index of the array is in some point's block. -/
theorem cover7 (i : S4x16x4x2048.Idx) : ∃ t : Fin cfg0.N, (cfg0.win 7).flush t = true ∧ i ∈ ((cfg0.win 7).blk t).view.set := by
  have hi0 : (i 0).val < 4 := (i 0).isLt
  have hi1 : (i 1).val < 16 := (i 1).isLt
  have hi2 : (i 2).val < 4 := (i 2).isLt
  have hi3 : (i 3).val < 2048 := (i 3).isLt
  obtain ⟨t, ht⟩ := idx_onto0 ⟨(i 0).val, hi0⟩ ⟨(i 3).val / 512, by omega⟩
  obtain ⟨e0, e1, e2, e3, e4, e5, e6, e7, e8, e9, e10, e11, e12, e13, e14, e15, e16, e17⟩ := idx_facts0 t
  have q0 : win0_7.index t (0 : Fin 4) = (i 0).val := congrFun ht 0
  have q1 : win0_7.index t (1 : Fin 4) = 0 := congrFun ht 1
  have q2 : win0_7.index t (2 : Fin 4) = 0 := congrFun ht 2
  have q3 : win0_7.index t (3 : Fin 4) = (i 3).val / 512 := congrFun ht 3
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 4 ≤ (i 2).val ∧ (i 2).val < win0_7.index t (2 : Fin 4) * 4 + 4; omega
  | ⟨3, _⟩ => show win0_7.index t (3 : Fin 4) * 512 ≤ (i 3).val ∧ (i 3).val < win0_7.index t (3 : Fin 4) * 512 + 512; omega

/-- Output 7's array after the projection call. -/
theorem arr0_7 (c : Dev nD) : (dat0 V c).arrAt 7 cfg0.N = arr (V c main_arg0) (V c main_v2) (V c main_v9) :=
  (dat0 V c).arrAt_eq_of_cover 7 _ (fun t _ => flushed7_eq V c t) cover7

/-- What point `t` writes back into output 8 is block `t` of the array function. -/
theorem flushed8_eq (c : Dev nD) (t : Fin cfg0.N) :
    (dat0 V c).flushed 8 t = ((cfg0.win 8).blk t).view.read (Elt Ideal) (arr (V c main_arg0) (V c main_v5) (V c main_v10)) := by
  show (cfg0.win 8).cut (grid0.coords t) ((dat0 V c).after 8 t) = _
  rw [after0_8, out0_8_eq]
  obtain ⟨e0, e1, e2, e3, e4, e5, e6, e7, e8, e9, e10, e11, e12, e13, e14, e15, e16, e17⟩ := idx_facts0 t
  funext y
  show blk (iblk0 V c 0 t) (iblk0 V c 2 t) (iblk0 V c 5 t) y = arr (V c main_arg0) (V c main_v5) (V c main_v10) (((cfg0.win 8).blk t).view.emb y)
  unfold blk arr
  have hy0 : (y 0).val < 1 := (y 0).isLt
  have hy1 : (y 1).val < 16 := (y 1).isLt
  have hy2 : (y 2).val < 4 := (y 2).isLt
  have hy3 : (y 3).val < 512 := (y 3).isLt
  have hcol : (hc ((((cfg0.win 8).blk t).view.emb y) 1) ((((cfg0.win 8).blk t).view.emb y) 2)) = hc (y 1) (y 2) := by
    apply Fin.ext
    show 4 * (win0_8.index t (1 : Fin 4) * 16 + 1 * (y 1).val) + (win0_8.index t (2 : Fin 4) * 4 + 1 * (y 2).val) = 4 * (y 1).val + (y 2).val
    rw [e16]; omega
  rw [hcol]
  have hb : iblk0 V c 5 t (ix1 (hc (y 1) (y 2))) = V c main_v10 (ix1 (hc (y 1) (y 2))) := by
    show V c main_v10 (((cfg0.win 5).blk t).view.emb (ix1 (hc (y 1) (y 2)))) = _
    refine congrArg _ (funext fun a => Fin.ext ?_)
    match a with
    | ⟨0, _⟩ => show win0_5.index t (0 : Fin 1) * 64 + 1 * (hc (y 1) (y 2)).val = (hc (y 1) (y 2)).val; omega
  rw [hb]
  refine congrArg (· + _) (Finset.sum_congr rfl fun cc _ => ?_)
  have hx : iblk0 V c 0 t (ix3 0 (y 3) cc) = V c main_arg0 (ix3 ((((cfg0.win 8).blk t).view.emb y) 0) ((((cfg0.win 8).blk t).view.emb y) 3) cc) := by
    show V c main_arg0 (((cfg0.win 0).blk t).view.emb (ix3 0 (y 3) cc)) = _
    refine congrArg _ (funext fun a => Fin.ext ?_)
    match a with
    | ⟨0, _⟩ => show win0_0.index t (0 : Fin 3) * 1 + 1 * 0 = win0_8.index t (0 : Fin 4) * 1 + 1 * (y 0).val; rw [e16]; omega
    | ⟨1, _⟩ => show win0_0.index t (1 : Fin 3) * 512 + 1 * (y 3).val = win0_8.index t (3 : Fin 4) * 512 + 1 * (y 3).val; rw [e16]; omega
    | ⟨2, _⟩ => show win0_0.index t (2 : Fin 3) * 1024 + 1 * cc.val = cc.val; omega
  have hw : iblk0 V c 2 t (ix2 cc (hc (y 1) (y 2))) = V c main_v5 (ix2 cc (hc (y 1) (y 2))) := by
    show V c main_v5 (((cfg0.win 2).blk t).view.emb (ix2 cc (hc (y 1) (y 2)))) = _
    refine congrArg _ (funext fun a => Fin.ext ?_)
    match a with
    | ⟨0, _⟩ => show win0_2.index t (0 : Fin 2) * 1024 + 1 * cc.val = cc.val; omega
    | ⟨1, _⟩ => show win0_2.index t (1 : Fin 2) * 64 + 1 * (hc (y 1) (y 2)).val = (hc (y 1) (y 2)).val; omega
  rw [hx, hw]

/-- An index of the array is in point `t`'s block iff each coordinate is in the block's range on its axis. -/
theorem mem_blk8 (t : Fin cfg0.N) (i : S4x16x4x2048.Idx) :
    i ∈ ((cfg0.win 8).blk t).view.set ↔ ∀ a : Fin 4, win0_8.index t a * S1x16x4x512.size a ≤ (i a).val ∧ (i a).val < win0_8.index t a * S1x16x4x512.size a + S1x16x4x512.size a := by
  show i ∈ ((View.whole main_v12_1).slice (win0_8.rect t)).set ↔ _
  rw [View.set_slice_whole, Rect.mem_set_unit]
  exact Iff.rfl

/-- Every index of the array is in some point's block. -/
theorem cover8 (i : S4x16x4x2048.Idx) : ∃ t : Fin cfg0.N, (cfg0.win 8).flush t = true ∧ i ∈ ((cfg0.win 8).blk t).view.set := by
  have hi0 : (i 0).val < 4 := (i 0).isLt
  have hi1 : (i 1).val < 16 := (i 1).isLt
  have hi2 : (i 2).val < 4 := (i 2).isLt
  have hi3 : (i 3).val < 2048 := (i 3).isLt
  obtain ⟨t, ht⟩ := idx_onto0 ⟨(i 0).val, hi0⟩ ⟨(i 3).val / 512, by omega⟩
  obtain ⟨e0, e1, e2, e3, e4, e5, e6, e7, e8, e9, e10, e11, e12, e13, e14, e15, e16, e17⟩ := idx_facts0 t
  have q0 : win0_7.index t (0 : Fin 4) = (i 0).val := congrFun ht 0
  have q1 : win0_7.index t (1 : Fin 4) = 0 := congrFun ht 1
  have q2 : win0_7.index t (2 : Fin 4) = 0 := congrFun ht 2
  have q3 : win0_7.index t (3 : Fin 4) = (i 3).val / 512 := congrFun ht 3
  refine ⟨t, flush0_8 t, ?_⟩
  rw [mem_blk8, e16]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 4 ≤ (i 2).val ∧ (i 2).val < win0_7.index t (2 : Fin 4) * 4 + 4; omega
  | ⟨3, _⟩ => show win0_7.index t (3 : Fin 4) * 512 ≤ (i 3).val ∧ (i 3).val < win0_7.index t (3 : Fin 4) * 512 + 512; omega

/-- Output 8's array after the projection call. -/
theorem arr0_8 (c : Dev nD) : (dat0 V c).arrAt 8 cfg0.N = arr (V c main_arg0) (V c main_v5) (V c main_v10) :=
  (dat0 V c).arrAt_eq_of_cover 8 _ (fun t _ => flushed8_eq V c t) cover8

/-- What point `t` writes back into output 9 is block `t` of the array function. -/
theorem flushed9_eq (c : Dev nD) (t : Fin cfg0.N) :
    (dat0 V c).flushed 9 t = ((cfg0.win 9).blk t).view.read (Elt Ideal) (arr (V c main_arg0) (V c main_v8) (V c main_v11)) := by
  show (cfg0.win 9).cut (grid0.coords t) ((dat0 V c).after 9 t) = _
  rw [after0_9, out0_9_eq]
  obtain ⟨e0, e1, e2, e3, e4, e5, e6, e7, e8, e9, e10, e11, e12, e13, e14, e15, e16, e17⟩ := idx_facts0 t
  funext y
  show blk (iblk0 V c 0 t) (iblk0 V c 3 t) (iblk0 V c 6 t) y = arr (V c main_arg0) (V c main_v8) (V c main_v11) (((cfg0.win 9).blk t).view.emb y)
  unfold blk arr
  have hy0 : (y 0).val < 1 := (y 0).isLt
  have hy1 : (y 1).val < 16 := (y 1).isLt
  have hy2 : (y 2).val < 4 := (y 2).isLt
  have hy3 : (y 3).val < 512 := (y 3).isLt
  have hcol : (hc ((((cfg0.win 9).blk t).view.emb y) 1) ((((cfg0.win 9).blk t).view.emb y) 2)) = hc (y 1) (y 2) := by
    apply Fin.ext
    show 4 * (win0_9.index t (1 : Fin 4) * 16 + 1 * (y 1).val) + (win0_9.index t (2 : Fin 4) * 4 + 1 * (y 2).val) = 4 * (y 1).val + (y 2).val
    rw [e17]; omega
  rw [hcol]
  have hb : iblk0 V c 6 t (ix1 (hc (y 1) (y 2))) = V c main_v11 (ix1 (hc (y 1) (y 2))) := by
    show V c main_v11 (((cfg0.win 6).blk t).view.emb (ix1 (hc (y 1) (y 2)))) = _
    refine congrArg _ (funext fun a => Fin.ext ?_)
    match a with
    | ⟨0, _⟩ => show win0_6.index t (0 : Fin 1) * 64 + 1 * (hc (y 1) (y 2)).val = (hc (y 1) (y 2)).val; omega
  rw [hb]
  refine congrArg (· + _) (Finset.sum_congr rfl fun cc _ => ?_)
  have hx : iblk0 V c 0 t (ix3 0 (y 3) cc) = V c main_arg0 (ix3 ((((cfg0.win 9).blk t).view.emb y) 0) ((((cfg0.win 9).blk t).view.emb y) 3) cc) := by
    show V c main_arg0 (((cfg0.win 0).blk t).view.emb (ix3 0 (y 3) cc)) = _
    refine congrArg _ (funext fun a => Fin.ext ?_)
    match a with
    | ⟨0, _⟩ => show win0_0.index t (0 : Fin 3) * 1 + 1 * 0 = win0_9.index t (0 : Fin 4) * 1 + 1 * (y 0).val; rw [e17]; omega
    | ⟨1, _⟩ => show win0_0.index t (1 : Fin 3) * 512 + 1 * (y 3).val = win0_9.index t (3 : Fin 4) * 512 + 1 * (y 3).val; rw [e17]; omega
    | ⟨2, _⟩ => show win0_0.index t (2 : Fin 3) * 1024 + 1 * cc.val = cc.val; omega
  have hw : iblk0 V c 3 t (ix2 cc (hc (y 1) (y 2))) = V c main_v8 (ix2 cc (hc (y 1) (y 2))) := by
    show V c main_v8 (((cfg0.win 3).blk t).view.emb (ix2 cc (hc (y 1) (y 2)))) = _
    refine congrArg _ (funext fun a => Fin.ext ?_)
    match a with
    | ⟨0, _⟩ => show win0_3.index t (0 : Fin 2) * 1024 + 1 * cc.val = cc.val; omega
    | ⟨1, _⟩ => show win0_3.index t (1 : Fin 2) * 64 + 1 * (hc (y 1) (y 2)).val = (hc (y 1) (y 2)).val; omega
  rw [hx, hw]

/-- An index of the array is in point `t`'s block iff each coordinate is in the block's range on its axis. -/
theorem mem_blk9 (t : Fin cfg0.N) (i : S4x16x4x2048.Idx) :
    i ∈ ((cfg0.win 9).blk t).view.set ↔ ∀ a : Fin 4, win0_9.index t a * S1x16x4x512.size a ≤ (i a).val ∧ (i a).val < win0_9.index t a * S1x16x4x512.size a + S1x16x4x512.size a := by
  show i ∈ ((View.whole main_v12_2).slice (win0_9.rect t)).set ↔ _
  rw [View.set_slice_whole, Rect.mem_set_unit]
  exact Iff.rfl

/-- Every index of the array is in some point's block. -/
theorem cover9 (i : S4x16x4x2048.Idx) : ∃ t : Fin cfg0.N, (cfg0.win 9).flush t = true ∧ i ∈ ((cfg0.win 9).blk t).view.set := by
  have hi0 : (i 0).val < 4 := (i 0).isLt
  have hi1 : (i 1).val < 16 := (i 1).isLt
  have hi2 : (i 2).val < 4 := (i 2).isLt
  have hi3 : (i 3).val < 2048 := (i 3).isLt
  obtain ⟨t, ht⟩ := idx_onto0 ⟨(i 0).val, hi0⟩ ⟨(i 3).val / 512, by omega⟩
  obtain ⟨e0, e1, e2, e3, e4, e5, e6, e7, e8, e9, e10, e11, e12, e13, e14, e15, e16, e17⟩ := idx_facts0 t
  have q0 : win0_7.index t (0 : Fin 4) = (i 0).val := congrFun ht 0
  have q1 : win0_7.index t (1 : Fin 4) = 0 := congrFun ht 1
  have q2 : win0_7.index t (2 : Fin 4) = 0 := congrFun ht 2
  have q3 : win0_7.index t (3 : Fin 4) = (i 3).val / 512 := congrFun ht 3
  refine ⟨t, flush0_9 t, ?_⟩
  rw [mem_blk9, e17]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 4 ≤ (i 2).val ∧ (i 2).val < win0_7.index t (2 : Fin 4) * 4 + 4; omega
  | ⟨3, _⟩ => show win0_7.index t (3 : Fin 4) * 512 ≤ (i 3).val ∧ (i 3).val < win0_7.index t (3 : Fin 4) * 512 + 512; omega

/-- Output 9's array after the projection call. -/
theorem arr0_9 (c : Dev nD) : (dat0 V c).arrAt 9 cfg0.N = arr (V c main_arg0) (V c main_v8) (V c main_v11) :=
  (dat0 V c).arrAt_eq_of_cover 9 _ (fun t _ => flushed9_eq V c t) cover9

end Cert.KernelIdeal.Val

end
-- ==== Proof.Val1.lean ====
/-
  What each case of the second kernel's body leaves in the carried accumulator and in the output block, as one pure
  term of the point's input blocks.

  At every grid point the body forms, from the point's query, key, value and output-weight blocks, one head's
  contribution P to a [512, 1024] slab of the result (the payload of the last matrix product) and adds it to the
  accumulator. In the first step of a row of sixteen the accumulator is first overwritten with zeros and read back, so
  the body leaves P + 0-block; in every later step it leaves P added to what the accumulator held; in the last step it
  also stores the accumulator plus the broadcast output bias as the output block. Each buffer is loaded and stored
  whole, so a load reads the contents and the last store's payload is what the buffer holds.
-/
import proofs.«117134_j33835752358170_2_alg».proof.Proof.KI.Region1
import Idealize.ShloMosaic.Lib.Pipeline.Value

set_option maxRecDepth 16384

noncomputable section

namespace Cert.KernelIdeal.Val

open Idealize.ShloMosaic Idealize.ShloMosaic.TcCoe Idealize.ShloMosaic.Tactic
open Cert.KernelIdeal Cert.KernelIdeal.Gen Cert.KernelIdeal.Fr

variable {F : FTy → Type} [FloatOps F]

/-- The zero offsets of a rank-1 … rank-4 rectangle, as the constant function. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First step of a row: the accumulator is zeroed, read back, and the head's contribution added to it. -/
theorem sout1_A_0_eq (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) :
    sout1_A_0 c i arg3 harg3 arg4 harg4 arg5 harg5 arg6 harg6 arg7 harg7 arg8 harg8 arg9 harg9 hc0 hc1 x0 x1 x2 x3 x4 = k1_pay1 (k1_pay4 x0 x1 x2 x3) k1_pay3 := by
  unfold sout1_A_0
  rw [View.read_writes_eq_canon _ _ _ (scover1_A_0 c i arg3 harg3 arg4 harg4 arg5 harg5 arg6 harg6 arg7 harg7 arg8 harg8 arg9 harg9 hc0 hc1 x0 x1 x2 x3 x4)]
  unfold kernelRun1_A
  dsimp only
  rw [View.canon_cons_unit_zero (S := S512x1024) hz2]
  simp only [kernelRun1_A.sl.r, kernelRun1_A.sl.v30, kernelRun1_A.sl.HS0_1]
  rw [View.readCov_unit_zero (S := S512x1024) _ hz2]
  simp only [View.readAt_eq_ld, harg3.read_unread, harg4.read_unread, harg5.read_unread, harg6.read_unread, harg7.read_unread, harg9.read_unread,
    View.ld_unit_zero (S := S1x1x4x512) hz4, View.ld_unit_zero (S := S1x1x4x2048) hz4, View.ld_unit_zero (S := S1x4x1024) hz3,
    View.ld_unit_zero (S := S1024) hz1, View.ld_unit_zero (S := S512x1024) hz2]

/-- A middle step: the head's contribution added to what the accumulator held. -/
theorem sout1_B_0_eq (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) :
    sout1_B_0 c i arg3 harg3 arg4 harg4 arg5 harg5 arg6 harg6 arg7 harg7 arg8 harg8 arg9 harg9 hc0 hc1 x0 x1 x2 x3 x4 xs0 = k1_pay1 (k1_pay4 x0 x1 x2 x3) xs0 := by
  unfold sout1_B_0
  rw [View.read_writes_eq_canon _ _ _ (scover1_B_0 c i arg3 harg3 arg4 harg4 arg5 harg5 arg6 harg6 arg7 harg7 arg8 harg8 arg9 harg9 hc0 hc1 x0 x1 x2 x3 x4 xs0)]
  unfold kernelRun1_B
  dsimp only
  rw [View.canon_unit_zero (S := S512x1024) hz2]
  simp only [kernelRun1_B.sl.r, kernelRun1_B.sl.r_1]
  simp only [View.readAt_eq_ld, harg3.read_unread, harg4.read_unread, harg5.read_unread, harg6.read_unread, harg7.read_unread, harg9.read_unread,
    View.ld_unit_zero (S := S1x1x4x512) hz4, View.ld_unit_zero (S := S1x1x4x2048) hz4, View.ld_unit_zero (S := S1x4x1024) hz3,
    View.ld_unit_zero (S := S1024) hz1, View.ld_unit_zero (S := S512x1024) hz2]

/-- The last step leaves the same in the accumulator … -/
theorem sout1_C_0_eq (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) :
    sout1_C_0 c i arg3 harg3 arg4 harg4 arg5 harg5 arg6 harg6 arg7 harg7 arg8 harg8 arg9 harg9 hc0 hc1 x0 x1 x2 x3 x4 xs0 = k1_pay1 (k1_pay4 x0 x1 x2 x3) xs0 := by
  unfold sout1_C_0
  rw [View.read_writes_eq_canon _ _ _ (scover1_C_0 c i arg3 harg3 arg4 harg4 arg5 harg5 arg6 harg6 arg7 harg7 arg8 harg8 arg9 harg9 hc0 hc1 x0 x1 x2 x3 x4 xs0)]
  unfold kernelRun1_C
  dsimp only
  simp only [kernelRun1_C.sl.HS0_1]
  rw [View.canon_unit_zero (S := S512x1024) hz2]
  simp only [kernelRun1_C.sl.r, kernelRun1_C.sl.r_1]
  simp only [View.readAt_eq_ld, harg3.read_unread, harg4.read_unread, harg5.read_unread, harg6.read_unread, harg7.read_unread, harg9.read_unread,
    View.ld_unit_zero (S := S1x1x4x512) hz4, View.ld_unit_zero (S := S1x1x4x2048) hz4, View.ld_unit_zero (S := S1x4x1024) hz3,
    View.ld_unit_zero (S := S1024) hz1, View.ld_unit_zero (S := S512x1024) hz2]

/-- … and stores the output block from it: the accumulator read back, plus the output bias broadcast over the rows. -/
theorem out1_C_5_eq (c : Dev nD) (i : grid1.Coords) (arg3 : Memref sig .tc .vmem S1x1x4x512 .f32) (harg3 : arg3.IsWhole) (arg4 : Memref sig .tc .vmem S1x1x4x2048 .f32) (harg4 : arg4.IsWhole) (arg5 : Memref sig .tc .vmem S1x1x4x2048 .f32) (harg5 : arg5.IsWhole) (arg6 : Memref sig .tc .vmem S1x4x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x1x4x512 .f32) (x1 : Vec F S1x1x4x2048 .f32) (x2 : Vec F S1x1x4x2048 .f32) (x3 : Vec F S1x4x1024 .bf16) (x4 : Vec F S1024 .f32) (xs0 : Vec F S512x1024 .f32) :
    out1_C_5 c i arg3 harg3 arg4 harg4 arg5 harg5 arg6 harg6 arg7 harg7 arg8 harg8 arg9 harg9 hc0 hc1 x0 x1 x2 x3 x4 xs0 = k1_pay2 (k1_pay1 (k1_pay4 x0 x1 x2 x3) xs0) x4 := by
  unfold out1_C_5
  rw [View.read_writes_eq_canon _ _ _ (cover1_C_5 c i arg3 harg3 arg4 harg4 arg5 harg5 arg6 harg6 arg7 harg7 arg8 harg8 arg9 harg9 hc0 hc1 x0 x1 x2 x3 x4 xs0)]
  unfold kernelRun1_C
  dsimp only
  rw [View.canon_unit_zero (S := S1x512x1024) hz3]
  simp only [kernelRun1_C.sl.v38, kernelRun1_C.sl.HS0_1]
  rw [View.readCov_unit_zero (S := S512x1024) _ hz2]
  simp only [kernelRun1_C.sl.r, kernelRun1_C.sl.r_1]
  simp only [View.readAt_eq_ld, harg3.read_unread, harg4.read_unread, harg5.read_unread, harg6.read_unread, harg7.read_unread, harg9.read_unread,
    View.ld_unit_zero (S := S1x1x4x512) hz4, View.ld_unit_zero (S := S1x1x4x2048) hz4, View.ld_unit_zero (S := S1x4x1024) hz3,
    View.ld_unit_zero (S := S1024) hz1, View.ld_unit_zero (S := S512x1024) hz2]

end Cert.KernelIdeal.Val

end
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibMatmulRowsByRows.lean ====
/-
  A matrix product "rows by rows", read at an entry.

  The product of an [m, k] matrix A with an [n, k] matrix B that contracts the SECOND axis of both (A · Bᵀ), accumulated
  into the zero matrix, has at entry (a, b) the sum over the k contracted positions c of A(a, c) · B(b, c). At the
  ideal values the product is the exact sum, so nothing of a chunking or an order of accumulation is left in it.
-/
import Idealize.ShloMosaic.PureOps.Ideal.Laws
import Idealize.ShloMosaic.Lib.ValueIdx

noncomputable section

namespace Idealize.ShloMosaic.ValueIdx

open Idealize.ShloMosaic

/-- A `tpu.matmul` of `[m, k]` by `[n, k]`, both contracting axis 1, into the zero accumulator: entry `(a, b)` is
    `∑ c, A (a, c) * B (b, c)`. `w` is the dimension record's well-formedness, which a program states. -/
theorem matmul_rows_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.ValueIdx

end
-- ==== Proof.LibMatmulColsByCols.lean ====
/-
  A matrix product "columns by columns", read at an entry.

  The product of a [k, m] matrix A with a [k, n] matrix B that contracts the FIRST axis of both (Aᵀ · B), accumulated
  into the zero matrix, has at entry (a, b) the sum over the k contracted positions c of A(c, a) · B(c, b). The general
  statement sums over the indices of a one-axis "contraction shape"; that index set is carried onto the k coordinates,
  and the two operand indices it names are (c, a) and (c, b).
-/
import Idealize.ShloMosaic.PureOps.Ideal.Laws
import Idealize.ShloMosaic.Lib.ValueIdx

open scoped BigOperators

namespace Idealize.ShloMosaic.ValueIdx

open Idealize.ShloMosaic

/-- A `tpu.matmul` of `[k, m]` by `[k, n]`, both contracting axis 0, into the zero accumulator: entry `(a, b)` is
    `∑ c, A (c, a) * B (c, b)`. `w` is the dimension record's well-formedness, which a program states. -/
theorem matmul_cols_cols_apply {m k n : ℕ} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    matmul (⟨[0], [0], [1], [1], [], [], w⟩ : DotDims ⟨2, ![k, m]⟩ ⟨2, ![k, n]⟩ ⟨2, ![m, n]⟩) prec A B
        (constant (F := Ideal) ⟨2, ![m, n]⟩ .f32 0x00000000#32) (ix2 a b)
      = ∑ c : Fin k, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«117134_j33835752358170_2_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.PayK1.lean ====
/-
  The attention body's values, read entry by entry.

  For a block of 512 queries of one head (4 columns), all 2048 keys and values of that head, and that head's 4 rows
  of the output projection, the body's product is, at (s, n), the sum over the head's 4 columns d of
  ((Σ_l p_l · v(d, l)) / L) · w(d, n), where p_l = exp(score(s, l) − max_l score(s, l)), L = Σ_l p_l and
  score(s, l) = (Σ_d q(d, s) · k(d, l)) · (1/8). The computation is cut into its stages — scores, row maximum,
  weights, total, head output, projection — each read at an entry by the matrix-product, row-reduction and
  layout lemmas; a narrowing of the number format changes nothing at the exact values.
-/
import proofs.«117134_j33835752358170_2_alg».proof.Proof.Gen.KernelIdeal.Skeleton
import proofs.«117134_j33835752358170_2_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«117134_j33835752358170_2_alg».proof.Proof.LibTileCast
import proofs.«117134_j33835752358170_2_alg».proof.Proof.LibColumnCast
import proofs.«117134_j33835752358170_2_alg».proof.Proof.LibColumnBroadcast
import proofs.«117134_j33835752358170_2_alg».proof.Proof.LibMatmulRowsByRows
import proofs.«117134_j33835752358170_2_alg».proof.Proof.LibPlainMatmul
import proofs.«117134_j33835752358170_2_alg».proof.Proof.LibMatmulColsByCols
import proofs.«117134_j33835752358170_2_alg».proof.Proof.LibLaneSum
import proofs.«117134_j33835752358170_2_alg».proof.Proof.LibLaneMax

noncomputable section

namespace Cert.KernelIdeal.Pay

open Idealize.ShloMosaic Cert.KernelIdeal Cert.KernelIdeal.Gen ValueIdx

/-- The scaled dot product of query `s` and key `l` of the blocks: `(Σ_d q(d, s) · k(d, l)) · (1/8)`. -/
def sc (v3 : Vec Ideal S1x1x4x512 .f32) (v6 : Vec Ideal S1x1x4x2048 .f32) (s : Fin 512) (l : Fin 2048) : EReal :=
  (∑ d : Fin 4, v3 (ix4 0 0 d s) * v6 (ix4 0 0 d l)) * Ideal.ofBits .f32 0x3E000000#32

/-- The word 0xFF800000 denotes −∞, the value a maximum starts from. -/
theorem ofBits_neg_infinity : Ideal.ofBits .f32 0xFF800000#32 = ⊥ := by
  simp [Ideal.ofBits, Ideal.ieee]

/-! ### The stages of the body -/

/-- The scores `[512, 2048]`: the query block transposed against the key block, times 1/8. -/
def kScores (v3 : Vec Ideal S1x1x4x512 .f32) (v6 : Vec Ideal S1x1x4x2048 .f32) : FVec Ideal S512x2048 .f32 :=
  have v4 : FVec Ideal S4x512 .f32 := shapeCast S4x512 v3 shapeCasts_S1x1x4x512_S4x512
  have v5 : FVec Ideal S4x512 .bf16 := truncf .bf16 v4 bitsLt_bf16_f32
  have v7 : FVec Ideal S4x2048 .f32 := shapeCast S4x2048 v6 shapeCasts_S1x1x4x2048_S4x2048
  have v8 : FVec Ideal S4x2048 .bf16 := truncf .bf16 v7 bitsLt_bf16_f32
  have cst : FVec Ideal S512x2048 .f32 := constant S512x2048 .f32 0x00000000#32
  have v12 : FVec Ideal S512x2048 .f32 := matmul dot_S4x512_S4x2048_S512x2048_0_0_1_1_n_n none v5 v8 cst
  have cst_12 : Ideal .f32 := Scalar.ofBits .f32 0x3E000000#32
  have v13 : FVec Ideal S512x2048 .f32 := broadcast S512x2048 cst_12
  mulf v12 v13

/-- The maximum of each row of scores, started from −∞. -/
def kRowMax (v14 : FVec Ideal S512x2048 .f32) : FVec Ideal S512 .f32 :=
  multiReduction .maximumf [1] S512 v14 0xFF800000#32 reduces_S512x2048_S512 (.inl rfl) rfl

/-- The unnormalised weights: the exponential of each score less its row's maximum. -/
def kWeights (v14 : FVec Ideal S512x2048 .f32) : FVec Ideal S512x2048 .f32 :=
  have v15 : FVec Ideal S512 .f32 := kRowMax v14
  have v16 : FVec Ideal S512x1 .f32 := shapeCast S512x1 v15 shapeCasts_S512_S512x1
  have v17 : FVec Ideal S512x2048 .f32 := broadcastTo S512x2048 v16 broadcasts_S512x1_S512x2048
  have v18 : FVec Ideal S512x2048 .f32 := subf v14 v17
  exp v18

/-- The total of each row of weights, started from zero. -/
def kTotal (v19 : FVec Ideal S512x2048 .f32) : FVec Ideal S512 .f32 :=
  multiReduction .add [1] S512 v19 0x00000000#32 reduces_S512x2048_S512 (.inl rfl) rfl

/-- The head's output `[512, 4]`: the weights against the value block, each row divided by its total. -/
def kHead (v19 : FVec Ideal S512x2048 .f32) (v9 : Vec Ideal S1x1x4x2048 .f32) : FVec Ideal S512x4 .f32 :=
  have v10 : FVec Ideal S4x2048 .f32 := shapeCast S4x2048 v9 shapeCasts_S1x1x4x2048_S4x2048
  have v11 : FVec Ideal S4x2048 .bf16 := truncf .bf16 v10 bitsLt_bf16_f32
  have v20 : FVec Ideal S512 .f32 := kTotal v19
  have v21 : FVec Ideal S512x1 .f32 := shapeCast S512x1 v20 shapeCasts_S512_S512x1
  have v22 : FVec Ideal S512x2048 .bf16 := truncf .bf16 v19 bitsLt_bf16_f32
  have cst_15 : FVec Ideal S512x4 .f32 := constant S512x4 .f32 0x00000000#32
  have v23 : FVec Ideal S512x4 .f32 := matmul dot_S512x2048_S4x2048_S512x4_1_1_0_0_n_n none v22 v11 cst_15
  have v24 : FVec Ideal S512x4 .f32 := broadcastTo S512x4 v21 broadcasts_S512x1_S512x4
  divf v23 v24

/-- The head's share of the output projection `[512, 1024]`. -/
def kOut (v25 : FVec Ideal S512x4 .f32) (v27 : Vec Ideal S1x4x1024 .bf16) : FVec Ideal S512x1024 .f32 :=
  have v26 : FVec Ideal S512x4 .bf16 := truncf .bf16 v25 bitsLt_bf16_f32
  have v28 : FVec Ideal S4x1024 .bf16 := shapeCast S4x1024 v27 shapeCasts_S1x4x1024_S4x1024
  have cst_19 : FVec Ideal S512x1024 .f32 := constant S512x1024 .f32 0x00000000#32
  matmul dot_S512x4_S4x1024_S512x1024_1_0_0_1_n_n none v26 v28 cst_19

/-- The body's product is the composition of the stages. -/
theorem k1_pay4_eq_stages (v3 : Vec Ideal S1x1x4x512 .f32) (v6 v9 : Vec Ideal S1x1x4x2048 .f32)
    (v27 : Vec Ideal S1x4x1024 .bf16) :
    k1_pay4 (F := Ideal) v3 v6 v9 v27 = kOut (kHead (kWeights (kScores v3 v6)) v9) v27 := rfl

/-! ### Each stage at an entry -/

theorem kScores_apply (v3 : Vec Ideal S1x1x4x512 .f32) (v6 : Vec Ideal S1x1x4x2048 .f32) (s : Fin 512) (l : Fin 2048) :
    kScores v3 v6 (ix2 s l) = sc v3 v6 s l := by
  refine congrArg (· * Ideal.ofBits .f32 0x3E000000#32) ?_
  refine (matmul_cols_cols_apply dot_S4x512_S4x2048_S512x2048_0_0_1_1_n_n_wf none _ _ s l).trans ?_
  refine Finset.sum_congr rfl fun d _ => ?_
  exact congrArg₂ (· * ·) (shapeCast_11ab_ab_apply v3 _ d s) (shapeCast_11ab_ab_apply v6 _ d l)

theorem kRowMax_apply (v14 : FVec Ideal S512x2048 .f32) (s : Fin 512) :
    kRowMax v14 (ix1 s) = Cert.Attn.rowMax fun l => v14 (ix2 s l) := by
  refine (multiReduction_maximumf_rows_apply v14 0xFF800000#32 reduces_S512x2048_S512 (.inl rfl) rfl s).trans ?_
  exact congrArg (fun z => (Finset.univ : Finset (Fin 2048)).fold max z fun c => v14 (ix2 s c)) ofBits_neg_infinity

theorem kWeights_apply (v14 : FVec Ideal S512x2048 .f32) (s : Fin 512) (l : Fin 2048) :
    kWeights v14 (ix2 s l) = Cert.Attn.wt (fun l => v14 (ix2 s l)) l := by
  refine congrArg (fun z => Ideal.exp (v14 (ix2 s l) - z)) ?_
  refine (broadcastTo_a1_ab_apply _ _ s l).trans ?_
  refine (shapeCast_a_a1_apply _ _ s 0).trans ?_
  exact kRowMax_apply v14 s

theorem kTotal_apply (v19 : FVec Ideal S512x2048 .f32) (s : Fin 512) :
    kTotal v19 (ix1 s) = ∑ l : Fin 2048, v19 (ix2 s l) :=
  multiReduction_add_rows_apply v19 0x00000000#32 reduces_S512x2048_S512 (.inl rfl) rfl s

theorem kHead_apply (v19 : FVec Ideal S512x2048 .f32) (v9 : Vec Ideal S1x1x4x2048 .f32) (s : Fin 512) (d : Fin 4) :
    kHead v19 v9 (ix2 s d)
      = Ideal.div (∑ l : Fin 2048, v19 (ix2 s l) * v9 (ix4 0 0 d l)) (∑ l : Fin 2048, v19 (ix2 s l)) := by
  refine congrArg₂ Ideal.div ?_ ?_
  · refine (matmul_rows_rows_apply dot_S512x2048_S4x2048_S512x4_1_1_0_0_n_n_wf none _ _ s d).trans ?_
    refine Finset.sum_congr rfl fun l _ => ?_
    exact congrArg (v19 (ix2 s l) * ·) (shapeCast_11ab_ab_apply v9 _ d l)
  · refine (broadcastTo_a1_ab_apply _ _ s d).trans ?_
    refine (shapeCast_a_a1_apply _ _ s 0).trans ?_
    exact kTotal_apply v19 s

theorem kOut_apply (v25 : FVec Ideal S512x4 .f32) (v27 : Vec Ideal S1x4x1024 .bf16) (s : Fin 512) (n : Fin 1024) :
    kOut v25 v27 (ix2 s n) = ∑ d : Fin 4, v25 (ix2 s d) * v27 (ix3 0 d n) := by
  refine (matmul_plain_zero_apply dot_S512x4_S4x1024_S512x1024_1_0_0_1_n_n_wf none _ _ s n).trans ?_
  refine Finset.sum_congr rfl fun d _ => ?_
  exact congrArg (v25 (ix2 s d) * ·) (shapeCast_1ab_ab_apply v27 _ d n)

/-! ### The body's four values -/

/-- The body's product at `(s, n)`: over the head's 4 columns, the normalised weighted sum of the values times the
    projection's entry. -/
theorem k1_pay4_apply (v3 : Vec Ideal S1x1x4x512 .f32) (v6 v9 : Vec Ideal S1x1x4x2048 .f32)
    (v27 : Vec Ideal S1x4x1024 .bf16) (s : Fin 512) (n : Fin 1024) :
    k1_pay4 (F := Ideal) v3 v6 v9 v27 (ix2 s n)
      = ∑ d : Fin 4, Ideal.div (∑ l : Fin 2048, Cert.Attn.wt (sc v3 v6 s) l * v9 (ix4 0 0 d l))
          (Cert.Attn.tot (sc v3 v6 s)) * v27 (ix3 0 d n) := by
  have hrow : (fun l => kScores v3 v6 (ix2 s l)) = sc v3 v6 s := funext fun l => kScores_apply v3 v6 s l
  have hw : ∀ l, kWeights (kScores v3 v6) (ix2 s l) = Cert.Attn.wt (sc v3 v6 s) l := fun l => by
    rw [kWeights_apply, hrow]
  rw [k1_pay4_eq_stages, kOut_apply]
  refine Finset.sum_congr rfl fun d _ => ?_
  rw [kHead_apply]
  simp only [hw]
  rfl

/-- The accumulator's update: the stored sum plus the head's share. -/
theorem k1_pay1_apply (v29 : FVec Ideal S512x1024 .f32) (v30 : Vec Ideal S512x1024 .f32) (s : Fin 512) (n : Fin 1024) :
    k1_pay1 v29 v30 (ix2 s n) = v30 (ix2 s n) + v29 (ix2 s n) := by
  show shapeCast S512x1024 (addf (F := Ideal) (φ := .f32) v30 v29) shapeCasts_S512x1024_S512x1024 (ix2 s n) = _
  exact congrFun (shapeCast_self (addf (F := Ideal) (φ := .f32) v30 v29) shapeCasts_S512x1024_S512x1024) (ix2 s n)

/-- The result: the accumulated sum plus the bias of column `n`. -/
theorem k1_pay2_apply (v38 : Vec Ideal S512x1024 .f32) (v39 : Vec Ideal S1024 .f32) (s : Fin 512) (n : Fin 1024) :
    k1_pay2 v38 v39 (ix3 0 s n) = v38 (ix2 s n) + v39 (ix1 n) := by
  show shapeCast S1x512x1024
      (addf (F := Ideal) (φ := .f32) v38
        (broadcastTo S512x1024 (shapeCast S1x1024 v39 shapeCasts_S1024_S1x1024) broadcasts_S1x1024_S512x1024))
      shapeCasts_S512x1024_S1x512x1024 (ix3 0 s n) = _
  refine (shapeCast_ab_1ab_apply _ shapeCasts_S512x1024_S1x512x1024 0 s n).trans ?_
  refine congrArg (v38 (ix2 s n) + ·) ?_
  refine (broadcastTo_1b_ab_apply _ _ s n).trans ?_
  exact shapeCast_a_1a_apply v39 _ 0 n

/-- The accumulator starts at zero. -/
theorem k1_pay3_apply (s : Fin 512) (n : Fin 1024) : k1_pay3 (F := Ideal) (ix2 s n) = 0 := by
  show shapeCast S512x1024 (broadcast S512x1024 (Scalar.ofBits (F := Ideal) .f32 0x00000000#32))
      shapeCasts_S512x1024_S512x1024 (ix2 s n) = _
  refine (congrFun (shapeCast_self (broadcast S512x1024 (Scalar.ofBits (F := Ideal) .f32 0x00000000#32))
      shapeCasts_S512x1024_S512x1024) (ix2 s n)).trans ?_
  exact Ideal.ofBits_zero_f32

end Cert.KernelIdeal.Pay

end
-- ==== Proof.Blk1.lean ====
/-
  The attention call's result as a function of what it reads: the three [4,16,4,2048] arrays the projection call
  left (queries, keys, values: entry (b, h, d, S)), the output weights split by head [16,4,1024] (entry (h, d, n))
  and the output bias [1024].

  For batch b, head h and query row S the score against key l is the dot product over the four head columns, times
  1/8; the weights are the exponentials of the scores minus their row maximum; a head's output column d is the
  weighted sum of the values divided by the weights' total; the result at (b, S, n) adds, over the sixteen heads and
  the four columns, the head output times the output weight, and then the bias (`arr1`).

  Fed with the projection call's arrays (`Val.arr`) over weights and biases that are the thirds of w_in and b_in,
  transposed, and with w_out transposed and split by head, it is the specification's `outKer` (`arr1_eq_outKer`):
  nothing but unfolding, since both spell the same sums.
-/
import proofs.«117134_j33835752358170_2_alg».proof.Proof.Blk0

noncomputable section

namespace Cert.KernelIdeal.Val

open Idealize.ShloMosaic ValueIdx Cert.Attn

abbrev SQ : Shape := ⟨4, ![4, 16, 4, 2048]⟩

/-- The scaled score of query row `s` against key `l`. -/
def scK (Qa Ka : SQ.Idx → EReal) (b : Fin 4) (h : Fin 16) (s l : Fin 2048) : EReal :=
  (∑ d : Fin 4, Qa (ix4 b h d s) * Ka (ix4 b h d l)) * Ideal.ofBits .f32 0x3E000000#32

/-- A head's output column. -/
def headK (Qa Ka Va : SQ.Idx → EReal) (b : Fin 4) (h : Fin 16) (s : Fin 2048) (d : Fin 4) : EReal :=
  Ideal.div (∑ l : Fin 2048, wt (scK Qa Ka b h s) l * Va (ix4 b h d l)) (tot (scK Qa Ka b h s))

/-- The attention call's result array. -/
def arr1 (Qa Ka Va : SQ.Idx → EReal) (Wo : (⟨3, ![16, 4, 1024]⟩ : Shape).Idx → EReal) (bo : (⟨1, ![1024]⟩ : Shape).Idx → EReal) :
    (⟨3, ![4, 2048, 1024]⟩ : Shape).Idx → EReal :=
  fun i => (∑ h : Fin 16, ∑ d : Fin 4, headK Qa Ka Va (i 0) h (i 1) d * Wo (ix3 h d (i 2))) + bo (ix1 (i 2))

/-- The argument arrays by coordinates. -/
def kargs (a0 : (⟨3, ![4, 2048, 1024]⟩ : Shape).Idx → EReal) (a1 : (⟨2, ![192, 1024]⟩ : Shape).Idx → EReal)
    (a2 : (⟨1, ![192]⟩ : Shape).Idx → EReal) (a3 : (⟨2, ![1024, 64]⟩ : Shape).Idx → EReal) (a4 : (⟨1, ![1024]⟩ : Shape).Idx → EReal) : Args :=
  ⟨fun b s c => a0 (ix3 b s c), fun j c => a1 (ix2 j c), fun j => a2 (ix1 j), fun n j => a3 (ix2 n j), fun n => a4 (ix1 n)⟩

section
variable (a0 : (⟨3, ![4, 2048, 1024]⟩ : Shape).Idx → EReal) (a1 : (⟨2, ![192, 1024]⟩ : Shape).Idx → EReal)
  (a2 : (⟨1, ![192]⟩ : Shape).Idx → EReal) (a3 : (⟨2, ![1024, 64]⟩ : Shape).Idx → EReal) (a4 : (⟨1, ![1024]⟩ : Shape).Idx → EReal)

/-- A projected array over a third of w_in and b_in (columns from `off`) is that third of the fused projection. -/
theorem arr_eq_proj (off : Nat) (hoff : off + 64 ≤ 192) (w : (⟨2, ![1024, 64]⟩ : Shape).Idx → EReal) (bb : (⟨1, ![64]⟩ : Shape).Idx → EReal)
    (hw : ∀ (c : Fin 1024) (h : Fin 16) (d : Fin 4), w (ix2 c (hcol h d)) = a1 (ix2 (col off hoff h d) c))
    (hb : ∀ (h : Fin 16) (d : Fin 4), bb (ix1 (hcol h d)) = a2 (ix1 (col off hoff h d)))
    (b : Fin 4) (h : Fin 16) (d : Fin 4) (s : Fin 2048) :
    arr a0 w bb (ix4 b h d s) = proj (kargs a0 a1 a2 a3 a4) b s (col off hoff h d) := by
  show (∑ c : Fin 1024, a0 (ix3 b s c) * w (ix2 c (hc h d))) + bb (ix1 (hc h d)) = (∑ c : Fin 1024, a0 (ix3 b s c) * a1 (ix2 (col off hoff h d) c)) + a2 (ix1 (col off hoff h d))
  rw [show hc h d = hcol h d from rfl, hb]
  exact congrArg (· + _) (Finset.sum_congr rfl fun c _ => by rw [hw])

variable (wq wk wv : (⟨2, ![1024, 64]⟩ : Shape).Idx → EReal) (bq bk bv : (⟨1, ![64]⟩ : Shape).Idx → EReal)
  (Wo : (⟨3, ![16, 4, 1024]⟩ : Shape).Idx → EReal)
  (hwq : ∀ (c : Fin 1024) (h : Fin 16) (d : Fin 4), wq (ix2 c (hcol h d)) = a1 (ix2 (col 0 (by omega) h d) c))
  (hwk : ∀ (c : Fin 1024) (h : Fin 16) (d : Fin 4), wk (ix2 c (hcol h d)) = a1 (ix2 (col 64 (by omega) h d) c))
  (hwv : ∀ (c : Fin 1024) (h : Fin 16) (d : Fin 4), wv (ix2 c (hcol h d)) = a1 (ix2 (col 128 (by omega) h d) c))
  (hbq : ∀ (h : Fin 16) (d : Fin 4), bq (ix1 (hcol h d)) = a2 (ix1 (col 0 (by omega) h d)))
  (hbk : ∀ (h : Fin 16) (d : Fin 4), bk (ix1 (hcol h d)) = a2 (ix1 (col 64 (by omega) h d)))
  (hbv : ∀ (h : Fin 16) (d : Fin 4), bv (ix1 (hcol h d)) = a2 (ix1 (col 128 (by omega) h d)))
  (hWo : ∀ (h : Fin 16) (d : Fin 4) (n : Fin 1024), Wo (ix3 h d n) = a3 (ix2 n (hcol h d)))

include hwq hwk hbq hbk in
theorem scK_eq (b : Fin 4) (h : Fin 16) (s : Fin 2048) :
    scK (arr a0 wq bq) (arr a0 wk bk) b h s = scoreKer (kargs a0 a1 a2 a3 a4) b h s := by
  funext l
  unfold scK scoreKer qk q k
  refine congrArg (· * _) (Finset.sum_congr rfl fun d _ => ?_)
  rw [arr_eq_proj a0 a1 a2 a3 a4 0 (by omega) wq bq hwq hbq, arr_eq_proj a0 a1 a2 a3 a4 64 (by omega) wk bk hwk hbk]

include hwq hwk hwv hbq hbk hbv in
theorem headK_eq (b : Fin 4) (h : Fin 16) (s : Fin 2048) (d : Fin 4) :
    headK (arr a0 wq bq) (arr a0 wk bk) (arr a0 wv bv) b h s d = headKer (kargs a0 a1 a2 a3 a4) b h s d := by
  unfold headK headKer
  rw [scK_eq a0 a1 a2 a3 a4 wq wk bq bk hwq hwk hbq hbk]
  refine congrArg (Ideal.div · _) (Finset.sum_congr rfl fun l _ => ?_)
  rw [arr_eq_proj a0 a1 a2 a3 a4 128 (by omega) wv bv hwv hbv]
  rfl

include hwq hwk hwv hbq hbk hbv hWo in
/-- Over the projection call's arrays the attention call's result is the specification's kernel form. -/
theorem arr1_eq_outKer :
    arr1 (arr a0 wq bq) (arr a0 wk bk) (arr a0 wv bv) Wo a4 = fun i => outKer (kargs a0 a1 a2 a3 a4) (i 0) (i 1) (i 2) := by
  funext i
  obtain ⟨b, s, n, rfl⟩ : ∃ (b : Fin 4) (s : Fin 2048) (n : Fin 1024), i = ix3 b s n := ⟨i 0, i 1, i 2, eq_ix3 i⟩
  show (∑ h : Fin 16, ∑ d : Fin 4, headK (arr a0 wq bq) (arr a0 wk bk) (arr a0 wv bv) b h s d * Wo (ix3 h d n)) + a4 (ix1 n)
    = (∑ h : Fin 16, ∑ d : Fin 4, headKer (kargs a0 a1 a2 a3 a4) b h s d * a3 (ix2 n (hcol h d))) + a4 (ix1 n)
  refine congrArg (· + _) (Finset.sum_congr rfl fun h _ => Finset.sum_congr rfl fun d _ => ?_)
  rw [headK_eq a0 a1 a2 a3 a4 wq wk wv bq bk bv hwq hwk hwv hbq hbk hbv, hWo]

end

end Cert.KernelIdeal.Val

end
-- ==== Proof.Arr1.lean ====
import proofs.«117134_j33835752358170_2_alg».proof.Proof.KI.Region1
import proofs.«117134_j33835752358170_2_alg».proof.Proof.Val1
import proofs.«117134_j33835752358170_2_alg».proof.Proof.PayK1
import proofs.«117134_j33835752358170_2_alg».proof.Proof.Blk1
import Idealize.ShloMosaic.Lib.Pipeline.Value

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Fr ValueIdx Cert.KernelIdeal.Pay

/-! # From the attention call's grid points to its result array

Point t = 64·b + 16·si + h handles batch b, query rows 512·si … 512·si + 511 and head h. Within a group of sixteen
points (one (b, si), heads 0 … 15) the accumulator holds, after head h, the sum of the head products of heads 0 … h;
the last point adds the bias and stores the block, the only one of the group written back. -/

variable (V : (c : Dev nD) → (b : Ref sig .tc) → Buf (Elt Ideal) ((c : Thread nD τ).loc b))

/-- The head product at point `t`: that head's normalised attention output times its four rows of output weights. -/
def prodAt (c : Dev nD) (t : Fin cfg1.N) : Vec Ideal S512x1024 .f32 :=
  k1_pay4 (F := Ideal) (iblk1 V c 0 t) (iblk1 V c 1 t) (iblk1 V c 2 t) (iblk1 V c 3 t)

/-- The same by the point's number. -/
def prodN (c : Dev nD) (n : ℕ) : S512x1024.Idx → EReal := fun j => if h : n < cfg1.N then prodAt V c ⟨n, h⟩ j else 0

theorem outsAt1_congr (c : Dev nD) (n n' : ℕ) (hn : n < cfg1.N) (hn' : n' < cfg1.N) (e : n = n') :
    outsAt1 V c n hn = outsAt1 V c n' hn' := by subst e; rfl

/-- THE ACCUMULATOR within a group starting at `b16`: after its point number `k` it holds the first `k + 1` head products' sum. -/
theorem acc_eq (c : Dev nD) (b16 : ℕ) (hb : b16 % 16 = 0) : ∀ (k : ℕ) (hk : k < 16) (hlt : b16 + k < cfg1.N) (s : Fin 512) (n : Fin 1024),
    (outsAt1 V c (b16 + k) hlt).2 (ix2 s n) = ∑ i ∈ Finset.range (k + 1), prodN V c (b16 + i) (ix2 s n) := by
  intro k
  induction k with
  | zero =>
    intro hk hlt s n
    have e := congrArg Prod.snd (outsAt1_A V c ⟨b16 + 0, hlt⟩ (by show (b16 + 0) % 16 = 0; omega) (by show ¬ (b16 + 0) % 16 = 15; omega))
    rw [show (outsAt1 V c (b16 + 0) hlt).2 = _ from e]
    dsimp only
    rw [sout1_A_0_eq, Finset.sum_range_one]
    show k1_pay1 (F := Ideal) (prodAt V c ⟨b16 + 0, hlt⟩) (k1_pay3 (F := Ideal)) (ix2 s n) = _
    rw [k1_pay1_apply, k1_pay3_apply, zero_add]
    unfold prodN; rw [dif_pos hlt]
  | succ k ih =>
    intro hk hlt s n
    have hlt' : b16 + k < cfg1.N := by omega
    have h0 : ¬ (b16 + (k + 1)) % 16 = 0 := by omega
    rw [Finset.sum_range_succ, ← ih (by omega) hlt' s n]
    have hprev : ∀ hp, (outsAt1 V c ((⟨b16 + (k + 1), hlt⟩ : Fin cfg1.N).val - 1) hp).2 = (outsAt1 V c (b16 + k) hlt').2 :=
      fun hp => congrArg Prod.snd (outsAt1_congr V c _ _ hp hlt' (by show b16 + (k + 1) - 1 = b16 + k; omega))
    have hP : prodN V c (b16 + (k + 1)) (ix2 s n) = prodAt V c ⟨b16 + (k + 1), hlt⟩ (ix2 s n) := by unfold prodN; rw [dif_pos hlt]
    by_cases h1 : (b16 + (k + 1)) % 16 = 15
    · have e := congrArg Prod.snd (outsAt1_C V c ⟨b16 + (k + 1), hlt⟩ h0 h1)
      rw [show (outsAt1 V c (b16 + (k + 1)) hlt).2 = _ from e]
      dsimp only
      rw [sout1_C_0_eq, hprev, hP]
      show k1_pay1 (F := Ideal) (prodAt V c ⟨b16 + (k + 1), hlt⟩) (outsAt1 V c (b16 + k) hlt').2 (ix2 s n) = _
      rw [k1_pay1_apply]
    · have e := congrArg Prod.snd (outsAt1_B V c ⟨b16 + (k + 1), hlt⟩ h0 h1)
      rw [show (outsAt1 V c (b16 + (k + 1)) hlt).2 = _ from e]
      dsimp only
      rw [sout1_B_0_eq, hprev, hP]
      show k1_pay1 (F := Ideal) (prodAt V c ⟨b16 + (k + 1), hlt⟩) (outsAt1 V c (b16 + k) hlt').2 (ix2 s n) = _
      rw [k1_pay1_apply]

/-- THE OUTPUT BLOCK at a group's last point: the sixteen head products' sum plus the bias. -/
theorem out_last (c : Dev nD) (t : Fin cfg1.N) (h15 : t.val % 16 = 15) (s : Fin 512) (n : Fin 1024) :
    (outsAt1 V c t.val t.isLt).1 (ix3 0 s n) = (∑ i ∈ Finset.range 16, prodN V c (t.val - 15 + i) (ix2 s n)) + iblk1 V c 4 t (ix1 n) := by
  have hN : cfg1.N = 256 := N_1
  have htl := t.isLt
  have h0 : ¬ t.val % 16 = 0 := by omega
  have e := congrArg Prod.fst (outsAt1_C V c t h0 h15)
  rw [show (outsAt1 V c t.val t.isLt).1 = _ from e]
  dsimp only
  rw [out1_C_5_eq]
  have hlt14 : t.val - 15 + 14 < cfg1.N := by omega
  have hprev : ∀ hp, (outsAt1 V c (t.val - 1) hp).2 = (outsAt1 V c (t.val - 15 + 14) hlt14).2 :=
    fun hp => congrArg Prod.snd (outsAt1_congr V c _ _ hp hlt14 (by omega))
  rw [hprev]
  show k1_pay2 (F := Ideal) (k1_pay1 (F := Ideal) (prodAt V c t) (outsAt1 V c (t.val - 15 + 14) hlt14).2) (iblk1 V c 4 t) (ix3 0 s n) = _
  rw [k1_pay2_apply]
  show k1_pay1 (F := Ideal) (prodAt V c t) (outsAt1 V c (t.val - 15 + 14) hlt14).2 (ix2 s n) + _ = _
  rw [k1_pay1_apply, acc_eq V c (t.val - 15) (by omega) 14 (by omega) hlt14 s n, Finset.sum_range_succ _ 15]
  have hP : prodN V c (t.val - 15 + 15) (ix2 s n) = prodAt V c t (ix2 s n) := by
    unfold prodN
    have ht : t.val - 15 + 15 = t.val := by omega
    rw [dif_pos (by omega : t.val - 15 + 15 < cfg1.N)]
    exact congrArg (fun u => prodAt V c u (ix2 s n)) (Fin.ext ht)
  rw [hP]

/-! ## The windows' blocks, by the point's number -/

/-- The printed index maps in closed form, decided over the 256 points. -/
theorem idx_facts1 : ∀ t : Fin cfg1.N,
    win1_0.index t (0 : Fin 4) = t.val / 64 ∧ win1_0.index t (1 : Fin 4) = t.val % 16 ∧ win1_0.index t (2 : Fin 4) = 0 ∧ win1_0.index t (3 : Fin 4) = t.val / 16 % 4
    ∧ win1_1.index t (0 : Fin 4) = t.val / 64 ∧ win1_1.index t (1 : Fin 4) = t.val % 16 ∧ win1_1.index t (2 : Fin 4) = 0 ∧ win1_1.index t (3 : Fin 4) = 0
    ∧ win1_2.index t (0 : Fin 4) = t.val / 64 ∧ win1_2.index t (1 : Fin 4) = t.val % 16 ∧ win1_2.index t (2 : Fin 4) = 0 ∧ win1_2.index t (3 : Fin 4) = 0
    ∧ win1_3.index t (0 : Fin 3) = t.val % 16 ∧ win1_3.index t (1 : Fin 3) = 0 ∧ win1_3.index t (2 : Fin 3) = 0
    ∧ win1_4.index t (0 : Fin 1) = 0
    ∧ win1_5.index t (0 : Fin 3) = t.val / 64 ∧ win1_5.index t (1 : Fin 3) = t.val / 16 % 4 ∧ win1_5.index t (2 : Fin 3) = 0 :=
  (by decide +kernel : ∀ t : Fin grid1.N, _)

/-- The head product at point `t` (batch `b`, head `h`, query row `S` of the whole sequence) in terms of the arrays the
    region finds: that head's output columns times its rows of the output weights. -/
theorem prodAt_eq (c : Dev nD) (t : Fin cfg1.N) (s : Fin 512) (n : Fin 1024) (b : Fin 4) (h : Fin 16) (S : Fin 2048)
    (hb : b.val = t.val / 64) (hh : h.val = t.val % 16) (hS : S.val = t.val / 16 % 4 * 512 + s.val) :
    prodAt V c t (ix2 s n) = ∑ d : Fin 4, headK (V c main_v12_0) (V c main_v12_1) (V c main_v12_2) b h S d * V c main_v15 (ix3 h d n) := by
  obtain ⟨e0, e1, e2, e3, f0, f1, f2, f3, g0, g1, g2, g3, w0, w1, w2, b0, o0, o1, o2⟩ := idx_facts1 t
  have hq : ∀ d' : Fin 4, iblk1 V c 0 t (ix4 0 0 d' s) = V c main_v12_0 (ix4 b h d' S) := fun d' => by
    show V c main_v12_0 (((cfg1.win 0).blk t).view.emb (ix4 0 0 d' s)) = _
    refine congrArg _ (funext fun a => Fin.ext ?_)
    match a with
    | ⟨0, _⟩ => show win1_0.index t (0 : Fin 4) * 1 + 1 * 0 = b.val; omega
    | ⟨1, _⟩ => show win1_0.index t (1 : Fin 4) * 1 + 1 * 0 = h.val; omega
    | ⟨2, _⟩ => show win1_0.index t (2 : Fin 4) * 4 + 1 * d'.val = d'.val; omega
    | ⟨3, _⟩ => show win1_0.index t (3 : Fin 4) * 512 + 1 * s.val = S.val; omega
  have hk : ∀ (d' : Fin 4) (l : Fin 2048), iblk1 V c 1 t (ix4 0 0 d' l) = V c main_v12_1 (ix4 b h d' l) := fun d' l => by
    show V c main_v12_1 (((cfg1.win 1).blk t).view.emb (ix4 0 0 d' l)) = _
    refine congrArg _ (funext fun a => Fin.ext ?_)
    match a with
    | ⟨0, _⟩ => show win1_1.index t (0 : Fin 4) * 1 + 1 * 0 = b.val; omega
    | ⟨1, _⟩ => show win1_1.index t (1 : Fin 4) * 1 + 1 * 0 = h.val; omega
    | ⟨2, _⟩ => show win1_1.index t (2 : Fin 4) * 4 + 1 * d'.val = d'.val; omega
    | ⟨3, _⟩ => show win1_1.index t (3 : Fin 4) * 2048 + 1 * l.val = l.val; omega
  have hv : ∀ (d' : Fin 4) (l : Fin 2048), iblk1 V c 2 t (ix4 0 0 d' l) = V c main_v12_2 (ix4 b h d' l) := fun d' l => by
    show V c main_v12_2 (((cfg1.win 2).blk t).view.emb (ix4 0 0 d' l)) = _
    refine congrArg _ (funext fun a => Fin.ext ?_)
    match a with
    | ⟨0, _⟩ => show win1_2.index t (0 : Fin 4) * 1 + 1 * 0 = b.val; omega
    | ⟨1, _⟩ => show win1_2.index t (1 : Fin 4) * 1 + 1 * 0 = h.val; omega
    | ⟨2, _⟩ => show win1_2.index t (2 : Fin 4) * 4 + 1 * d'.val = d'.val; omega
    | ⟨3, _⟩ => show win1_2.index t (3 : Fin 4) * 2048 + 1 * l.val = l.val; omega
  have hw : ∀ d' : Fin 4, iblk1 V c 3 t (ix3 0 d' n) = V c main_v15 (ix3 h d' n) := fun d' => by
    show V c main_v15 (((cfg1.win 3).blk t).view.emb (ix3 0 d' n)) = _
    refine congrArg _ (funext fun a => Fin.ext ?_)
    match a with
    | ⟨0, _⟩ => show win1_3.index t (0 : Fin 3) * 1 + 1 * 0 = h.val; omega
    | ⟨1, _⟩ => show win1_3.index t (1 : Fin 3) * 4 + 1 * d'.val = d'.val; omega
    | ⟨2, _⟩ => show win1_3.index t (2 : Fin 3) * 1024 + 1 * n.val = n.val; omega
  have hsc : sc (iblk1 V c 0 t) (iblk1 V c 1 t) s = scK (V c main_v12_0) (V c main_v12_1) b h S := by
    funext l
    unfold sc scK
    exact congrArg (· * _) (Finset.sum_congr rfl fun d' _ => by rw [hq, hk])
  unfold prodAt
  rw [k1_pay4_apply]
  refine Finset.sum_congr rfl fun d _ => ?_
  unfold headK
  rw [hsc, hw]
  exact congrArg (fun u => Ideal.div u _ * _) (Finset.sum_congr rfl fun l _ => by rw [hv])

/-- What a group's last point writes back is its block of the result array. -/
theorem flushed5_eq (c : Dev nD) (t : Fin cfg1.N) (hf : (cfg1.win 5).flush t = true) :
    (dat1 V c).flushed 5 t = ((cfg1.win 5).blk t).view.read (Elt Ideal)
      (arr1 (V c main_v12_0) (V c main_v12_1) (V c main_v12_2) (V c main_v15) (V c main_arg4)) := by
  have hN : cfg1.N = 256 := N_1
  have htl := t.isLt
  have h15 : t.val % 16 = 15 := (flush1_5 t).mp hf
  obtain ⟨e0, e1, e2, e3, f0, f1, f2, f3, g0, g1, g2, g3, w0, w1, w2, b0, o0, o1, o2⟩ := idx_facts1 t
  show (cfg1.win 5).cut (grid1.coords t) ((dat1 V c).after 5 t) = _
  rw [after1_5]
  funext y
  obtain ⟨z, s, n, rfl⟩ : ∃ (z : Fin 1) (s : Fin 512) (n : Fin 1024), y = ix3 z s n := ⟨y 0, y 1, y 2, eq_ix3 y⟩
  obtain rfl : z = 0 := Subsingleton.elim _ _
  have hemb : ((cfg1.win 5).blk t).view.emb (ix3 (0 : Fin 1) s n)
      = ix3 (⟨t.val / 64, by omega⟩ : Fin 4) (⟨t.val / 16 % 4 * 512 + s.val, by have := s.isLt; omega⟩ : Fin 2048) n := by
    funext a; apply Fin.ext
    match a with
    | ⟨0, _⟩ => show win1_5.index t (0 : Fin 3) * 1 + 1 * 0 = t.val / 64; omega
    | ⟨1, _⟩ => show win1_5.index t (1 : Fin 3) * 512 + 1 * s.val = t.val / 16 % 4 * 512 + s.val; omega
    | ⟨2, _⟩ => show win1_5.index t (2 : Fin 3) * 1024 + 1 * n.val = n.val; omega
  show (outsAt1 V c t.val t.isLt).1 (ix3 0 s n) = arr1 (V c main_v12_0) (V c main_v12_1) (V c main_v12_2) (V c main_v15) (V c main_arg4) (((cfg1.win 5).blk t).view.emb (ix3 (0 : Fin 1) s n))
  rw [out_last V c t h15 s n, hemb]
  show _ = (∑ h : Fin 16, ∑ d : Fin 4, headK (V c main_v12_0) (V c main_v12_1) (V c main_v12_2) (⟨t.val / 64, by omega⟩ : Fin 4) h (⟨t.val / 16 % 4 * 512 + s.val, by have := s.isLt; omega⟩ : Fin 2048) d * V c main_v15 (ix3 h d n)) + V c main_arg4 (ix1 n)
  rw [Finset.sum_range]
  have hbias : iblk1 V c 4 t (ix1 n) = V c main_arg4 (ix1 n) := by
    show V c main_arg4 (((cfg1.win 4).blk t).view.emb (ix1 n)) = _
    refine congrArg _ (funext fun a => Fin.ext ?_)
    match a with
    | ⟨0, _⟩ => show win1_4.index t (0 : Fin 1) * 1024 + 1 * n.val = n.val; omega
  rw [hbias]
  refine congrArg (· + _) (Finset.sum_congr rfl fun h _ => ?_)
  have hh := h.isLt
  have hlt : t.val - 15 + h.val < cfg1.N := by omega
  unfold prodN
  rw [dif_pos hlt]
  exact prodAt_eq V c ⟨t.val - 15 + h.val, hlt⟩ s n _ h _ (by show t.val / 64 = (t.val - 15 + h.val) / 64; omega)
    (by show h.val = (t.val - 15 + h.val) % 16; omega) (by show t.val / 16 % 4 * 512 + s.val = (t.val - 15 + h.val) / 16 % 4 * 512 + s.val; omega)

/-- An index of the result array is in point `t`'s block iff each coordinate is in the block's range on its axis. -/
theorem mem_blk5 (t : Fin cfg1.N) (i : S4x2048x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v16).slice (win1_5.rect t)).set ↔ _
  rw [View.set_slice_whole, Rect.mem_set_unit]
  exact Iff.rfl

/-- Every index of the result array is in the block of the last point of its group. -/
theorem cover5 (i : S4x2048x1024.Idx) : ∃ t : Fin cfg1.N, (cfg1.win 5).flush t = true ∧ i ∈ ((cfg1.win 5).blk t).view.set := by
  have hN : cfg1.N = 256 := N_1
  have hi0 : (i 0).val < 4 := (i 0).isLt
  have hi1 : (i 1).val < 2048 := (i 1).isLt
  have hi2 : (i 2).val < 1024 := (i 2).isLt
  let t : Fin cfg1.N := ⟨((i 0).val * 4 + (i 1).val / 512) * 16 + 15, by omega⟩
  have htv : t.val = ((i 0).val * 4 + (i 1).val / 512) * 16 + 15 := rfl
  obtain ⟨e0, e1, e2, e3, f0, f1, f2, f3, g0, g1, g2, g3, w0, w1, w2, b0, o0, o1, o2⟩ := idx_facts1 t
  refine ⟨t, (flush1_5 t).mpr (by omega), ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

/-- The result array after the attention call. -/
theorem arr1_5 (c : Dev nD) : (dat1 V c).arrAt 5 cfg1.N
    = arr1 (V c main_v12_0) (V c main_v12_1) (V c main_v12_2) (V c main_v15) (V c main_arg4) :=
  (dat1 V c).arrAt_eq_of_cover 5 _ (fun t hf => flushed5_eq V c t hf) (cover5)

end Cert.KernelIdeal.Val

end
-- ==== Proof.HostStages.lean ====
/-
  The kernel program's two stretches of host operations, read at an index.

  Before the first kernel region the program cuts w_in : [192, 1024] into three blocks of 64 rows (the queries', keys'
  and values' weights), transposes each to [1024, 64] and narrows it to bf16 — at the extended reals a change of float
  format is the identity — and cuts b_in : [192] into three blocks of 64. So entry (c, j) of a transposed block is
  w_in[off + j, c], and entry j of a bias block is b_in[off + j], for off = 0, 64, 128.

  Between the two regions it transposes w_out : [1024, 64] to [64, 1024], narrows it, and regroups the 64 rows as
  16 heads of 4 lanes, [16, 4, 1024] in row-major order: entry (h, d, n) is w_out[n, 4h + d].

  Every other buffer keeps what it held before the stretch.
-/
import proofs.«117134_j33835752358170_2_alg».proof.Proof.Gen.KernelIdeal.Launch
import proofs.«117134_j33835752358170_2_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Host

open Cert.KernelIdeal Cert.KernelIdeal.Gen Idealize.ShloMosaic Idealize.ShloMosaic.TcCoe Idealize.ShloMosaic.ValueIdx
open Idealize.ShloMosaic.StableHlo
open Cert.Attn (col hcol)

/-! ## The layout chains, for any operand -/

/-- Rows off … off + 63 of a [192, 1024] array, transposed and narrowed: entry (c, j) is the array's entry (off + j, c). -/
theorem rowsT_apply (x : FVec Ideal S192x1024 .f32) (off : Nat) (hoff : off + 64 ≤ 192)
    (hs : S192x1024.Slices ![off, 0] S64x1024) (ht : S64x1024.Transposes [1, 0] S1024x64)
    (hb : (FTy.bf16).bits < (FTy.f32).bits) (c : Fin 1024) (j : Fin 64) :
    (truncf .bf16 (transpose S1024x64 [1, 0] (extractStridedSlice S64x1024 ![off, 0] x hs) ht) hb : FVec Ideal S1024x64 .bf16) (ix2 c j)
      = x (ix2 (⟨off + j.val, by have := j.isLt; omega⟩ : Fin 192) c) := by
  rw [truncf_apply]
  refine (transpose_apply [1, 0] _ ht (ix2 c j) (ix2 j c) (fun b => match b with | ⟨0, _⟩ => rfl | ⟨1, _⟩ => rfl)).trans ?_
  exact extractStridedSlice_apply ![off, 0] x hs (ix2 j c) _ (fun a => match a with
    | ⟨0, _⟩ => rfl
    | ⟨1, _⟩ => by show c.val = 0 + c.val; omega)

/-- Entries off … off + 63 of a [192] array: entry j is the array's entry off + j. -/
theorem block_apply (x : FVec Ideal S192 .f32) (off : Nat) (hoff : off + 64 ≤ 192) (hs : S192.Slices ![off] S64) (j : Fin 64) :
    extractStridedSlice S64 ![off] x hs (ix1 j) = x (ix1 (⟨off + j.val, by have := j.isLt; omega⟩ : Fin 192)) :=
  extractStridedSlice_apply ![off] x hs (ix1 j) _ (fun a => match a with | ⟨0, _⟩ => rfl)

/-- A [1024, 64] array transposed, narrowed, and its 64 rows regrouped as 16 × 4: entry (h, d, n) is the array's
    entry (n, 4h + d). -/
theorem headsT_apply (x : FVec Ideal S1024x64 .f32) (ht : S1024x64.Transposes [1, 0] S64x1024)
    (hb : (FTy.bf16).bits < (FTy.f32).bits) (hc : S64x1024.ShapeCasts S16x4x1024) (h : Fin 16) (d : Fin 4) (n : Fin 1024) :
    shapeCast S16x4x1024 (truncf .bf16 (transpose S64x1024 [1, 0] x ht) hb : FVec Ideal S64x1024 .bf16) hc (ix3 h d n)
      = x (ix2 n (hcol h d)) := by
  refine (shapeCast_apply _ hc (ix3 h d n) (ix2 (hcol h d) n) ?_).trans ?_
  · rw [Shape.rowMajor_val_two, Shape.rowMajor_val_three]
    show (4 * h.val + d.val) * 1024 + n.val = (h.val * 4 + d.val) * 1024 + n.val
    omega
  · rw [truncf_apply]
    exact transpose_apply [1, 0] x ht _ (ix2 n (hcol h d)) (fun b => match b with | ⟨0, _⟩ => rfl | ⟨1, _⟩ => rfl)

variable (W : Valuation τ sig (Elt Ideal))

/-! ## The first stretch -/

/-- The queries' weights, transposed: entry (c, j) is w_in[j, c]. -/
theorem v2_apply (c : Fin 1024) (j : Fin 64) :
    (StableHlo.after (hostOps0 (F := Ideal)) W (Proc.devRef .tc main_v2) : FVec Ideal S1024x64 .bf16) (ix2 c j)
      = (W (Proc.devRef .tc main_arg1) : FVec Ideal S192x1024 .f32) (ix2 (⟨j.val, by have := j.isLt; omega⟩ : Fin 192) c) := by
  dsimp only [hostOps0]
  after_results
  refine (rowsT_apply _ 0 (by omega) _ _ _ c j).trans ?_
  exact congrArg _ (congrArg (fun r => ix2 r c) (Fin.ext (Nat.zero_add _)))
/-- The keys' weights, transposed: entry (c, j) is w_in[64 + j, c]. -/
theorem v5_apply (c : Fin 1024) (j : Fin 64) :
    (StableHlo.after (hostOps0 (F := Ideal)) W (Proc.devRef .tc main_v5) : FVec Ideal S1024x64 .bf16) (ix2 c j)
      = (W (Proc.devRef .tc main_arg1) : FVec Ideal S192x1024 .f32) (ix2 (⟨64 + j.val, by have := j.isLt; omega⟩ : Fin 192) c) := by
  dsimp only [hostOps0]
  after_results
  exact rowsT_apply _ 64 (by omega) _ _ _ c j
/-- The values' weights, transposed: entry (c, j) is w_in[128 + j, c]. -/
theorem v8_apply (c : Fin 1024) (j : Fin 64) :
    (StableHlo.after (hostOps0 (F := Ideal)) W (Proc.devRef .tc main_v8) : FVec Ideal S1024x64 .bf16) (ix2 c j)
      = (W (Proc.devRef .tc main_arg1) : FVec Ideal S192x1024 .f32) (ix2 (⟨128 + j.val, by have := j.isLt; omega⟩ : Fin 192) c) := by
  dsimp only [hostOps0]
  after_results
  exact rowsT_apply _ 128 (by omega) _ _ _ c j

/-- The queries' bias: entry j is b_in[j]. -/
theorem v9_apply (j : Fin 64) :
    (StableHlo.after (hostOps0 (F := Ideal)) W (Proc.devRef .tc main_v9) : FVec Ideal S64 .f32) (ix1 j)
      = (W (Proc.devRef .tc main_arg2) : FVec Ideal S192 .f32) (ix1 (⟨j.val, by have := j.isLt; omega⟩ : Fin 192)) := by
  dsimp only [hostOps0]
  after_results
  refine (block_apply _ 0 (by omega) _ j).trans ?_
  exact congrArg _ (congrArg (fun r => ix1 r) (Fin.ext (Nat.zero_add _)))
/-- The keys' bias: entry j is b_in[64 + j]. -/
theorem v10_apply (j : Fin 64) :
    (StableHlo.after (hostOps0 (F := Ideal)) W (Proc.devRef .tc main_v10) : FVec Ideal S64 .f32) (ix1 j)
      = (W (Proc.devRef .tc main_arg2) : FVec Ideal S192 .f32) (ix1 (⟨64 + j.val, by have := j.isLt; omega⟩ : Fin 192)) := by
  dsimp only [hostOps0]
  after_results
  exact block_apply _ 64 (by omega) _ j
/-- The values' bias: entry j is b_in[128 + j]. -/
theorem v11_apply (j : Fin 64) :
    (StableHlo.after (hostOps0 (F := Ideal)) W (Proc.devRef .tc main_v11) : FVec Ideal S64 .f32) (ix1 j)
      = (W (Proc.devRef .tc main_arg2) : FVec Ideal S192 .f32) (ix1 (⟨128 + j.val, by have := j.isLt; omega⟩ : Fin 192)) := by
  dsimp only [hostOps0]
  after_results
  exact block_apply _ 128 (by omega) _ j

/-! ### The same at column 4h + d, in the specification's columns

Row `off + (4h + d)` of w_in, and entry `off + (4h + d)` of b_in, are the specification's `col off h d`. -/

theorem v2_apply_col (c : Fin 1024) (h : Fin 16) (d : Fin 4) :
    (StableHlo.after (hostOps0 (F := Ideal)) W (Proc.devRef .tc main_v2) : FVec Ideal S1024x64 .bf16) (ix2 c (hcol h d))
      = (W (Proc.devRef .tc main_arg1) : FVec Ideal S192x1024 .f32) (ix2 (col 0 (by omega) h d) c) :=
  (v2_apply W c (hcol h d)).trans (congrArg _ (congrArg (fun r => ix2 r c) (Fin.ext (Nat.zero_add _).symm)))
theorem v5_apply_col (c : Fin 1024) (h : Fin 16) (d : Fin 4) :
    (StableHlo.after (hostOps0 (F := Ideal)) W (Proc.devRef .tc main_v5) : FVec Ideal S1024x64 .bf16) (ix2 c (hcol h d))
      = (W (Proc.devRef .tc main_arg1) : FVec Ideal S192x1024 .f32) (ix2 (col 64 (by omega) h d) c) :=
  v5_apply W c (hcol h d)
theorem v8_apply_col (c : Fin 1024) (h : Fin 16) (d : Fin 4) :
    (StableHlo.after (hostOps0 (F := Ideal)) W (Proc.devRef .tc main_v8) : FVec Ideal S1024x64 .bf16) (ix2 c (hcol h d))
      = (W (Proc.devRef .tc main_arg1) : FVec Ideal S192x1024 .f32) (ix2 (col 128 (by omega) h d) c) :=
  v8_apply W c (hcol h d)
theorem v9_apply_col (h : Fin 16) (d : Fin 4) :
    (StableHlo.after (hostOps0 (F := Ideal)) W (Proc.devRef .tc main_v9) : FVec Ideal S64 .f32) (ix1 (hcol h d))
      = (W (Proc.devRef .tc main_arg2) : FVec Ideal S192 .f32) (ix1 (col 0 (by omega) h d)) :=
  (v9_apply W (hcol h d)).trans (congrArg _ (congrArg (fun r => ix1 r) (Fin.ext (Nat.zero_add _).symm)))
theorem v10_apply_col (h : Fin 16) (d : Fin 4) :
    (StableHlo.after (hostOps0 (F := Ideal)) W (Proc.devRef .tc main_v10) : FVec Ideal S64 .f32) (ix1 (hcol h d))
      = (W (Proc.devRef .tc main_arg2) : FVec Ideal S192 .f32) (ix1 (col 64 (by omega) h d)) :=
  v10_apply W (hcol h d)
theorem v11_apply_col (h : Fin 16) (d : Fin 4) :
    (StableHlo.after (hostOps0 (F := Ideal)) W (Proc.devRef .tc main_v11) : FVec Ideal S64 .f32) (ix1 (hcol h d))
      = (W (Proc.devRef .tc main_arg2) : FVec Ideal S192 .f32) (ix1 (col 128 (by omega) h d)) :=
  v11_apply W (hcol h d)

/-- The first stretch does not write x. -/
theorem arg0_after0 :
    StableHlo.after (hostOps0 (F := Ideal)) W (Proc.devRef .tc main_arg0) = W (Proc.devRef .tc main_arg0) := by
  dsimp only [hostOps0]
  after_results

/-! ## The second stretch -/

/-- The output weights by head: entry (h, d, n) is w_out[n, 4h + d]. -/
theorem v15_apply (h : Fin 16) (d : Fin 4) (n : Fin 1024) :
    (StableHlo.after (hostOps1 (F := Ideal)) W (Proc.devRef .tc main_v15) : FVec Ideal S16x4x1024 .bf16) (ix3 h d n)
      = (W (Proc.devRef .tc main_arg3) : FVec Ideal S1024x64 .f32) (ix2 n (hcol h d)) := by
  dsimp only [hostOps1]
  after_results
  exact headsT_apply _ _ _ _ h d n

/-- The second stretch does not write the three head-output arrays … -/
theorem v12_0_after1 :
    StableHlo.after (hostOps1 (F := Ideal)) W (Proc.devRef .tc main_v12_0) = W (Proc.devRef .tc main_v12_0) := by
  dsimp only [hostOps1]
  after_results
theorem v12_1_after1 :
    StableHlo.after (hostOps1 (F := Ideal)) W (Proc.devRef .tc main_v12_1) = W (Proc.devRef .tc main_v12_1) := by
  dsimp only [hostOps1]
  after_results
theorem v12_2_after1 :
    StableHlo.after (hostOps1 (F := Ideal)) W (Proc.devRef .tc main_v12_2) = W (Proc.devRef .tc main_v12_2) := by
  dsimp only [hostOps1]
  after_results
/-- … nor b_out. -/
theorem arg4_after1 :
    StableHlo.after (hostOps1 (F := Ideal)) W (Proc.devRef .tc main_arg4) = W (Proc.devRef .tc main_arg4) := by
  dsimp only [hostOps1]
  after_results

end Cert.KernelIdeal.Host

end
-- ==== Proof.Final.lean ====
import proofs.«117134_j33835752358170_2_alg».proof.Proof.KI.Run
import proofs.«117134_j33835752358170_2_alg».proof.Proof.Arr0
import proofs.«117134_j33835752358170_2_alg».proof.Proof.Arr1
import proofs.«117134_j33835752358170_2_alg».proof.Proof.Blk1
import proofs.«117134_j33835752358170_2_alg».proof.Proof.HostStages

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Fr ValueIdx Cert.Attn

/-! # The kernel program's result as a function of the launch memory

The projection call's three arrays pass the second host stretch unchanged and are what the attention call reads; its
weights are the three thirds of w_in transposed (the first host stretch), the attention call's are w_out transposed and
split by head (the second). So the result buffer ends at the specification's kernel form of the argument arrays. -/

variable (m : (ℓ : Loc nD τ sig) → Buf (Elt Ideal) ℓ)

/-- The argument arrays of the launch memory on core `c`, by coordinates. -/
abbrev margs (c : Dev nD) : Args :=
  kargs (m ((c : Thread nD τ).loc main_arg0)) (m ((c : Thread nD τ).loc main_arg1)) (m ((c : Thread nD τ).loc main_arg2))
    (m ((c : Thread nD τ).loc main_arg3)) (m ((c : Thread nD τ).loc main_arg4))

theorem B1_arg (c : Dev nD) (r : Ref sig .tc) (h : r ∉ hostOps0_W) : B1 m c (Proc.devRef .tc r) = m ((c : Thread nD τ).loc r) :=
  StableHlo.after_of_writes_sub hostOps0 _ hostOps0_writes h

theorem B2_main_arg3 (c : Dev nD) : B2 m c (Proc.devRef .tc main_arg3) = m ((c : Thread nD τ).loc main_arg3) :=
  (B2_of_ne m c main_arg3 (by decide)).trans (B1_arg m c main_arg3 (by decide))
theorem B2_main_arg4 (c : Dev nD) : B2 m c (Proc.devRef .tc main_arg4) = m ((c : Thread nD τ).loc main_arg4) :=
  (B2_of_ne m c main_arg4 (by decide)).trans (B1_arg m c main_arg4 (by decide))

/-- The queries' array as the attention call finds it. -/
theorem E3_q (c : Dev nD) : E3 m c main_v12_0 = arr (m ((c : Thread nD τ).loc main_arg0)) (E1 m c main_v2) (E1 m c main_v9) :=
  (Cert.KernelIdeal.Host.v12_0_after1 (B2 m c)).trans ((B2_arr m c 7).trans ((arr0_7 (E1 m) c).trans
    (congrArg (fun x => arr x (E1 m c main_v2) (E1 m c main_v9)) (B1_arg m c main_arg0 (by decide)))))
/-- The keys' array. -/
theorem E3_k (c : Dev nD) : E3 m c main_v12_1 = arr (m ((c : Thread nD τ).loc main_arg0)) (E1 m c main_v5) (E1 m c main_v10) :=
  (Cert.KernelIdeal.Host.v12_1_after1 (B2 m c)).trans ((B2_arr m c 8).trans ((arr0_8 (E1 m) c).trans
    (congrArg (fun x => arr x (E1 m c main_v5) (E1 m c main_v10)) (B1_arg m c main_arg0 (by decide)))))
/-- The values' array. -/
theorem E3_v (c : Dev nD) : E3 m c main_v12_2 = arr (m ((c : Thread nD τ).loc main_arg0)) (E1 m c main_v8) (E1 m c main_v11) :=
  (Cert.KernelIdeal.Host.v12_2_after1 (B2 m c)).trans ((B2_arr m c 9).trans ((arr0_9 (E1 m) c).trans
    (congrArg (fun x => arr x (E1 m c main_v8) (E1 m c main_v11)) (B1_arg m c main_arg0 (by decide)))))

/-- THE RESULT: what the attention pipeline's write-backs leave in the result array is the specification's kernel
    form of the launch memory's argument arrays. -/
theorem result_eq (c : Dev nD) :
    (dat1 (E3 m) c).arrAt 5 cfg1.N = fun i => outKer (margs m c) (i 0) (i 1) (i 2) := by
  rw [arr1_5 (E3 m) c, E3_q, E3_k, E3_v]
  have hb : E3 m c main_arg4 = m ((c : Thread nD τ).loc main_arg4) :=
    (Cert.KernelIdeal.Host.arg4_after1 (B2 m c)).trans (B2_main_arg4 m c)
  rw [hb]
  refine arr1_eq_outKer _ _ _ _ _ _ _ _ _ _ _ (E3 m c main_v15)
    (fun cc h d => Cert.KernelIdeal.Host.v2_apply_col (B0 m c) cc h d)
    (fun cc h d => Cert.KernelIdeal.Host.v5_apply_col (B0 m c) cc h d)
    (fun cc h d => Cert.KernelIdeal.Host.v8_apply_col (B0 m c) cc h d)
    (fun h d => Cert.KernelIdeal.Host.v9_apply_col (B0 m c) h d)
    (fun h d => Cert.KernelIdeal.Host.v10_apply_col (B0 m c) h d)
    (fun h d => Cert.KernelIdeal.Host.v11_apply_col (B0 m c) h d)
    (fun h d n => (Cert.KernelIdeal.Host.v15_apply (B2 m c) h d n).trans (congrFun (B2_main_arg3 m c) _))

end Cert.KernelIdeal.Val

end
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.Reals.lean ====
/-
  The two spellings of the score agree (dividing by 8 is multiplying by 1/8), and under real-valued argument
  arrays every intermediate quantity of the attention is the inclusion of a real number: projections, queries,
  keys, values, dot products and scores are finite sums and products of reals; the maximum of a nonempty row of
  reals is a real; each softmax weight is the exponential of a real, a positive real; their total is a positive real.
-/
import proofs.«117134_j33835752358170_2_alg».proof.Proof.Spec
import proofs.«117134_j33835752358170_2_alg».proof.Proof.LibERealSums

noncomputable section

namespace Cert.Attn

open Idealize.ShloMosaic

/-! ### The two constants and the scores -/

/-- The binary32 word 0x41000000 denotes the real number 8. -/
theorem ofBits_eight : Ideal.ofBits .f32 0x41000000#32 = ((8 : ℝ) : EReal) := by
  simp [Ideal.ofBits, Ideal.ieee]
  rw [← EReal.coe_mul]
  congr 1
  norm_num

/-- The binary32 word 0x3E000000 denotes the real number 1/8. -/
theorem ofBits_eighth : Ideal.ofBits .f32 0x3E000000#32 = ((1 / 8 : ℝ) : EReal) := by
  simp [Ideal.ofBits, Ideal.ieee]
  rw [← EReal.coe_mul]
  congr 1
  norm_num

/-- Multiplying by 1/8 and dividing by 8 agree on every extended real, the infinities included. -/
theorem scoreKer_eq_scoreRef (A : Args) (b : Fin 4) (h : Fin 16) (s l : Fin 2048) :
    scoreKer A b h s l = scoreRef A b h s l := by
  rw [scoreKer, scoreRef, ofBits_eight, ofBits_eighth, Ideal.div_coe (by norm_num)]

/-! ### Real-valued extended reals are closed under finite sums and products -/

/-- An extended real that is the inclusion of a real number. -/
def IsReal (e : EReal) : Prop := ∃ r : ℝ, e = r

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.sum {ι : Type} [Fintype ι] {f : ι → EReal} (hf : ∀ i, IsReal (f i)) : IsReal (∑ i, f i) := by
  choose g hg using hf
  exact ⟨∑ i, g i, by rw [coe_sum_univ]; exact Finset.sum_congr rfl fun i _ => hg i⟩

/-! ### The attention's intermediate quantities -/

/-- All five argument arrays are real-valued. -/
structure RealArgs (A : Args) : Prop where
  x : ∀ b s c, IsReal (A.x b s c)
  wIn : ∀ j c, IsReal (A.wIn j c)
  bIn : ∀ j, IsReal (A.bIn j)
  wOut : ∀ n j, IsReal (A.wOut n j)
  bOut : ∀ n, IsReal (A.bOut n)

variable {A : Args}

theorem proj_isReal (hA : RealArgs A) (b : Fin 4) (s : Fin 2048) (j : Fin 192) : IsReal (proj A b s j) :=
  (IsReal.sum fun c => (hA.x b s c).mul (hA.wIn j c)).add (hA.bIn j)

theorem q_isReal (hA : RealArgs A) (b : Fin 4) (h : Fin 16) (s : Fin 2048) (d : Fin 4) : IsReal (q A b h s d) :=
  proj_isReal hA b s _

theorem k_isReal (hA : RealArgs A) (b : Fin 4) (h : Fin 16) (s : Fin 2048) (d : Fin 4) : IsReal (k A b h s d) :=
  proj_isReal hA b s _

theorem v_isReal (hA : RealArgs A) (b : Fin 4) (h : Fin 16) (s : Fin 2048) (d : Fin 4) : IsReal (v A b h s d) :=
  proj_isReal hA b s _

theorem qk_isReal (hA : RealArgs A) (b : Fin 4) (h : Fin 16) (s l : Fin 2048) : IsReal (qk A b h s l) :=
  IsReal.sum fun d => (q_isReal hA b h s d).mul (k_isReal hA b h l d)

theorem scoreRef_isReal (hA : RealArgs A) (b : Fin 4) (h : Fin 16) (s l : Fin 2048) :
    IsReal (scoreRef A b h s l) := by
  rw [← scoreKer_eq_scoreRef, scoreKer, ofBits_eighth]
  exact (qk_isReal hA b h s l).mul ⟨_, rfl⟩

/-! ### A row of real scores: its maximum, its weights, their total -/

variable {sc : Fin 2048 → EReal}

/-- The maximum of a row of 2048 reals, folded from −∞, is a real: the row is not empty. -/
theorem rowMax_isReal (hsc : ∀ l, IsReal (sc l)) : IsReal (rowMax sc) := by
  choose S hS using hsc
  obtain ⟨ρ, hρ⟩ := fold_max_coe_exists (Finset.univ : Finset (Fin 2048)) ⟨0, Finset.mem_univ _⟩ S
  refine ⟨ρ, ?_⟩
  rw [rowMax, ← hρ]
  exact Finset.fold_congr fun l _ => hS l

/-- Each weight is the exponential of a real: a positive real. -/
theorem wt_pos_real (hsc : ∀ l, IsReal (sc l)) (l : Fin 2048) : ∃ p : ℝ, 0 < p ∧ wt sc l = p := by
  obtain ⟨ρ, hρ⟩ := rowMax_isReal hsc
  obtain ⟨x, hx⟩ := hsc l
  refine ⟨Real.exp (x - ρ), Real.exp_pos _, ?_⟩
  rw [wt, hρ, hx, ← EReal.coe_sub, Ideal.exp_coe]

/-- The total of 2048 positive reals is a positive real. -/
theorem tot_pos_real (hsc : ∀ l, IsReal (sc l)) : ∃ L : ℝ, 0 < L ∧ tot sc = L := by
  choose p hp hwt using wt_pos_real hsc
  refine ⟨∑ l, p l, Finset.sum_pos (fun l _ => hp l) ⟨0, Finset.mem_univ _⟩, ?_⟩
  rw [tot, coe_sum_univ]
  exact Finset.sum_congr rfl fun l _ => hwt l

end Cert.Attn

end
-- ==== Proof.Algebra.lean ====
/-
  Normalising each softmax weight before the sum over the keys, or dividing the unnormalised sum by the total
  afterwards, gives the same real number; and contracting the 64 head columns in one sum is the same as
  contracting head by head, four columns at a time: column j of 64 is column (j / 4, j % 4) of 16 × 4.
-/
import proofs.«117134_j33835752358170_2_alg».proof.Proof.Reals

noncomputable section

namespace Cert.Attn

open Idealize.ShloMosaic

/-! ### Dividing before or after the sum over the keys -/

/-- For a row of real scores and real values, (Σ_l p_l · v_l) / L = Σ_l (p_l / L) · v_l: the total L is a
    nonzero real, so both divisions are products with the real 1 / L, and the identity is one of real numbers. -/
theorem div_sum_eq_sum_div {sc vv : Fin 2048 → EReal} (hsc : ∀ l, IsReal (sc l)) (hvv : ∀ l, IsReal (vv l)) :
    Ideal.div (∑ l, wt sc l * vv l) (tot sc) = ∑ l, Ideal.div (wt sc l) (tot sc) * vv l := by
  choose p _hpos hp using wt_pos_real hsc
  obtain ⟨L, hL, hLeq⟩ := tot_pos_real hsc
  choose V hV using hvv
  have hterm : ∀ l, ((p l : ℝ) : EReal) * ((1 / L : ℝ) : EReal) * ((V l : ℝ) : EReal)
      = ((p l * (1 / L) * V l : ℝ) : EReal) := fun l => by rw [EReal.coe_mul, EReal.coe_mul]
  simp only [hLeq, Ideal.div_coe hL.ne', hp, hV, hterm]
  rw [sum_coe_mul_coe, ← EReal.coe_mul, ← coe_sum_univ, Finset.sum_mul]
  congr 1
  exact Finset.sum_congr rfl fun l _ => by ring

variable {A : Args}

/-- The two spellings of a head's output agree under real-valued arguments. -/
theorem headKer_eq_headRef (hA : RealArgs A) (b : Fin 4) (h : Fin 16) (s : Fin 2048) (d : Fin 4) :
    headKer A b h s d = headRef A b h s d := by
  have hsc : scoreKer A b h s = scoreRef A b h s := funext fun l => scoreKer_eq_scoreRef A b h s l
  rw [headKer, headRef, hsc]
  exact div_sum_eq_sum_div (fun l => scoreRef_isReal hA b h s l) (fun l => v_isReal hA b h l d)

/-! ### The 64 head columns as 16 heads of 4 columns -/

/-- The pair (h, d) ↦ column 4h + d is a bijection of 16 × 4 onto 64, with inverse j ↦ (j / 4, j % 4). -/
def colEquiv : Fin 16 × Fin 4 ≃ Fin 64 where
  toFun p := hcol p.1 p.2
  invFun j := (⟨j.val / 4, by have := j.isLt; omega⟩, ⟨j.val % 4, Nat.mod_lt _ (by omega)⟩)
  left_inv p := by
    obtain ⟨h, d⟩ := p
    have := d.isLt
    refine Prod.ext (Fin.ext ?_) (Fin.ext ?_) <;> simp only [hcol] <;> omega
  right_inv j := by
    refine Fin.ext ?_
    simp only [hcol]
    omega

/-- A sum over the 64 columns is the double sum over heads and columns within the head (in any commutative
    additive monoid: no finiteness is involved). -/
theorem sum_hcol {M : Type} [AddCommMonoid M] (g : Fin 64 → M) :
    ∑ j, g j = ∑ h : Fin 16, ∑ d : Fin 4, g (hcol h d) := by
  rw [← Equiv.sum_comp colEquiv g, Fintype.sum_prod_type]
  rfl

theorem hcol_div (h : Fin 16) (d : Fin 4) (p : (hcol h d).val / 4 < 16) :
    (⟨(hcol h d).val / 4, p⟩ : Fin 16) = h := by
  have := d.isLt
  refine Fin.ext ?_
  simp only [hcol]
  omega

theorem hcol_mod (h : Fin 16) (d : Fin 4) (p : (hcol h d).val % 4 < 4) :
    (⟨(hcol h d).val % 4, p⟩ : Fin 4) = d := by
  have := d.isLt
  refine Fin.ext ?_
  simp only [hcol]
  omega

/-! ### The result -/

theorem outKer_eq_outRef_of_real (hA : RealArgs A) (b : Fin 4) (s : Fin 2048) (n : Fin 1024) :
    outKer A b s n = outRef A b s n := by
  rw [outKer, outRef, sum_hcol]
  simp only [hcol_div, hcol_mod, headKer_eq_headRef hA]

/-- Under real-valued argument arrays the two spellings of the attention agree at every index. -/
theorem outKer_eq_outRef (A : Args) (hx : ∀ b s c, ∃ r : ℝ, A.x b s c = r) (hw : ∀ j c, ∃ r : ℝ, A.wIn j c = r)
    (hb : ∀ j, ∃ r : ℝ, A.bIn j = r) (hwo : ∀ n j, ∃ r : ℝ, A.wOut n j = r) (hbo : ∀ n, ∃ r : ℝ, A.bOut n = r)
    (b : Fin 4) (s : Fin 2048) (n : Fin 1024) : outKer A b s n = outRef A b s n :=
  outKer_eq_outRef_of_real ⟨hx, hw, hb, hwo, hbo⟩ b s n

end Cert.Attn

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.FiniteArgs.lean ====
/-
  From the precondition to real entries.

  The precondition is the conjunction, over the five argument arrays, of "every entry x satisfies |x| < +∞":
  each array is compared entrywise, max(x, −x) against the float word of +∞, the comparison bits are folded
  by `and` from 1 into one bit, and the five bits are joined by `and`. Where the whole is 1, every fold is 1,
  so every comparison bit is 1, and an extended real whose absolute value is below ⊤ is a real number.
-/
import proofs.«117134_j33835752358170_2_alg».proof.Pre_finite_inputs
import proofs.«117134_j33835752358170_2_alg».proof.Proof.LibFiniteEntry
import Idealize.ShloMosaic.Lib.ReduceAll
import Idealize.ShloMosaic.Lib.ValueIdx

noncomputable section

namespace Cert.Attn.FiniteArgs

open Idealize.ShloMosaic Cert.Pre_finite_inputs

/-- The scalar shape has one index. -/
instance : Subsingleton S_.Idx := ⟨fun a b => funext fun d => d.elim0⟩

/-- One array: if the fold by `and` of the bits "|x i| < +∞" is 1, every entry is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1)
    (i : s.Idx) : ∃ r : ℝ, x i = (r : EReal) :=
  Ideal.real_of_abs_lt_inf (x i) (Host.reduce_andi_all _ _ hr hu _ e i)

variable [Cert.Pre_finite_inputs.Facts]

/-- Under the precondition every entry of each of the five argument arrays is a real number. -/
theorem real_entries (a0 : FVec Ideal S4x2048x1024 .f32) (a1 : FVec Ideal S192x1024 .f32) (a2 : FVec Ideal S192 .f32)
    (a3 : FVec Ideal S1024x64 .f32) (a4 : FVec Ideal S1024 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h ValueIdx.ix0
  dsimp only [Cert.Pre_finite_inputs.fn, Cert.Pre_finite_inputs.fn_part1] at e
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨real_of_all a0 _ _ _ e0, real_of_all a1 _ _ _ e1, real_of_all a2 _ _ _ e2, real_of_all a3 _ _ _ e3,
    real_of_all a4 _ _ _ e4⟩

end Cert.Attn.FiniteArgs

end
-- ==== Proof.RefProj.lean ====
/-
  The reference's fused projection and its three column blocks, read at coordinates.

  The reference multiplies x : [4, 2048, 1024] against w_in : [192, 1024] over the last axis of each and adds the
  bias b_in broadcast over the first two axes: entry (b, s, j) is Σ_c x[b, s, c] · w_in[j, c] + b_in[j]. It then cuts
  the 192 columns into three blocks of 64 (queries, keys, values), splits each block's 64 columns into 16 heads of
  width 4 (column 4h + d is head h, lane d: a row-major regrouping of [4, 2048, 64] as [4, 2048, 16, 4]) and swaps
  the sequence and head axes. So entry (b, h, s, d) of the three [4, 16, 2048, 4] arrays is the projection at
  (b, s, off + 4h + d) for off = 0, 64, 128.
-/
import proofs.«117134_j33835752358170_2_alg».proof.Proof.Gen.ReferenceIdeal.Read
import proofs.«117134_j33835752358170_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Attn (Args proj q k v qk scoreRef rowMax wt tot headRef outRef col)

/-- The argument arrays by coordinates. -/
def args (a0 : FVec Ideal S4x2048x1024 .f32) (a1 : FVec Ideal S192x1024 .f32) (a2 : FVec Ideal S192 .f32)
    (a3 : FVec Ideal S1024x64 .f32) (a4 : FVec Ideal S1024 .f32) : Args :=
  ⟨fun b s c => a0 (ix3 b s c), fun j c => a1 (ix2 j c), fun j => a2 (ix1 j), fun n j => a3 (ix2 n j), fun n => a4 (ix1 n)⟩

variable (a0 : FVec Ideal S4x2048x1024 .f32) (a1 : FVec Ideal S192x1024 .f32) (a2 : FVec Ideal S192 .f32)
  (a3 : FVec Ideal S1024x64 .f32) (a4 : FVec Ideal S1024 .f32)

/-! ## The fused projection -/

/-- Term c of the contraction at (b, s, j) reads x at (b, s, c) … -/
theorem lidx_proj (b : Fin 4) (s : Fin 2048) (j : Fin 192) (c : Fin 1024) :
    lidx_main_v0 (ix3 b s j) c = ix3 b s c := by
  funext a; match a with | ⟨0, _⟩ => rfl | ⟨1, _⟩ => rfl | ⟨2, _⟩ => rfl
/-- … and w_in at (j, c). -/
theorem ridx_proj (b : Fin 4) (s : Fin 2048) (j : Fin 192) (c : Fin 1024) :
    ridx_main_v0 (ix3 b s j) c = ix2 j c := by
  funext a; match a with | ⟨0, _⟩ => rfl | ⟨1, _⟩ => rfl
/-- The bias broadcast to [4, 2048, 192] reads b_in at j. -/
theorem idx_bias (b : Fin 4) (s : Fin 2048) (j : Fin 192) :
    idx_main_v1 (idx_main_v2 (ix3 b s j)) = ix1 j := by
  funext a; match a with | ⟨0, _⟩ => rfl

/-- Entry (b, s, j) of the projection plus bias. -/
theorem proj_eq (b : Fin 4) (s : Fin 2048) (j : Fin 192) :
    val_main_v3 (F := Ideal) a0 a1 a2 (ix3 b s j) = proj (args a0 a1 a2 a3 a4) b s j := by
  rw [val_main_v3_apply, val_main_v0_apply, val_main_v2_apply, val_main_v1_apply, idx_bias]
  simp only [lidx_proj, ridx_proj]
  rfl

/-! ## The three column blocks, by head -/

/-- Entry (b, h, s, d) of the transposed regrouping of a 64-column block reads the block at (b, s, 4h + d); the block
    starting at column `off` reads the projection at column `off + (4h + d)`. Queries: `off = 0`. -/
theorem idx_q (b : Fin 4) (h : Fin 16) (s : Fin 2048) (d : Fin 4) :
    idx_main_v4 (idx_main_v7 (idx_main_v8 (ix4 b h s d))) = ix3 b s (col 0 (by omega) h d) := by
  have hb := b.isLt; have hh := h.isLt; have hs := s.isLt; have hd := d.isLt
  funext a
  match a with
  | ⟨0, _⟩ => exact Fin.ext (show ((((b.val * 2048 + s.val) * 16 + h.val) * 4 + d.val) / 131072 = b.val) by omega)
  | ⟨1, _⟩ => exact Fin.ext (show ((((b.val * 2048 + s.val) * 16 + h.val) * 4 + d.val) / 64 % 2048 = s.val) by omega)
  | ⟨2, _⟩ => exact Fin.ext (show ((((b.val * 2048 + s.val) * 16 + h.val) * 4 + d.val) % 64 = 0 + (4 * h.val + d.val)) by omega)
/-- Keys: `off = 64`. -/
theorem idx_k (b : Fin 4) (h : Fin 16) (s : Fin 2048) (d : Fin 4) :
    idx_main_v5 (idx_main_v9 (idx_main_v10 (ix4 b h s d))) = ix3 b s (col 64 (by omega) h d) := by
  have hb := b.isLt; have hh := h.isLt; have hs := s.isLt; have hd := d.isLt
  funext a
  match a with
  | ⟨0, _⟩ => exact Fin.ext (show ((((b.val * 2048 + s.val) * 16 + h.val) * 4 + d.val) / 131072 = b.val) by omega)
  | ⟨1, _⟩ => exact Fin.ext (show ((((b.val * 2048 + s.val) * 16 + h.val) * 4 + d.val) / 64 % 2048 = s.val) by omega)
  | ⟨2, _⟩ => exact Fin.ext (show (64 + (((b.val * 2048 + s.val) * 16 + h.val) * 4 + d.val) % 64 = 64 + (4 * h.val + d.val)) by omega)
/-- Values: `off = 128`. -/
theorem idx_v (b : Fin 4) (h : Fin 16) (s : Fin 2048) (d : Fin 4) :
    idx_main_v6 (idx_main_v11 (idx_main_v12 (ix4 b h s d))) = ix3 b s (col 128 (by omega) h d) := by
  have hb := b.isLt; have hh := h.isLt; have hs := s.isLt; have hd := d.isLt
  funext a
  match a with
  | ⟨0, _⟩ => exact Fin.ext (show ((((b.val * 2048 + s.val) * 16 + h.val) * 4 + d.val) / 131072 = b.val) by omega)
  | ⟨1, _⟩ => exact Fin.ext (show ((((b.val * 2048 + s.val) * 16 + h.val) * 4 + d.val) / 64 % 2048 = s.val) by omega)
  | ⟨2, _⟩ => exact Fin.ext (show (128 + (((b.val * 2048 + s.val) * 16 + h.val) * 4 + d.val) % 64 = 128 + (4 * h.val + d.val)) by omega)

/-- The queries by head. -/
theorem q_eq (b : Fin 4) (h : Fin 16) (s : Fin 2048) (d : Fin 4) :
    val_main_v8 (F := Ideal) a0 a1 a2 (ix4 b h s d) = q (args a0 a1 a2 a3 a4) b h s d := by
  rw [val_main_v8_apply, val_main_v7_apply, val_main_v4_apply, idx_q, proj_eq a0 a1 a2 a3 a4]
  rfl
/-- The keys by head. -/
theorem k_eq (b : Fin 4) (h : Fin 16) (s : Fin 2048) (d : Fin 4) :
    val_main_v10 (F := Ideal) a0 a1 a2 (ix4 b h s d) = k (args a0 a1 a2 a3 a4) b h s d := by
  rw [val_main_v10_apply, val_main_v9_apply, val_main_v5_apply, idx_k, proj_eq a0 a1 a2 a3 a4]
  rfl
/-- The values by head. -/
theorem v_eq (b : Fin 4) (h : Fin 16) (s : Fin 2048) (d : Fin 4) :
    val_main_v12 (F := Ideal) a0 a1 a2 (ix4 b h s d) = v (args a0 a1 a2 a3 a4) b h s d := by
  rw [val_main_v12_apply, val_main_v11_apply, val_main_v6_apply, idx_v, proj_eq a0 a1 a2 a3 a4]
  rfl

end Cert.ReferenceIdeal.RefValue

end
-- ==== Proof.RefScore.lean ====
/-
  One row of the reference's softmax, read at coordinates.

  For a batch b, a head h and a query position s the reference forms the 2048 scores (Σ_d q[b,h,s,d] · k[b,h,l,d]) / 8,
  takes their maximum — a fold of the binary maximum over the key axis started from −∞, then once more the maximum
  with −∞, which changes nothing —, subtracts it, exponentiates, sums the 2048 exponentials starting from 0, and
  divides each exponential by that sum. These are the specification's scoreRef, rowMax, wt, tot and the quotient
  wt / tot.
-/
import proofs.«117134_j33835752358170_2_alg».proof.Proof.RefProj
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Attn (Args proj q k v qk scoreRef rowMax wt tot headRef outRef col)

variable (a0 : FVec Ideal S4x2048x1024 .f32) (a1 : FVec Ideal S192x1024 .f32) (a2 : FVec Ideal S192 .f32)
  (a3 : FVec Ideal S1024x64 .f32) (a4 : FVec Ideal S1024 .f32)

/-! ## The scores -/

/-- Term d of the score at (b, h, s, l) reads the queries at (b, h, s, d) … -/
theorem lidx_qk (b : Fin 4) (h : Fin 16) (s l : Fin 2048) (d : Fin 4) :
    lidx_main_v13 (ix4 b h s l) d = ix4 b h s d := by
  funext a; match a with | ⟨0, _⟩ => rfl | ⟨1, _⟩ => rfl | ⟨2, _⟩ => rfl | ⟨3, _⟩ => rfl
/-- … and the keys at (b, h, l, d). -/
theorem ridx_qk (b : Fin 4) (h : Fin 16) (s l : Fin 2048) (d : Fin 4) :
    ridx_main_v13 (ix4 b h s l) d = ix4 b h l d := by
  funext a; match a with | ⟨0, _⟩ => rfl | ⟨1, _⟩ => rfl | ⟨2, _⟩ => rfl | ⟨3, _⟩ => rfl

/-- The raw dot product of query s and key l. -/
theorem qk_eq (b : Fin 4) (h : Fin 16) (s l : Fin 2048) :
    val_main_v13 (F := Ideal) a0 a1 a2 (ix4 b h s l) = qk (args a0 a1 a2 a3 a4) b h s l := by
  rw [val_main_v13_apply]
  simp only [lidx_qk, ridx_qk, q_eq a0 a1 a2 a3 a4, k_eq a0 a1 a2 a3 a4]
  rfl

/-- The score: the dot product divided by the float 8. -/
theorem score_eq (b : Fin 4) (h : Fin 16) (s l : Fin 2048) :
    val_main_v15 (F := Ideal) a0 a1 a2 (ix4 b h s l) = scoreRef (args a0 a1 a2 a3 a4) b h s l := by
  rw [val_main_v15_apply, val_main_v14_apply, val_main_cst_apply, qk_eq a0 a1 a2 a3 a4]
  rfl

/-! ## The row maximum -/

/-- The float word of −∞ is the bottom of the extended reals. -/
theorem ofBits_neg_inf : Ideal.ofBits .f32 0xFF800000#32 = (⊥ : EReal) := by simp [Ideal.ofBits, Ideal.ieee]

/-- Dropping the key axis of [4, 16, 2048, 2048] leaves [4, 16, 2048]. -/
theorem reduces_keys : S4x16x2048x2048.Reduces [3] S4x16x2048 := by decide

/-- Row (b, h, s) with key l put back on the dropped axis is (b, h, s, l). -/
theorem lift_row (b : Fin 4) (h : Fin 16) (s : Fin 2048) (l : Fin (S4x16x2048x2048.size 3)) :
    reduces_keys.lift (ix3 b h s) l = ix4 b h s (⟨l.val, l.isLt⟩ : Fin 2048) := by
  funext c; apply Fin.ext
  fin_cases c <;> rfl

/-- The maximum of the row of scores at (b, h, s). -/
theorem rowMax_eq (b : Fin 4) (h : Fin 16) (s : Fin 2048) :
    val_main_v18 (F := Ideal) a0 a1 a2 (ix3 b h s) = rowMax (scoreRef (args a0 a1 a2 a3 a4) b h s) := by
  rw [val_main_v18_apply, val_main_v17_apply, val_main_cst_1_apply]
  unfold val_main_v16
  rw [Host.reduce_eq_fold_single FloatOps.maximumf _ _ _ reduces_keys h_S_]
  have hf : (val_main_v15 (F := Ideal) a0 a1 a2 ∘ reduces_keys.lift (ix3 b h s))
      = fun l : Fin 2048 => scoreRef (args a0 a1 a2 a3 a4) b h s l :=
    funext fun l => (congrArg (val_main_v15 (F := Ideal) a0 a1 a2) (lift_row b h s l)).trans (score_eq a0 a1 a2 a3 a4 b h s _)
  rw [hf, val_main_cst_0_apply]
  simp only [Ideal.ofBits_def, Ideal.maximumf_def, ofBits_neg_inf]
  exact max_bot_left _

/-! ## The weights, their total, and the normalised weights -/

/-- The row maximum broadcast back over the keys reads row (b, h, s). -/
theorem idx_rowMax (b : Fin 4) (h : Fin 16) (s l : Fin 2048) :
    idx_main_v19 (idx_main_v20 (ix4 b h s l)) = ix3 b h s := by
  funext a; match a with | ⟨0, _⟩ => rfl | ⟨1, _⟩ => rfl | ⟨2, _⟩ => rfl

/-- The unnormalised weight of key l: the exponential of its score less the row maximum. -/
theorem wt_eq (b : Fin 4) (h : Fin 16) (s l : Fin 2048) :
    val_main_v22 (F := Ideal) a0 a1 a2 (ix4 b h s l) = wt (scoreRef (args a0 a1 a2 a3 a4) b h s) l := by
  rw [val_main_v22_apply, val_main_v21_apply, val_main_v20_apply, val_main_v19_apply, idx_rowMax,
    rowMax_eq a0 a1 a2 a3 a4, score_eq a0 a1 a2 a3 a4]
  rfl

/-- Term l of the sum over the keys at (b, h, s) reads (b, h, s, l). -/
theorem idx_tot (b : Fin 4) (h : Fin 16) (s l : Fin 2048) :
    idx_main_v23 (ix3 b h s) l = ix4 b h s l := by
  funext a; match a with | ⟨0, _⟩ => rfl | ⟨1, _⟩ => rfl | ⟨2, _⟩ => rfl | ⟨3, _⟩ => rfl

/-- The total of the weights of row (b, h, s): the sum starts from the float 0. -/
theorem tot_eq (b : Fin 4) (h : Fin 16) (s : Fin 2048) :
    val_main_v23 (F := Ideal) a0 a1 a2 (ix3 b h s) = tot (scoreRef (args a0 a1 a2 a3 a4) b h s) := by
  rw [val_main_v23_apply, val_main_cst_2_apply]
  simp only [idx_tot, wt_eq a0 a1 a2 a3 a4, Ideal.ofBits_def, Ideal.ofBits_zero_f32, zero_add]
  rfl

/-- The total broadcast back over the keys reads row (b, h, s). -/
theorem idx_totBack (b : Fin 4) (h : Fin 16) (s l : Fin 2048) :
    idx_main_v24 (idx_main_v25 (ix4 b h s l)) = ix3 b h s := by
  funext a; match a with | ⟨0, _⟩ => rfl | ⟨1, _⟩ => rfl | ⟨2, _⟩ => rfl

/-- The normalised weight of key l: its weight divided by the row's total. -/
theorem prob_eq (b : Fin 4) (h : Fin 16) (s l : Fin 2048) :
    val_main_v26 (F := Ideal) a0 a1 a2 (ix4 b h s l)
      = Ideal.div (wt (scoreRef (args a0 a1 a2 a3 a4) b h s) l) (tot (scoreRef (args a0 a1 a2 a3 a4) b h s)) := by
  rw [val_main_v26_apply, val_main_v25_apply, val_main_v24_apply, idx_totBack, tot_eq a0 a1 a2 a3 a4,
    wt_eq a0 a1 a2 a3 a4]
  rfl

end Cert.ReferenceIdeal.RefValue

end
-- ==== Proof.RefIsSpec.lean ====
/-
  The reference program's result, read index by index, is the specification's `outRef`.

  With the normalised weights p[b,h,s,l] = wt / tot of a row and the values v[b,h,l,d], a head's output is
  Σ_l p[b,h,s,l] · v[b,h,l,d]. The reference swaps the head and sequence axes back and regroups the 16 heads of
  width 4 as 64 columns — column j is head j / 4, lane j % 4 —, contracts the 64 columns against w_out : [1024, 64]
  in one sum over j, and adds the bias b_out broadcast over the first two axes:
  entry (b, s, n) is Σ_j head[b, j / 4, s, j % 4] · w_out[n, j] + b_out[n].
-/
import proofs.«117134_j33835752358170_2_alg».proof.Proof.RefScore

noncomputable section

namespace Cert.ReferenceIdeal.RefValue

open Cert.ReferenceIdeal Cert.ReferenceIdeal.Gen Cert.ReferenceIdeal.Read Idealize.ShloMosaic Idealize.ShloMosaic.ValueIdx
open Cert.Attn (Args proj q k v qk scoreRef rowMax wt tot headRef outRef col)

variable (a0 : FVec Ideal S4x2048x1024 .f32) (a1 : FVec Ideal S192x1024 .f32) (a2 : FVec Ideal S192 .f32)
  (a3 : FVec Ideal S1024x64 .f32) (a4 : FVec Ideal S1024 .f32)

/-! ## A head's output -/

/-- Term l of the head output at (b, h, s, d) reads the normalised weights at (b, h, s, l) … -/
theorem lidx_head (b : Fin 4) (h : Fin 16) (s : Fin 2048) (d : Fin 4) (l : Fin 2048) :
    lidx_main_v27 (ix4 b h s d) l = ix4 b h s l := by
  funext a; match a with | ⟨0, _⟩ => rfl | ⟨1, _⟩ => rfl | ⟨2, _⟩ => rfl | ⟨3, _⟩ => rfl
/-- … and the values at (b, h, l, d). -/
theorem ridx_head (b : Fin 4) (h : Fin 16) (s : Fin 2048) (d : Fin 4) (l : Fin 2048) :
    ridx_main_v27 (ix4 b h s d) l = ix4 b h l d := by
  funext a; match a with | ⟨0, _⟩ => rfl | ⟨1, _⟩ => rfl | ⟨2, _⟩ => rfl | ⟨3, _⟩ => rfl

/-- A head's output: each weight normalised, then the weighted sum of the values over the keys. -/
theorem head_eq (b : Fin 4) (h : Fin 16) (s : Fin 2048) (d : Fin 4) :
    val_main_v27 (F := Ideal) a0 a1 a2 (ix4 b h s d) = headRef (args a0 a1 a2 a3 a4) b h s d := by
  rw [val_main_v27_apply]
  simp only [lidx_head, ridx_head, prob_eq a0 a1 a2 a3 a4, v_eq a0 a1 a2 a3 a4]
  rfl

/-! ## Back to 64 columns -/

/-- Column j of the regrouped [4, 2048, 64] array at (b, s) reads head j / 4, lane j % 4 at (b, ·, s, ·). -/
theorem idx_cols (b : Fin 4) (s : Fin 2048) (j : Fin 64) :
    idx_main_v28 (idx_main_v29 (ix3 b s j))
      = ix4 b (⟨j.val / 4, by have := j.isLt; omega⟩ : Fin 16) s (⟨j.val % 4, Nat.mod_lt _ (by omega)⟩ : Fin 4) := by
  have hb := b.isLt; have hs := s.isLt; have hj := j.isLt
  funext a
  match a with
  | ⟨0, _⟩ => exact Fin.ext (show (((b.val * 2048 + s.val) * 64 + j.val) / 131072 = b.val) by omega)
  | ⟨1, _⟩ => exact Fin.ext (show (((b.val * 2048 + s.val) * 64 + j.val) / 4 % 16 = j.val / 4) by omega)
  | ⟨2, _⟩ => exact Fin.ext (show (((b.val * 2048 + s.val) * 64 + j.val) / 64 % 2048 = s.val) by omega)
  | ⟨3, _⟩ => exact Fin.ext (show (((b.val * 2048 + s.val) * 64 + j.val) % 4 = j.val % 4) by omega)

/-- The heads laid side by side. -/
theorem cols_eq (b : Fin 4) (s : Fin 2048) (j : Fin 64) :
    val_main_v29 (F := Ideal) a0 a1 a2 (ix3 b s j)
      = headRef (args a0 a1 a2 a3 a4) b ⟨j.val / 4, by have := j.isLt; omega⟩ s ⟨j.val % 4, Nat.mod_lt _ (by omega)⟩ := by
  rw [val_main_v29_apply, val_main_v28_apply, idx_cols, head_eq a0 a1 a2 a3 a4]

/-! ## The output projection -/

/-- Term j of the output contraction at (b, s, n) reads the head columns at (b, s, j) … -/
theorem lidx_out (b : Fin 4) (s : Fin 2048) (n : Fin 1024) (j : Fin 64) :
    lidx_main_v30 (ix3 b s n) j = ix3 b s j := by
  funext a; match a with | ⟨0, _⟩ => rfl | ⟨1, _⟩ => rfl | ⟨2, _⟩ => rfl
/-- … and w_out at (n, j). -/
theorem ridx_out (b : Fin 4) (s : Fin 2048) (n : Fin 1024) (j : Fin 64) :
    ridx_main_v30 (ix3 b s n) j = ix2 n j := by
  funext a; match a with | ⟨0, _⟩ => rfl | ⟨1, _⟩ => rfl
/-- The output bias broadcast to [4, 2048, 1024] reads b_out at n. -/
theorem idx_outBias (b : Fin 4) (s : Fin 2048) (n : Fin 1024) :
    idx_main_v31 (idx_main_v32 (ix3 b s n)) = ix1 n := by
  funext a; match a with | ⟨0, _⟩ => rfl

/-- Entry (b, s, n) of the reference's result. -/
theorem out_eq (b : Fin 4) (s : Fin 2048) (n : Fin 1024) :
    val_main_v33 (F := Ideal) a0 a1 a2 a3 a4 (ix3 b s n) = outRef (args a0 a1 a2 a3 a4) b s n := by
  rw [val_main_v33_apply, val_main_v30_apply, val_main_v32_apply, val_main_v31_apply, idx_outBias]
  simp only [lidx_out, ridx_out, cols_eq a0 a1 a2 a3 a4]
  rfl

/-- THE REFERENCE IS THE SPECIFICATION: the last stage of the reference's run, as a function of the five argument
    arrays, is `outRef` of those arrays read by coordinates. -/
theorem ref_eq :
    val_main_v33 (F := Ideal) a0 a1 a2 a3 a4 = fun i => outRef (args a0 a1 a2 a3 a4) (i 0) (i 1) (i 2) := by
  funext i
  obtain ⟨b, s, n, rfl⟩ : ∃ (b : Fin 4) (s : Fin 2048) (n : Fin 1024), i = ix3 b s n := ⟨i 0, i 1, i 2, eq_ix3 i⟩
  exact out_eq a0 a1 a2 a3 a4 b s n

end Cert.ReferenceIdeal.RefValue

end
-- ==== Proof.lean ====
/-
  Multi-head attention over x : [4, 2048, 1024] (16 heads of width 4 cut out of a fused 192-column input projection,
  scores scaled by 1/8, a softmax over the 2048 keys, an output projection back to 1024 columns) computed by two TPU
  kernel calls — a projection call that writes queries, keys and values head-major, [4, 16, 4, 2048], and an attention
  call that walks the sixteen heads of a 512-row block with an accumulator kept between grid points — against the
  plain formulation on the host.

  The frames. Each kernel program terminates without a fault and leaves its five argument arrays as launched: the two
  calls are run as the library's region records over the buffer contents at the four item boundaries of @main
  (Proof/KI/Run.lean at the extended reals, Proof/K/Run.lean the same text at the machine words); the reference is a
  straight line of host operations.

  The values, at the extended reals. The kernel's result buffer ends at `outKer` of the argument arrays
  (Proof/Final.lean): the projection call's blocks tile its three arrays (Proof/Arr0.lean), and within each group of
  sixteen grid points the attention call's accumulator is the running sum of the head products, the last point adding
  the bias (Proof/Arr1.lean). The reference's result is `outRef` (Proof/RefIsSpec.lean). The two differ in where the
  division by the softmax total is taken — after the weighted sum of the values, or on every weight before it — and in
  how the 64 head columns are contracted against w_out — sixteen partial products, or one sum. Regrouping the
  contraction is free; moving the division across the sum over the keys needs every entry to be a real number, which
  the precondition gives: all inputs finite, hence all projections, scores, row maxima, weights and totals real, the
  totals positive (Proof/Reals.lean, Proof/Algebra.lean, Proof/FiniteArgs.lean).

  No operation of the kernel is rewritten by the idealization, so that claim is `True`.
-/
import proofs.«117134_j33835752358170_2_alg».proof.Defs
import proofs.«117134_j33835752358170_2_alg».proof.Proof.Gen.Kernel
import proofs.«117134_j33835752358170_2_alg».proof.Proof.Gen.Kernel.Skeleton
import proofs.«117134_j33835752358170_2_alg».proof.Proof.Gen.Kernel.Launch
import proofs.«117134_j33835752358170_2_alg».proof.Proof.Gen.Kernel.Regions
import proofs.«117134_j33835752358170_2_alg».proof.Proof.Gen.Kernel.Points
import proofs.«117134_j33835752358170_2_alg».proof.Proof.Gen.KernelIdeal
import proofs.«117134_j33835752358170_2_alg».proof.Proof.Gen.KernelIdeal.Skeleton
import proofs.«117134_j33835752358170_2_alg».proof.Proof.Gen.KernelIdeal.Launch
import proofs.«117134_j33835752358170_2_alg».proof.Proof.Gen.KernelIdeal.Regions
import proofs.«117134_j33835752358170_2_alg».proof.Proof.Gen.KernelIdeal.Points
import proofs.«117134_j33835752358170_2_alg».proof.Proof.Gen.ReferenceIdeal
import proofs.«117134_j33835752358170_2_alg».proof.Proof.Gen.Pre_finite_inputs
import proofs.«117134_j33835752358170_2_alg».proof.Proof.K.Run
import proofs.«117134_j33835752358170_2_alg».proof.Proof.KI.Run
import proofs.«117134_j33835752358170_2_alg».proof.Proof.Final
import proofs.«117134_j33835752358170_2_alg».proof.Proof.Algebra
import proofs.«117134_j33835752358170_2_alg».proof.Proof.FiniteArgs
import proofs.«117134_j33835752358170_2_alg».proof.Proof.RefIsSpec
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Fr.frame m ρ

/-- So does the kernel program read at the extended reals. -/
theorem frame_ki : Cert.frame_KernelIdeal := fun m ρ _ => Cert.KernelIdeal.Fr.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, all of them finite, both programs end with the same result array: the
    kernel's is the attention with the division taken after the sum over the keys and the output contraction taken
    head by head, the reference's the attention with every weight normalised first and one contraction over the 64
    head columns; on real entries the two are equal index by index. -/
theorem algebraic : Cert.algebraic_KernelIdeal_ReferenceIdeal := by
  intro m ρ m' ρ' hpre hagree
  refine ⟨fun c i => Cert.Attn.outKer (Cert.KernelIdeal.Val.margs m c) (i 0) (i 1) (i 2), ?_, ?_⟩
  · exact (θ_run Cert.KernelIdeal.defs _ _).mono
      (fun r h c => ⟨(h c).1.trans (Cert.KernelIdeal.Val.result_eq m c), (h c).2⟩)
      (Cert.KernelIdeal.Fr.run_named (F := Ideal) m ρ)
  · refine (θ_run Cert.ReferenceIdeal.defs _ _).mono (fun r h c => ⟨(h c).1.trans ?_, (h c).2⟩)
      (Cert.ReferenceIdeal.Value.run (F := Ideal) m' ρ')
    refine ((Cert.ReferenceIdeal.Read.val_main_v33_eq m' c).trans (Cert.ReferenceIdeal.RefValue.ref_eq _ _ _ _ _)).trans ?_
    obtain ⟨h0, h1, h2, h3, h4⟩ := hagree c
    rw [h0, h1, h2, h3, h4]
    obtain ⟨r0, r1, r2, r3, r4⟩ := Cert.Attn.FiniteArgs.real_entries _ _ _ _ _ (hpre c)
    funext i
    exact (Cert.Attn.outKer_eq_outRef (Cert.KernelIdeal.Val.margs m c) (fun b s cc => r0 _) (fun j cc => r1 _) (fun j => r2 _)
      (fun n j => r3 _) (fun n => r4 _) (i 0) (i 1) (i 2)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
